-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S4096x8192 : Shape := ⟨2, ![4096, 8192]⟩
abbrev S512x512 : Shape := ⟨2, ![512, 512]⟩
abbrev S_ : Shape := ⟨0, ![]⟩
abbrev S4096 : Shape := ⟨1, ![4096]⟩
abbrev S8192 : Shape := ⟨1, ![8192]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S512x512 : S_.BroadcastsInDim S512x512 (![] : Fin 0 → Fin S512x512.rank)
  reducesTo_S512x512_S_d0_1 : S512x512.ReducesTo [0, 1] S_
  reducesTo_S4096x8192_S4096_d1 : S4096x8192.ReducesTo [1] S4096
  bcast_S_S4096 : S_.BroadcastsInDim S4096 (![] : Fin 0 → Fin S4096.rank)
  reducesTo_S4096_S_d0 : S4096.ReducesTo [0] S_
  reducesTo_S4096x8192_S8192_d0 : S4096x8192.ReducesTo [0] S8192
  bcast_S_S8192 : S_.BroadcastsInDim S8192 (![] : Fin 0 → Fin S8192.rank)
  reducesTo_S8192_S_d0 : S8192.ReducesTo [0] S_

variable [Facts]

def fn_part2 {F : FTy → Type} [FloatOps F] (main_v25 : IVec S_ 1) (main_v31 : IVec S_ 1) : IVec S_ 1 :=
  let main_v32 : IVec S_ 1 := andi main_v25 main_v31
  main_v32

def fn_part1 {F : FTy → Type} [FloatOps F] (main_arg2 : FVec F S4096x8192 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_cst_6 : FVec F S_ .f32 := constant S_ .f32 0x00000000#32
  let main_v19 : FVec F S4096 .f32 := (fun x v => Host.reduceAdd x v reducesTo_S4096x8192_S4096_d1 h_S_) main_arg2 main_cst_6
  let main_cst_7 : FVec F S_ .f32 := constant S_ .f32 0x3F800000#32
  let main_v20 : FVec F S4096 .f32 := broadcastInDim S4096 ![] bcast_S_S4096 main_cst_7
  let main_v21 : FVec F S4096 .f32 := addf main_v19 main_v20
  let main_cst_8 : FVec F S_ .f32 := constant S_ .f32 0x00000000#32
  let main_v22 : FVec F S4096 .f32 := broadcastInDim S4096 ![] bcast_S_S4096 main_cst_8
  let main_v23 : IVec S4096 1 := cmpf .ogt main_v21 main_v22
  let main_c_9 : IVec S_ 1 := constantI S_ 1 1#1
  let main_v24 : IVec S_ 1 := (fun x v => Host.reduce IntOp.andi x v reducesTo_S4096_S_d0 h_S_) main_v23 main_c_9
  let main_v25 : IVec S_ 1 := andi main_v18 main_v24
  let main_cst_10 : FVec F S_ .f32 := constant S_ .f32 0x00000000#32
  let main_v26 : FVec F S8192 .f32 := (fun x v => Host.reduceAdd x v reducesTo_S4096x8192_S8192_d0 h_S_) main_arg2 main_cst_10
  let main_cst_11 : FVec F S_ .f32 := constant S_ .f32 0x3F800000#32
  let main_v27 : FVec F S8192 .f32 := broadcastInDim S8192 ![] bcast_S_S8192 main_cst_11
  let main_v28 : FVec F S8192 .f32 := addf main_v26 main_v27
  let main_cst_12 : FVec F S_ .f32 := constant S_ .f32 0x00000000#32
  let main_v29 : FVec F S8192 .f32 := broadcastInDim S8192 ![] bcast_S_S8192 main_cst_12
  let main_v30 : IVec S8192 1 := cmpf .ogt main_v28 main_v29
  let main_c_13 : IVec S_ 1 := constantI S_ 1 1#1
  let main_v31 : IVec S_ 1 := (fun x v => Host.reduce IntOp.andi x v reducesTo_S8192_S_d0 h_S_) main_v30 main_c_13
  fn_part2 (F := F) main_v25 main_v31

def fn {F : FTy → Type} [FloatOps F] (main_arg0 : FVec F S4096x512 .f32) (main_arg1 : FVec F S8192x512 .f32) (main_arg2 : FVec F S4096x8192 .f32) (main_arg3 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg2 main_v13 main_v16
-- ==== Kernel.lean ====
abbrev S4096x512 : Shape := ⟨2, ![4096, 512]⟩
abbrev S8192x512 : Shape := ⟨2, ![8192, 512]⟩
abbrev S4096x8192 : Shape := ⟨2, ![4096, 8192]⟩
abbrev S512x512 : Shape := ⟨2, ![512, 512]⟩
abbrev S4096x1 : Shape := ⟨2, ![4096, 1]⟩
abbrev S8192x1 : Shape := ⟨2, ![8192, 1]⟩
abbrev S512x2048 : Shape := ⟨2, ![512, 2048]⟩
abbrev S512 : Shape := ⟨1, ![512]⟩
abbrev S512x1 : Shape := ⟨2, ![512, 1]⟩
abbrev S2048x1 : Shape := ⟨2, ![2048, 1]⟩
abbrev S2048x512 : Shape := ⟨2, ![2048, 512]⟩
abbrev S512x4096 : Shape := ⟨2, ![512, 4096]⟩
abbrev S512x8192 : Shape := ⟨2, ![512, 8192]⟩
abbrev S4096x1024 : Shape := ⟨2, ![4096, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 12
  | .vmem => 36
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x8192, .f32⟩
  | .hbm, ⟨3, _⟩ => ⟨S512x512, .f32⟩
  | .hbm, ⟨4, _⟩ => ⟨S4096x1, .f32⟩
  | .hbm, ⟨5, _⟩ => ⟨S8192x1, .f32⟩
  | .hbm, ⟨6, _⟩ => ⟨S4096x8192, .bf16⟩
  | .hbm, ⟨7, _⟩ => ⟨S8192x512, .f32⟩
  | .hbm, ⟨8, _⟩ => ⟨S8192x512, .bf16⟩
  | .hbm, ⟨9, _⟩ => ⟨S4096x512, .f32⟩
  | .hbm, ⟨10, _⟩ => ⟨S512x4096, .bf16⟩
  | .hbm, ⟨11, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S4096x1, .f32⟩
  | .local _ .vmem, ⟨3, _⟩ => ⟨S8192x1, .f32⟩
  | .local _ .vmem, ⟨4, _⟩ => ⟨S512x2048, .bf16⟩
  | .local _ .vmem, ⟨5, _⟩ => ⟨S512x2048, .bf16⟩
  | .local _ .vmem, ⟨6, _⟩ => ⟨S2048x512, .f32⟩
  | .local _ .vmem, ⟨7, _⟩ => ⟨S2048x512, .f32⟩
  | .local _ .vmem, ⟨8, _⟩ => ⟨S512x512, .f32⟩
  | .local _ .vmem, ⟨9, _⟩ => ⟨S2048x1, .f32⟩
  | .local _ .vmem, ⟨10, _⟩ => ⟨S2048x1, .f32⟩
  | .local _ .vmem, ⟨11, _⟩ => ⟨S2048x512, .f32⟩
  | .local _ .vmem, ⟨12, _⟩ => ⟨S2048x512, .f32⟩
  | .local _ .vmem, ⟨13, _⟩ => ⟨S2048x512, .bf16⟩
  | .local _ .vmem, ⟨14, _⟩ => ⟨S2048x512, .bf16⟩
  | .local _ .vmem, ⟨15, _⟩ => ⟨S512x8192, .bf16⟩
  | .local _ .vmem, ⟨16, _⟩ => ⟨S512x8192, .bf16⟩
  | .local _ .vmem, ⟨17, _⟩ => ⟨S8192x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x1, .f32⟩
  | .local _ .vmem, ⟨22, _⟩ => ⟨S512x1, .f32⟩
  | .local _ .vmem, ⟨23, _⟩ => ⟨S512x512, .f32⟩
  | .local _ .vmem, ⟨24, _⟩ => ⟨S512x512, .f32⟩
  | .local _ .vmem, ⟨25, _⟩ => ⟨S512x512, .bf16⟩
  | .local _ .vmem, ⟨26, _⟩ => ⟨S512x512, .bf16⟩
  | .local _ .vmem, ⟨27, _⟩ => ⟨S4096x1024, .bf16⟩
  | .local _ .vmem, ⟨28, _⟩ => ⟨S4096x1024, .bf16⟩
  | .local _ .vmem, ⟨29, _⟩ => ⟨S512x4096, .bf16⟩
  | .local _ .vmem, ⟨30, _⟩ => ⟨S1024x512, .f32⟩
  | .local _ .vmem, ⟨31, _⟩ => ⟨S1024x512, .f32⟩
  | .local _ .vmem, ⟨32, _⟩ => ⟨S1024x1, .f32⟩
  | .local _ .vmem, ⟨33, _⟩ => ⟨S1024x1, .f32⟩
  | .local _ .vmem, ⟨34, _⟩ => ⟨S1024x512, .f32⟩
  | .local _ .vmem, ⟨35, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def k0_off1 (i : grid0.Coords) : Fin 2 → Nat :=
  let arg0 : BitVec 32 := BitVec.ofNat 32 (i 0).val
  let c512_i32 : BitVec 32 := 512#32
  let v19 : BitVec 32 := Scalar.muli arg0 c512_i32
  let v20 : Index := Scalar.indexCast v19
  let c0_12 : Index := 0#32
  ![v20.toNat, 0]
def k0_cond2 (i : grid0.Coords) : BitVec 1 :=
  let arg1 : BitVec 32 := BitVec.ofNat 32 (i 1).val
  let c0_i32_6 : BitVec 32 := 0#32
  let v10 : BitVec 1 := Scalar.cmpi .sgt arg1 c0_i32_6
  let v11 : BitVec 32 := Scalar.extui v10
  let c0_i32_7 : BitVec 32 := 0#32
  let v12 : BitVec 1 := Scalar.cmpi .ne v11 c0_i32_7
  v12

def k0_off2 (i : grid0.Coords) : Fin 2 → Nat :=
  let arg0 : BitVec 32 := BitVec.ofNat 32 (i 0).val
  let c512_i32 : BitVec 32 := 512#32
  let v19 : BitVec 32 := Scalar.muli arg0 c512_i32
  let v20 : Index := Scalar.indexCast v19
  let c0_12 : Index := 0#32
  ![v20.toNat, 0]
def k0_cond3 (i : grid0.Coords) : BitVec 1 :=
  let arg0 : BitVec 32 := BitVec.ofNat 32 (i 0).val
  let c0_i32_8 : BitVec 32 := 0#32
  let v13 : BitVec 1 := Scalar.cmpi .eq arg0 c0_i32_8
  let v14 : BitVec 32 := Scalar.extui v13
  let c0_i32_9 : BitVec 32 := 0#32
  let v15 : BitVec 1 := Scalar.cmpi .ne v14 c0_i32_9
  v15

def k0_off3 (i : grid0.Coords) : Fin 2 → Nat :=
  let arg1 : BitVec 32 := BitVec.ofNat 32 (i 1).val
  let c2048_i32 : BitVec 32 := 2048#32
  let v19 : BitVec 32 := Scalar.muli arg1 c2048_i32
  let v20 : Index := Scalar.indexCast v19
  let c0_12 : Index := 0#32
  ![v20.toNat, 0]
def k0_cond4 (i : grid0.Coords) : BitVec 1 :=
  let arg0 : BitVec 32 := BitVec.ofNat 32 (i 0).val
  let c0_i32_10 : BitVec 32 := 0#32
  let v16 : BitVec 1 := Scalar.cmpi .sgt arg0 c0_i32_10
  let v17 : BitVec 32 := Scalar.extui v16
  let c0_i32_11 : BitVec 32 := 0#32
  let v18 : BitVec 1 := Scalar.cmpi .ne v17 c0_i32_11
  v18

def k0_off4 (i : grid0.Coords) : Fin 2 → Nat :=
  let arg1 : BitVec 32 := BitVec.ofNat 32 (i 1).val
  let c2048_i32 : BitVec 32 := 2048#32
  let v19 : BitVec 32 := Scalar.muli arg1 c2048_i32
  let v20 : Index := Scalar.indexCast v19
  let c0_12 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  reduces_S512x2048_S512 : S512x2048.Reduces [1] S512
  shapeCasts_S512_S512x1 : S512.ShapeCasts S512x1
  h_S512x1 : 0 < S512x1.numel
  shapeCasts_S512x1_S512x1 : S512x1.ShapeCasts S512x1
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  inb_S2048x1_S2048x1_0_0 : ∀ a, (![0, 0] : Fin 2 → Nat) a + S2048x1.size a ≤ S2048x1.size a
  broadcasts_S2048x1_S2048x512 : S2048x1.Broadcasts S2048x512
  packedbf16_S2048x512_S2048x512_0_0 : (Rect.unit (s := S2048x512) ![0, 0] S2048x512.size inb_S2048x512_S2048x512_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S512x1_S512x1_0_0 : ∀ a, (![0, 0] : Fin 2 → Nat) a + S512x1.size a ≤ S512x1.size a
  broadcasts_S512x1_S512x512 : S512x1.Broadcasts S512x512
  transposes_S512x512_p1_0_S512x512 : S512x512.Transposes [1, 0] S512x512
  packedbf16_S512x512_S512x512_0_0 : (Rect.unit (s := S512x512) ![0, 0] S512x512.size inb_S512x512_S512x512_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S512x1024_p1_0_S1024x512 : S512x1024.Transposes [1, 0] S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1024x1_S1024x512 : S1024x1.Broadcasts S1024x512
  dot_S512x2048_S512x1_S2048x1_0_0_1_1_n_n_wf : DotDims.WF S512x2048 S512x1 S2048x1 [0] [0] [1] [1] [] []
  dot_S2048x512_S512x512_S2048x512_1_0_0_1_n_n_wf : DotDims.WF S2048x512 S512x512 S2048x512 [1] [0] [0] [1] [] []
  dot_S512x8192_S8192x512_S512x512_1_0_0_1_n_n_wf : DotDims.WF S512x8192 S8192x512 S512x512 [1] [0] [0] [1] [] []
  dot_S512x512_S512x512_S512x512_1_0_0_1_n_n_wf : DotDims.WF S512x512 S512x512 S512x512 [1] [0] [0] [1] [] []
  dot_S512x4096_S4096x1024_S512x1024_1_0_0_1_n_n_wf : DotDims.WF S512x4096 S4096x1024 S512x1024 [1] [0] [0] [1] [] []
  hrank0 : 0 < grid0.rank
  k0_off1_inb : ∀ i : grid0.Coords, ∀ (k0_h1 : k0_cond1 i = 1#1), ∀ a, (k0_off1 i) a + S512x1.size a ≤ S4096x1.size a
  k0_off2_inb : ∀ i : grid0.Coords, ∀ (k0_h2 : k0_cond2 i = 1#1), ∀ a, (k0_off2 i) a + S512x1.size a ≤ S4096x1.size a
  k0_off3_inb : ∀ i : grid0.Coords, ∀ (k0_h3 : k0_cond3 i = 1#1), ∀ a, (k0_off3 i) a + S2048x1.size a ≤ S8192x1.size a
  k0_off4_inb : ∀ i : grid0.Coords, ∀ (k0_h4 : k0_cond4 i = 1#1), ∀ a, (k0_off4 i) a + S2048x1.size a ≤ S8192x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x8192.size a
  hwx0_0 : ∀ i : grid0.Coords, EltTy.bits .f32 = 32 ∨ (Rect.block (s := S4096x8192) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x8192.size a
  hwx0_3 : ∀ i : grid0.Coords, EltTy.bits .bf16 = 32 ∨ (Rect.block (s := S4096x8192) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x512.size a
  hwx1_3 : ∀ i : grid1.Coords, EltTy.bits .f32 = 32 ∨ (Rect.block (s := S8192x512) S2048x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S8192x512.size a
  hwx1_4 : ∀ i : grid1.Coords, EltTy.bits .bf16 = 32 ∨ (Rect.block (s := S8192x512) S2048x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S4096x8192.size a
  hwx2_0 : ∀ i : grid2.Coords, EltTy.bits .bf16 = 32 ∨ (Rect.block (s := S4096x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x512.size a
  hwx2_2 : ∀ i : grid2.Coords, EltTy.bits .f32 = 32 ∨ (Rect.block (s := S4096x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S4096x512.size a
  hwx2_5 : ∀ i : grid2.Coords, EltTy.bits .f32 = 32 ∨ (Rect.block (s := S4096x512) S512x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x512.size a ≤ S512x4096.size a
  hwx2_6 : ∀ i : grid2.Coords, EltTy.bits .bf16 = 32 ∨ (Rect.block (s := S512x4096) S512x512.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x1024.size a ≤ S4096x8192.size a
  hwx3_0 : ∀ i : grid3.Coords, EltTy.bits .bf16 = 32 ∨ (Rect.block (s := S4096x8192) S4096x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x4096.size a ≤ S512x4096.size a
  hwx3_1 : ∀ i : grid3.Coords, EltTy.bits .bf16 = 32 ∨ (Rect.block (s := S512x4096) S512x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S8192x512.size a
  hwx3_2 : ∀ i : grid3.Coords, EltTy.bits .f32 = 32 ∨ (Rect.block (s := S8192x512) S1024x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S8192x1.size a
  hwx3_3 : ∀ i : grid3.Coords, EltTy.bits .f32 = 32 ∨ (Rect.block (s := S8192x1) S1024x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S8192x512.size a
  hwx3_4 : ∀ i : grid3.Coords, EltTy.bits .f32 = 32 ∨ (Rect.block (s := S8192x512) S1024x512.size (cc3_transform_4 i) (hinb3_4 i)).WholeWords (EltTy.packing .f32)

variable [Facts₀]

def dot_S512x2048_S512x1_S2048x1_0_0_1_1_n_n : DotDims S512x2048 S512x1 S2048x1 where
  lhsContracting := [0]
  rhsContracting := [0]
  lhsNonContracting := [1]
  rhsNonContracting := [1]
  lhsBatch := []
  rhsBatch := []
  wf := dot_S512x2048_S512x1_S2048x1_0_0_1_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4096x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8192x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond1 i == 1#1) && !(k0_cond2 i == 1#1) | 2 => fun i => !(k0_cond3 i == 1#1) && !(k0_cond4 i == 1#1) | 3 => fun _ => false | ⟨_ + 4, h⟩ => absurd h (Nat.not_lt.2 (Nat.le_add_left _ _))

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S2048x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_2) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0_0) S512x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_0) S512x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v2_1) S512x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v0_2) S4096x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_1) S512x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v1_0) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0_1) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1024x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S4096x512 : Shape := ⟨2, ![4096, 512]⟩
abbrev S8192x512 : Shape := ⟨2, ![8192, 512]⟩
abbrev S4096x8192 : Shape := ⟨2, ![4096, 8192]⟩
abbrev S512x512 : Shape := ⟨2, ![512, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S8192x1 : Shape := ⟨2, ![8192, 1]⟩
abbrev S8192x4096 : Shape := ⟨2, ![8192, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S4096x8192, .f32⟩
  | .hbm, ⟨3, _⟩ => ⟨S512x512, .f32⟩
  | .hbm, ⟨4, _⟩ => ⟨S4096x512, .f32⟩
  | .hbm, ⟨5, _⟩ => ⟨S8192x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S_, .f32⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x4096, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_cst : Ref sig .tc := ⟨.hbm, 37, rfl⟩
abbrev main_call1_v0 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x8192_S8192_d0 : S4096x8192.ReducesTo [0] S8192
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  transposes_S1x8192_S8192x1_1_0 : S1x8192.Transposes [1, 0] S8192x1
  bcast_S8192x1_S8192x512_0_1 : S8192x1.BroadcastsInDim S8192x512 (![0, 1] : Fin 2 → Fin S8192x512.rank)
  transposes_S4096x8192_S8192x4096_1_0 : S4096x8192.Transposes [1, 0] S8192x4096
  bcast_S_S8192x512 : S_.BroadcastsInDim S8192x512 (![] : Fin 0 → Fin S8192x512.rank)
  dot_S4096x512_S512x512_S4096x512_1_0_0_1_n_n_wf : DotDims.WF S4096x512 S512x512 S4096x512 [1] [0] [0] [1] [] []
  dot_S8192x512_S512x512_S8192x512_1_0_0_1_n_n_wf : DotDims.WF S8192x512 S512x512 S8192x512 [1] [0] [0] [1] [] []
  dot_S4096x8192_S8192x512_S4096x512_1_0_0_1_n_n_wf : DotDims.WF S4096x8192 S8192x512 S4096x512 [1] [0] [0] [1] [] []
  dot_S8192x4096_S4096x512_S8192x512_1_0_0_1_n_n_wf : DotDims.WF S8192x4096 S4096x512 S8192x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S4096x8192_S8192x512_S4096x512_1_0_0_1_n_n : DotDims S4096x8192 S8192x512 S4096x512 where
  lhsContracting := [1]
  rhsContracting := [0]
  lhsNonContracting := [0]
  rhsNonContracting := [1]
  lhsBatch := []
  rhsBatch := []
  wf := dot_S4096x8192_S8192x512_S4096x512_1_0_0_1_n_n_wf
def dot_S8192x4096_S4096x512_S8192x512_1_0_0_1_n_n : DotDims S8192x4096 S4096x512 S8192x512 where
  lhsContracting := [1]
  rhsContracting := [0]
  lhsNonContracting := [0]
  rhsNonContracting := [1]
  lhsBatch := []
  rhsBatch := []
  wf := dot_S8192x4096_S4096x512_S8192x512_1_0_0_1_n_n_wf

class Facts : Prop extends Facts₀ where

variable [Facts]
-- ==== Proof.K.R0Defs.lean ====
/-
  Region 0 (the degree pass) point by point: what one grid point does to the two resident degree columns.

  At grid point (i, j) the body reads the adjacency block x0 (rows 512·i …, columns 2048·j …), forms the block's
  row sums (a [512,1] column) and column sums (a [2048,1] column), and
    * in the row-sum buffer [4096,1] overwrites rows 512·i … 512·i+511: with the block's row sums when j = 0,
      with "what was there plus the block's row sums" when j > 0; every other row is left as found;
    * in the column-sum buffer [8192,1] overwrites rows 2048·j … 2048·j+2047 likewise, by i = 0 / i > 0.
  `rowStep` and `colStep` are these two updates as functions of the buffer's contents before the point; the
  relational proof data `rdat0` says each window's buffer after the point is that function of what was found.
-/
import proofs.«123106_g36129264894623_cont_8to1_b_1457_4_alg».proof.Proof.Gen.Kernel.Launch
import proofs.«123106_g36129264894623_cont_8to1_b_1457_4_alg».proof.Proof.Gen.Kernel.Skeleton
import proofs.«123106_g36129264894623_cont_8to1_b_1457_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle of the adjacency block and of its low-precision copy. -/
abbrev r0_0 : Rect S512x2048 := Rect.unit (s := S512x2048) ![0, 0] S512x2048.size inb_S512x2048_S512x2048_0_0

/-- The row-sum buffer after the point at coordinates `i`, from the adjacency block `x0` and the buffer before. -/
def rowStep (i : grid0.Coords) (x0 : Vec F S512x2048 .f32) (Y : Vec F S4096x1 .f32) : Vec F S4096x1 .f32 :=
  let Y1 : Vec F S4096x1 .f32 :=
    if h : k0_cond1 i = 1#1 then (Rect.unit (s := S4096x1) (k0_off1 i) S512x1.size (k0_off1_inb i h)).overlay Y (k0_pay2 x0) else Y
  if h : k0_cond2 i = 1#1 then
    (Rect.unit (s := S4096x1) (k0_off2 i) S512x1.size (k0_off2_inb i h)).overlay Y1
      (k0_pay4 x0 (View.ld Y1 (Rect.unit (s := S4096x1) (k0_off2 i) S512x1.size (k0_off2_inb i h))))
  else Y1

/-- The column-sum buffer after the point at coordinates `i`, from the adjacency block `x0` and the buffer before. -/
def colStep (i : grid0.Coords) (x0 : Vec F S512x2048 .f32) (Y : Vec F S8192x1 .f32) : Vec F S8192x1 .f32 :=
  let Y1 : Vec F S8192x1 .f32 :=
    if h : k0_cond3 i = 1#1 then (Rect.unit (s := S8192x1) (k0_off3 i) S2048x1.size (k0_off3_inb i h)).overlay Y (k0_pay3 x0) else Y
  if h : k0_cond4 i = 1#1 then
    (Rect.unit (s := S8192x1) (k0_off4 i) S2048x1.size (k0_off4_inb i h)).overlay Y1
      (k0_pay5 x0 (View.ld Y1 (Rect.unit (s := S8192x1) (k0_off4 i) S2048x1.size (k0_off4_inb i h))))
  else Y1

/-- The low-precision copy of the block: the one whole-block store. -/
def out0_3 (x0 : Vec F S512x2048 .f32) : Vec F S512x2048 .bf16 :=
  View.canon [⟨r0_0, k0_pay1 (View.ld x0 r0_0)⟩]

/-- Region 0's relational proof data on core `c`: the arrays as the region finds them; after the body at point `t`
    the input block is as found, the two degree columns are `rowStep` / `colStep` of what was found, the copy is
    the block's; the class invariant; nothing owed; full shares. -/
def rdat0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = rowStep (grid0.coords t) (iblk0 V c 0 t) Y
    | ⟨2, _⟩ => fun Y X => X = colStep (grid0.coords t) (iblk0 V c 0 t) Y
    | ⟨3, _⟩ => fun _ X => X = out0_3 (iblk0 V c 0 t)
  Φ _ := Pipeline.ΦA spec0 c
  q _ := fullShare
  owed _ := 0

theorem rdat0_A (c : Dev nD) (w : Fin cfg0.W) : (rdat0 V c).A w = V c (Pipeline.arrRef spec0 w) := by
  dsimp only [rdat0]

theorem after0_0 (c : Dev nD) (t : Fin cfg0.N) (Y X) : (rdat0 V c).after 0 t Y X ↔ X = Y := by dsimp only [rdat0]; exact Iff.rfl
theorem after0_1 (c : Dev nD) (t : Fin cfg0.N) (Y X) :
    (rdat0 V c).after 1 t Y X ↔ X = rowStep (grid0.coords t) (iblk0 V c 0 t) Y := by dsimp only [rdat0]; exact Iff.rfl
theorem after0_2 (c : Dev nD) (t : Fin cfg0.N) (Y X) :
    (rdat0 V c).after 2 t Y X ↔ X = colStep (grid0.coords t) (iblk0 V c 0 t) Y := by dsimp only [rdat0]; exact Iff.rfl
theorem after0_3 (c : Dev nD) (t : Fin cfg0.N) (Y X) :
    (rdat0 V c).after 3 t Y X ↔ X = out0_3 (iblk0 V c 0 t) := by dsimp only [rdat0]; exact Iff.rfl

end Cert.Kernel.Hand

end
-- ==== Proof.K.R0.lean ====
/-
  Region 0 (the degree pass): the body obligation over the relational proof data.

  At every grid point the adjacency block's buffer holds the block (it is fetched at every point); the body, run on
  the four staging buffers at the contents found there, leaves the block as found, the row-sum and column-sum
  buffers at one dynamic slice overwritten (the rest as found), and the low-precision copy stored whole.
-/
import proofs.«123106_g36129264894623_cont_8to1_b_1457_4_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## The control conditions: exactly one of each pair holds -/

theorem k0_cond2_iff : ∀ i : grid0.Coords, k0_cond2 i = 1#1 ↔ ¬ k0_cond1 i = 1#1 := by decide +kernel
theorem k0_cond4_iff : ∀ i : grid0.Coords, k0_cond4 i = 1#1 ↔ ¬ k0_cond3 i = 1#1 := by decide +kernel

/-! ## One store through a rectangle over given contents -/

/-- What a buffer reads after ONE unmasked store through rectangle `r` over contents reading `X`: the payload on
    the rectangle, `X` off it. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons,
      View.read_slice_write_of_not_mem r _ _ _ (by rw [Rect.map_emb_univ]; exact hy)]
    rfl

section Region0

variable (V : (c : Dev nD) → (b : Ref sig .tc) → Buf (Elt F) ((c : Thread nD τ).loc b))

/-! ## What the body finds in the adjacency block's buffer -/

/-- The adjacency block's window is fetched at every point and is uncut: its buffer holds the block. -/
theorem finds0_0 (c : Dev nD) (t : Fin cfg0.N) (Y) (h : (rdat0 V c).Finds 0 t Y) : Y = iblk0 V c 0 t := by
  obtain ⟨d, rfl⟩ := ((rdat0 V c).finds_of_fetch (fetch0_0 t) Y).mp h
  unfold RDat.fetched RDat.blockOf iblk0; rw [rdat0_A]; try rfl

/-! ## The whole-block rectangle -/

/-- A load through the whole-block rectangle reads the block itself. -/
theorem ld_r0_0 {e : EltTy} (x0 : S512x2048.Idx → Elt F e) : View.ld x0 r0_0 = x0 := by
  funext x
  show x0 (r0_0.idx x) = x0 x
  congr 1
  funext a; apply Fin.ext
  show (![0, 0] : Fin 2 → ℕ) a + 1 * (x a).val = (x a).val
  fin_cases a <;> simp

/-- The one store of the low-precision copy covers its buffer. -/
theorem cover0_3 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The two degree updates, by control case -/

theorem rowStep_A (i : grid0.Coords) (h1 : k0_cond1 i = 1#1) (h2 : ¬ k0_cond2 i = 1#1) (x0 : Vec F S512x2048 .f32) (Y : Vec F S4096x1 .f32) :
    rowStep i x0 Y = (Rect.unit (s := S4096x1) (k0_off1 i) S512x1.size (k0_off1_inb i h1)).overlay Y (k0_pay2 x0) := by
  simp only [rowStep, dif_pos h1, dif_neg h2]

theorem rowStep_B (i : grid0.Coords) (h1 : ¬ k0_cond1 i = 1#1) (h2 : k0_cond2 i = 1#1) (x0 : Vec F S512x2048 .f32) (Y : Vec F S4096x1 .f32) :
    rowStep i x0 Y = (Rect.unit (s := S4096x1) (k0_off2 i) S512x1.size (k0_off2_inb i h2)).overlay Y
      (k0_pay4 x0 (View.ld Y (Rect.unit (s := S4096x1) (k0_off2 i) S512x1.size (k0_off2_inb i h2)))) := by
  simp only [rowStep, dif_neg h1, dif_pos h2]

theorem colStep_A (i : grid0.Coords) (h3 : k0_cond3 i = 1#1) (h4 : ¬ k0_cond4 i = 1#1) (x0 : Vec F S512x2048 .f32) (Y : Vec F S8192x1 .f32) :
    colStep i x0 Y = (Rect.unit (s := S8192x1) (k0_off3 i) S2048x1.size (k0_off3_inb i h3)).overlay Y (k0_pay3 x0) := by
  simp only [colStep, dif_pos h3, dif_neg h4]

theorem colStep_B (i : grid0.Coords) (h3 : ¬ k0_cond3 i = 1#1) (h4 : k0_cond4 i = 1#1) (x0 : Vec F S512x2048 .f32) (Y : Vec F S8192x1 .f32) :
    colStep i x0 Y = (Rect.unit (s := S8192x1) (k0_off4 i) S2048x1.size (k0_off4_inb i h4)).overlay Y
      (k0_pay5 x0 (View.ld Y (Rect.unit (s := S8192x1) (k0_off4 i) S2048x1.size (k0_off4_inb i h4)))) := by
  simp only [colStep, dif_neg h3, dif_pos h4]

/-! ## The body's triple, by control case -/

set_option maxHeartbeats 1000000 in
/-- The body where the row sums are stored afresh (first column of blocks) and the column sums are
    stored afresh (first row of blocks): each degree buffer ends with its one slice overwritten, the rest as found. -/
theorem sound_kernel0_AA (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : k0_cond1 i = 1#1) (h2 : ¬ k0_cond2 i = 1#1) (h3 : k0_cond3 i = 1#1) (h4 : ¬ k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off1 i) S512x1.size (k0_off1_inb i h1)).overlay Y1 (k0_pay2 x0))
            ∗ owns (c : Thread nD τ) arg4 fullShare
            ((Rect.unit (s := S8192x1) (k0_off3 i) S2048x1.size (k0_off3_inb i h3)).overlay Y2 (k0_pay3 x0))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0]
  isplitl [H2]
  · iexists _; isplitr
    swap; · iexact H2
    ipureintro
    rw [read_writes_single, harg4.read_unread, e0]
  iexists _; isplitr
  swap; · iexact H3
  ipureintro
  exact View.read_writes_eq_canon _ _ _ (cover0_3 _)

set_option maxHeartbeats 1000000 in
/-- The body where the row sums are stored afresh (first column of blocks) and the column sums are
    added to what the buffer holds (later rows of blocks): each degree buffer ends with its one slice overwritten, the rest as found. -/
theorem sound_kernel0_AB (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : k0_cond1 i = 1#1) (h2 : ¬ k0_cond2 i = 1#1) (h3 : ¬ k0_cond3 i = 1#1) (h4 : k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off1 i) S512x1.size (k0_off1_inb i h1)).overlay Y1 (k0_pay2 x0))
            ∗ owns (c : Thread nD τ) arg4 fullShare
            ((Rect.unit (s := S8192x1) (k0_off4 i) S2048x1.size (k0_off4_inb i h4)).overlay Y2
              (k0_pay5 x0 (View.ld Y2 (Rect.unit (s := S8192x1) (k0_off4 i) S2048x1.size (k0_off4_inb i h4)))))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0]
  isplitl [H2]
  · iexists _; isplitr
    swap; · iexact H2
    ipureintro
    rw [read_writes_single, harg4.read_unread, e0, View.readAt_eq_ld, harg4.read_unread]
  iexists _; isplitr
  swap; · iexact H3
  ipureintro
  exact View.read_writes_eq_canon _ _ _ (cover0_3 _)

set_option maxHeartbeats 1000000 in
/-- The body where the row sums are added to what the buffer holds (later columns of blocks) and the column sums are
    stored afresh (first row of blocks): each degree buffer ends with its one slice overwritten, the rest as found. -/
theorem sound_kernel0_BA (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : ¬ k0_cond1 i = 1#1) (h2 : k0_cond2 i = 1#1) (h3 : k0_cond3 i = 1#1) (h4 : ¬ k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off2 i) S512x1.size (k0_off2_inb i h2)).overlay Y1
              (k0_pay4 x0 (View.ld Y1 (Rect.unit (s := S4096x1) (k0_off2 i) S512x1.size (k0_off2_inb i h2)))))
            ∗ owns (c : Thread nD τ) arg4 fullShare
            ((Rect.unit (s := S8192x1) (k0_off3 i) S2048x1.size (k0_off3_inb i h3)).overlay Y2 (k0_pay3 x0))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0, View.readAt_eq_ld, harg3.read_unread]
  isplitl [H2]
  · iexists _; isplitr
    swap; · iexact H2
    ipureintro
    rw [read_writes_single, harg4.read_unread, e0]
  iexists _; isplitr
  swap; · iexact H3
  ipureintro
  exact View.read_writes_eq_canon _ _ _ (cover0_3 _)

set_option maxHeartbeats 1000000 in
/-- The body where the row sums are added to what the buffer holds (later columns of blocks) and the column sums are
    added to what the buffer holds (later rows of blocks): each degree buffer ends with its one slice overwritten, the rest as found. -/
theorem sound_kernel0_BB (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : ¬ k0_cond1 i = 1#1) (h2 : k0_cond2 i = 1#1) (h3 : ¬ k0_cond3 i = 1#1) (h4 : k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off2 i) S512x1.size (k0_off2_inb i h2)).overlay Y1
              (k0_pay4 x0 (View.ld Y1 (Rect.unit (s := S4096x1) (k0_off2 i) S512x1.size (k0_off2_inb i h2)))))
            ∗ owns (c : Thread nD τ) arg4 fullShare
            ((Rect.unit (s := S8192x1) (k0_off4 i) S2048x1.size (k0_off4_inb i h4)).overlay Y2
              (k0_pay5 x0 (View.ld Y2 (Rect.unit (s := S8192x1) (k0_off4 i) S2048x1.size (k0_off4_inb i h4)))))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0, View.readAt_eq_ld, harg3.read_unread]
  isplitl [H2]
  · iexists _; isplitr
    swap; · iexact H2
    ipureintro
    rw [read_writes_single, harg4.read_unread, e0, View.readAt_eq_ld, harg4.read_unread]
  iexists _; isplitr
  swap; · iexact H3
  ipureintro
  exact View.read_writes_eq_canon _ _ _ (cover0_3 _)

/-! ## The body's triple -/

/-- The body on whole staging buffers — the adjacency block's at `x0`, the degree buffers' at `Y1`, `Y2`, the copy's at
    anything — runs to the continuation holding the block as it was, the degree buffers at `rowStep` / `colStep` of
    what they held, the copy at the block's: the point's coordinates decide which of the four control cases runs. -/
theorem sound_kernel0 (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0 ∗ owns (c : Thread nD τ) arg3 fullShare (rowStep i x0 Y1)
            ∗ owns (c : Thread nD τ) arg4 fullShare (colStep i x0 Y2) ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  by_cases h1 : k0_cond1 i = 1#1
  · have h2 : ¬ k0_cond2 i = 1#1 := fun h => (k0_cond2_iff i).mp h h1
    by_cases h3 : k0_cond3 i = 1#1
    · have h4 : ¬ k0_cond4 i = 1#1 := fun h => (k0_cond4_iff i).mp h h3
      rw [rowStep_A i h1 h2, colStep_A i h3 h4]
      exact sound_kernel0_AA c E i arg2 harg2 arg3 harg3 arg4 harg4 arg5 harg5 h1 h2 h3 h4 x0 Y1 Y2 K
    · have h4 : k0_cond4 i = 1#1 := (k0_cond4_iff i).mpr h3
      rw [rowStep_A i h1 h2, colStep_B i h3 h4]
      exact sound_kernel0_AB c E i arg2 harg2 arg3 harg3 arg4 harg4 arg5 harg5 h1 h2 h3 h4 x0 Y1 Y2 K
  · have h2 : k0_cond2 i = 1#1 := (k0_cond2_iff i).mpr h1
    by_cases h3 : k0_cond3 i = 1#1
    · have h4 : ¬ k0_cond4 i = 1#1 := fun h => (k0_cond4_iff i).mp h h3
      rw [rowStep_B i h1 h2, colStep_A i h3 h4]
      exact sound_kernel0_BA c E i arg2 harg2 arg3 harg3 arg4 harg4 arg5 harg5 h1 h2 h3 h4 x0 Y1 Y2 K
    · have h4 : k0_cond4 i = 1#1 := (k0_cond4_iff i).mpr h3
      rw [rowStep_B i h1 h2, colStep_B i h3 h4]
      exact sound_kernel0_BB c E i arg2 harg2 arg3 harg3 arg4 harg4 arg5 harg5 h1 h2 h3 h4 x0 Y1 Y2 K

/-! ## The body obligation, at a generic point -/

/-- The body at any point: the adjacency block's buffer holds the block (`finds0_0`), the other buffers whatever they
    were found at; the body's triple applies at those contents; the invariant and what the core owes pass through
    unread; each buffer ends in the relation the proof data states to what was found. -/
theorem sound_body0 (c : Dev nD) (t : Fin cfg0.N) (Y : (w : Fin cfg0.W) → (cfg0.win w).block.Idx → Elt F (cfg0.win w).elt)
    (hY : ∀ w, (rdat0 V c).Finds w t (Y w)) :
    iprop((rdat0 V c).Φ t.castSucc ∗ (rdat0 V c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat0 V c).Φ t.succ ∗ (rdat0 V c).owesAt () t.succ
            ∗ (∃ X, ⌜(rdat0 V c).after 0 t (Y 0) X⌝ ∗ owns (c : Thread nD τ) (st0_0 t) fullShare X)
            ∗ (∃ X, ⌜(rdat0 V c).after 1 t (Y 1) X⌝ ∗ owns (c : Thread nD τ) (st0_1 t) fullShare X)
            ∗ (∃ X, ⌜(rdat0 V c).after 2 t (Y 2) X⌝ ∗ owns (c : Thread nD τ) (st0_2 t) fullShare X)
            ∗ (∃ X, ⌜(rdat0 V c).after 3 t (Y 3) X⌝ ∗ owns (c : Thread nD τ) (st0_3 t) fullShare X))) := by
  have e0 : Y 0 = iblk0 V c 0 t := finds0_0 V c t (Y 0) (hY 0)
  unfold bodyAt0
  rw [show (rdat0 V c).Φ t.succ = (rdat0 V c).Φ t.castSucc from rfl,
    show (rdat0 V c).owesAt () t.succ = (rdat0 V c).owesAt () t.castSucc from rfl]
  iintro ⟨HΦ, Ho, H0, H1, H2, H3⟩
  iapply (sound_kernel0 c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr
    swap; · iexact H0
    ipureintro; exact (after0_0 V c t _ _).mpr rfl
  isplitl [H1]
  · iexists _; isplitr
    swap; · iexact H1
    ipureintro; exact (after0_1 V c t _ _).mpr (by rw [e0])
  isplitl [H2]
  · iexists _; isplitr
    swap; · iexact H2
    ipureintro; exact (after0_2 V c t _ _).mpr (by rw [e0])
  iexists _; isplitr
  swap; · iexact H3
  ipureintro; exact (after0_3 V c t _ _).mpr (by rw [e0])

/-- The body obligation of the relational proof data, at every point. -/
theorem body_obligation0 (c : Dev nD) : (rdat0 (F := F) V c).BodyObligation (defs₀ (F := F)) Variants.none () Set.univ := fun t Y hY => by
  rw [bigSep_W0, bigSep_W0]
  exact sound_body0 V c t Y hY

end Region0

end Cert.Kernel.Hand

end
-- ==== Proof.K.R0Fin.lean ====
/-
  Region 0 (the degree pass), the arrays it leaves: definite contents for each of its four windowed arrays, and
  the proof that they are the only contents the relational data allows after the last point.

  The two degree columns are resident: their staging buffers are written back once, after the last point, and at the
  first point hold contents nothing states. Each row of the row-sum buffer is overwritten (not added into) at the
  first point that touches it, so whatever the buffer held at the start is gone after the last point: the buffer
  after point n from a start Y, `rowAcc Y n`, agrees for any two starts on the rows already reset, and at the last
  point those are all rows. Likewise the column-sum buffer. The low-precision copy is written back at every point
  with contents that do not depend on what was found: a plain fold over the points.
-/
import proofs.«123106_g36129264894623_cont_8to1_b_1457_4_alg».proof.Proof.K.R0Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: 32 points, and what the body's conditions and offsets are at each -/

theorem N0 : cfg0.N = 32 := N_0

/-- At point t = 4·i + j: the row block is reset iff j = 0 and added into iff j ≠ 0; the column block is reset iff
    i = 0 and added into iff i ≠ 0; the row offsets are (512·i, 0), the column offsets (2048·j, 0). -/
theorem sched0 : ∀ t : Fin grid0.N,
    (k0_cond1 (grid0.coords t) = 1#1 ↔ t.val % 4 = 0) ∧ (k0_cond2 (grid0.coords t) = 1#1 ↔ t.val % 4 ≠ 0)
    ∧ (k0_cond3 (grid0.coords t) = 1#1 ↔ t.val / 4 = 0) ∧ (k0_cond4 (grid0.coords t) = 1#1 ↔ t.val / 4 ≠ 0)
    ∧ k0_off1 (grid0.coords t) 0 = 512 * (t.val / 4) ∧ k0_off1 (grid0.coords t) 1 = 0
    ∧ k0_off3 (grid0.coords t) 0 = 2048 * (t.val % 4) ∧ k0_off3 (grid0.coords t) 1 = 0 := by
  decide +kernel

/-! ## A buffer overwritten on a rectangle, read at one index -/

/-- Two overlays on one rectangle agree at an index where the underlying contents agree and the payloads agree
    at the index's preimage (if it has one). -/
theorem overlay_congr_at {sh : Shape} {α : Type} (r : Rect sh) (X X' : sh.Idx → α) (G G' : r.shape.Idx → α) (p : sh.Idx)
    (hX : X p = X' p) (hG : ∀ q, r.emb q = p → G q = G' q) : r.overlay X G p = r.overlay X' G' p := by
  by_cases hp : p ∈ r.set
  · obtain ⟨q, rfl⟩ := r.exists_idx_of_mem hp
    rw [show r.idx q = r.emb q from rfl, Rect.overlay_emb, Rect.overlay_emb]; exact hG q rfl
  · rw [Rect.overlay_of_not_mem _ _ _ hp, Rect.overlay_of_not_mem _ _ _ hp]; exact hX

/-- The accumulating payload of the row column at an index: what was loaded there plus the block's row sum. -/
theorem k0_pay4_apply (x0 : Vec F S512x2048 .f32) (Z : Vec F S512x1 .f32) (q : S512x1.Idx) :
    k0_pay4 x0 Z q = FloatOps.addf (Z q) (k0_pay2 x0 q) := by
  show addf (shapeCast S512x1 Z shapeCasts_S512x1_S512x1) (k0_pay2 x0) q = _
  rw [shapeCast_self]; rfl

/-- The accumulating payload of the column column at an index. -/
theorem k0_pay5_apply (x0 : Vec F S512x2048 .f32) (Z : Vec F S2048x1 .f32) (q : S2048x1.Idx) :
    k0_pay5 x0 Z q = FloatOps.addf (Z q) (k0_pay3 x0 q) := by
  show addf (shapeCast S2048x1 Z shapeCasts_S2048x1_S2048x1) (k0_pay3 x0) q = _
  rw [shapeCast_self]; rfl

/-! ## The two halves of a point's update of a degree column -/

/-- The reset half of the row update. -/
def rowStepA (i : grid0.Coords) (x0 : Vec F S512x2048 .f32) (Y : Vec F S4096x1 .f32) : Vec F S4096x1 .f32 :=
  if h : k0_cond1 i = 1#1 then (Rect.unit (s := S4096x1) (k0_off1 i) S512x1.size (k0_off1_inb i h)).overlay Y (k0_pay2 x0) else Y

/-- The accumulating half of the row update. -/
def rowStepB (i : grid0.Coords) (x0 : Vec F S512x2048 .f32) (Y1 : Vec F S4096x1 .f32) : Vec F S4096x1 .f32 :=
  if h : k0_cond2 i = 1#1 then
    (Rect.unit (s := S4096x1) (k0_off2 i) S512x1.size (k0_off2_inb i h)).overlay Y1
      (k0_pay4 x0 (View.ld Y1 (Rect.unit (s := S4096x1) (k0_off2 i) S512x1.size (k0_off2_inb i h))))
  else Y1

theorem rowStep_eq (i : grid0.Coords) (x0 : Vec F S512x2048 .f32) (Y : Vec F S4096x1 .f32) :
    rowStep i x0 Y = rowStepB i x0 (rowStepA i x0 Y) := rfl

/-- The reset half of the column update. -/
def colStepA (i : grid0.Coords) (x0 : Vec F S512x2048 .f32) (Y : Vec F S8192x1 .f32) : Vec F S8192x1 .f32 :=
  if h : k0_cond3 i = 1#1 then (Rect.unit (s := S8192x1) (k0_off3 i) S2048x1.size (k0_off3_inb i h)).overlay Y (k0_pay3 x0) else Y

/-- The accumulating half of the column update. -/
def colStepB (i : grid0.Coords) (x0 : Vec F S512x2048 .f32) (Y1 : Vec F S8192x1 .f32) : Vec F S8192x1 .f32 :=
  if h : k0_cond4 i = 1#1 then
    (Rect.unit (s := S8192x1) (k0_off4 i) S2048x1.size (k0_off4_inb i h)).overlay Y1
      (k0_pay5 x0 (View.ld Y1 (Rect.unit (s := S8192x1) (k0_off4 i) S2048x1.size (k0_off4_inb i h))))
  else Y1

theorem colStep_eq (i : grid0.Coords) (x0 : Vec F S512x2048 .f32) (Y : Vec F S8192x1 .f32) :
    colStep i x0 Y = colStepB i x0 (colStepA i x0 Y) := rfl

/-- A row's value after the point depends only on the same row's value before it. -/
theorem rowStepA_local (i : grid0.Coords) (x0 : Vec F S512x2048 .f32) (Y Y' : Vec F S4096x1 .f32) (p : S4096x1.Idx)
    (h : Y p = Y' p) : rowStepA i x0 Y p = rowStepA i x0 Y' p := by
  unfold rowStepA; split
  · exact overlay_congr_at _ _ _ _ _ p h fun _ _ => rfl
  · exact h

theorem rowStepB_local (i : grid0.Coords) (x0 : Vec F S512x2048 .f32) (Y Y' : Vec F S4096x1 .f32) (p : S4096x1.Idx)
    (h : Y p = Y' p) : rowStepB i x0 Y p = rowStepB i x0 Y' p := by
  unfold rowStepB; split
  · refine overlay_congr_at _ _ _ _ _ p h fun q hq => ?_
    rw [k0_pay4_apply, k0_pay4_apply]
    show FloatOps.addf (Y (Rect.emb _ q)) _ = FloatOps.addf (Y' (Rect.emb _ q)) _
    rw [hq, h]
  · exact h

theorem rowStep_local (i : grid0.Coords) (x0 : Vec F S512x2048 .f32) (Y Y' : Vec F S4096x1 .f32) (p : S4096x1.Idx)
    (h : Y p = Y' p) : rowStep i x0 Y p = rowStep i x0 Y' p := by
  rw [rowStep_eq, rowStep_eq]; exact rowStepB_local i x0 _ _ p (rowStepA_local i x0 _ _ p h)

/-- A row the point resets holds afterwards a value that does not depend on the buffer before. -/
theorem rowStep_reset (i : grid0.Coords) (x0 : Vec F S512x2048 .f32) (Y Y' : Vec F S4096x1 .f32) (p : S4096x1.Idx)
    (h : k0_cond1 i = 1#1) (hp : p ∈ (Rect.unit (s := S4096x1) (k0_off1 i) S512x1.size (k0_off1_inb i h)).set) :
    rowStep i x0 Y p = rowStep i x0 Y' p := by
  rw [rowStep_eq, rowStep_eq]; refine rowStepB_local i x0 _ _ p ?_
  unfold rowStepA; rw [dif_pos h, dif_pos h]
  obtain ⟨q, rfl⟩ := (Rect.unit (s := S4096x1) (k0_off1 i) S512x1.size (k0_off1_inb i h)).exists_idx_of_mem hp
  exact (Rect.overlay_emb _ _ _ q).trans (Rect.overlay_emb _ _ _ q).symm

theorem colStepA_local (i : grid0.Coords) (x0 : Vec F S512x2048 .f32) (Y Y' : Vec F S8192x1 .f32) (p : S8192x1.Idx)
    (h : Y p = Y' p) : colStepA i x0 Y p = colStepA i x0 Y' p := by
  unfold colStepA; split
  · exact overlay_congr_at _ _ _ _ _ p h fun _ _ => rfl
  · exact h

theorem colStepB_local (i : grid0.Coords) (x0 : Vec F S512x2048 .f32) (Y Y' : Vec F S8192x1 .f32) (p : S8192x1.Idx)
    (h : Y p = Y' p) : colStepB i x0 Y p = colStepB i x0 Y' p := by
  unfold colStepB; split
  · refine overlay_congr_at _ _ _ _ _ p h fun q hq => ?_
    rw [k0_pay5_apply, k0_pay5_apply]
    show FloatOps.addf (Y (Rect.emb _ q)) _ = FloatOps.addf (Y' (Rect.emb _ q)) _
    rw [hq, h]
  · exact h

theorem colStep_local (i : grid0.Coords) (x0 : Vec F S512x2048 .f32) (Y Y' : Vec F S8192x1 .f32) (p : S8192x1.Idx)
    (h : Y p = Y' p) : colStep i x0 Y p = colStep i x0 Y' p := by
  rw [colStep_eq, colStep_eq]; exact colStepB_local i x0 _ _ p (colStepA_local i x0 _ _ p h)

theorem colStep_reset (i : grid0.Coords) (x0 : Vec F S512x2048 .f32) (Y Y' : Vec F S8192x1 .f32) (p : S8192x1.Idx)
    (h : k0_cond3 i = 1#1) (hp : p ∈ (Rect.unit (s := S8192x1) (k0_off3 i) S2048x1.size (k0_off3_inb i h)).set) :
    colStep i x0 Y p = colStep i x0 Y' p := by
  rw [colStep_eq, colStep_eq]; refine colStepB_local i x0 _ _ p ?_
  unfold colStepA; rw [dif_pos h, dif_pos h]
  obtain ⟨q, rfl⟩ := (Rect.unit (s := S8192x1) (k0_off3 i) S2048x1.size (k0_off3_inb i h)).exists_idx_of_mem hp
  exact (Rect.overlay_emb _ _ _ q).trans (Rect.overlay_emb _ _ _ q).symm

/-! ## A resident output window: one write-back, of the points' updates in order from some start -/

section Resident

variable (c : Dev nD) (w : Fin cfg0.W)
  (step : Fin cfg0.N → ((cfg0.win w).block.Idx → Elt F (cfg0.win w).elt) → ((cfg0.win w).block.Idx → Elt F (cfg0.win w).elt))

/-- The staging buffer after point `n`, from contents `Y0` before the first point: the points' updates in order. -/
def accFrom (Y0 : (cfg0.win w).block.Idx → Elt F (cfg0.win w).elt) : Nat → ((cfg0.win w).block.Idx → Elt F (cfg0.win w).elt)
  | 0 => if h : 0 < cfg0.N then step ⟨0, h⟩ Y0 else Y0
  | n + 1 => if h : n + 1 < cfg0.N then step ⟨n + 1, h⟩ (accFrom Y0 n) else accFrom Y0 n

theorem accFrom_zero (Y0 : (cfg0.win w).block.Idx → Elt F (cfg0.win w).elt) (h : 0 < cfg0.N) :
    accFrom w step Y0 0 = step ⟨0, h⟩ Y0 := dif_pos h

theorem accFrom_succ (Y0 : (cfg0.win w).block.Idx → Elt F (cfg0.win w).elt) (n : Nat) (h : n + 1 < cfg0.N) :
    accFrom w step Y0 (n + 1) = step ⟨n + 1, h⟩ (accFrom w step Y0 n) := dif_pos h

/-- What the body may leave in the buffer at point `n` is the points' updates in order from SOME start, when no
    point before the last writes the buffer back and each point's relation is a function of what was found. -/
theorem leaves_accFrom (hout : (cfg0.win w).isOut = true)
    (hfl : ∀ t : Fin cfg0.N, t.val + 1 < cfg0.N → (cfg0.win w).flush t = false)
    (haft : ∀ t Y X, (rdat0 V c).after w t Y X → X = step t Y) :
    ∀ (n : Nat) (h : n < cfg0.N) (X : (cfg0.win w).block.Idx → Elt F (cfg0.win w).elt),
      (rdat0 V c).Leaves w ⟨n, h⟩ X → ∃ Y0, X = accFrom w step Y0 n
  | 0, h, X, ⟨Y, _, hX⟩ => ⟨Y, by rw [haft _ _ _ hX, accFrom_zero w step Y h]⟩
  | n + 1, h, X, ⟨Y, hY, hX⟩ => by
    rw [(rdat0 V c).finds_of_pos ((cfg0.win w).fetch_out hout _) (Nat.succ_ne_zero n)] at hY
    have e : (⟨(⟨n + 1, h⟩ : Fin cfg0.N).val - 1, Nat.lt_of_le_of_lt (Nat.sub_le _ _) h⟩ : Fin cfg0.N) = ⟨n, Nat.lt_of_succ_lt h⟩ :=
      Fin.ext (by show n + 1 - 1 = n; omega)
    rw [e] at hY
    rcases hY with hY | hY
    · rw [hfl ⟨n, Nat.lt_of_succ_lt h⟩ h] at hY; exact absurd hY Bool.false_ne_true
    · obtain ⟨Y0, rfl⟩ := leaves_accFrom hout hfl haft n (Nat.lt_of_succ_lt h) Y hY
      exact ⟨Y0, by rw [haft _ _ _ hX, accFrom_succ w step Y0 n h]⟩

/-- Before the last point the array is as at entry. -/
theorem arrAt_resident (hfl : ∀ t : Fin cfg0.N, t.val + 1 < cfg0.N → (cfg0.win w).flush t = false) :
    ∀ n, n < cfg0.N → (rdat0 V c).ArrAt w n = fun Fb => Fb = (rdat0 V c).A w
  | 0, _ => rfl
  | n + 1, h => by
    have h' : n < cfg0.N := Nat.lt_of_succ_lt h
    have hs := (rdat0 V c).ArrAt_succ w ⟨n, h'⟩
    dsimp only at hs
    rw [hs, if_neg (by rw [hfl ⟨n, h'⟩ h]; exact Bool.false_ne_true)]
    exact arrAt_resident hfl n h'

/-- After the last point it is the entry contents with the one write-back, of the updates in order from some start. -/
theorem arrAt_last (hout : (cfg0.win w).isOut = true)
    (hfl : ∀ t : Fin cfg0.N, t.val + 1 < cfg0.N → (cfg0.win w).flush t = false)
    (haft : ∀ t Y X, (rdat0 V c).after w t Y X → X = step t Y)
    (m : Nat) (hm : m < cfg0.N) (hflm : (cfg0.win w).flush ⟨m, hm⟩ = true)
    (Fb : Buf (Elt F) ((cfg0.win w).arr.view.loc (c.tc : Thread nD τ))) (h : (rdat0 V c).ArrAt w (m + 1) Fb) :
    ∃ Y0, Fb = ((cfg0.win w).blk ⟨m, hm⟩).view.write (Elt F) ((rdat0 V c).A w)
      ((cfg0.win w).cut (cfg0.grid.coords ⟨m, hm⟩) (accFrom w step Y0 m)) Finset.univ := by
  have hs := (rdat0 V c).ArrAt_succ w ⟨m, hm⟩
  dsimp only at hs
  rw [hs, if_pos hflm, arrAt_resident V c w hfl m hm] at h
  obtain ⟨G₀, X, rfl, hX, rfl⟩ := h
  obtain ⟨Y0, rfl⟩ := leaves_accFrom V c w step hout hfl haft m hm X hX
  exact ⟨Y0, rfl⟩

/-- Two starts give buffers that agree, after point `n`, at every index some point up to `n` has reset, when an
    index's value after a point depends only on its value before and a reset index's value on nothing. -/
theorem accFrom_indep (R : Fin cfg0.N → (cfg0.win w).block.Idx → Prop)
    (hloc : ∀ t Y Y' p, Y p = Y' p → step t Y p = step t Y' p)
    (hreset : ∀ t Y Y' p, R t p → step t Y p = step t Y' p)
    (Y Y' : (cfg0.win w).block.Idx → Elt F (cfg0.win w).elt) :
    ∀ (n : Nat) (hn : n < cfg0.N) (p : (cfg0.win w).block.Idx), (∃ t : Fin cfg0.N, t.val ≤ n ∧ R t p) →
      accFrom w step Y n p = accFrom w step Y' n p
  | 0, hn, p, ⟨t, ht, hp⟩ => by
    have e : t = ⟨0, hn⟩ := Fin.ext (Nat.le_zero.mp ht)
    subst e
    rw [accFrom_zero w step Y hn, accFrom_zero w step Y' hn]; exact hreset _ _ _ _ hp
  | n + 1, hn, p, ⟨t, ht, hp⟩ => by
    rw [accFrom_succ w step Y n hn, accFrom_succ w step Y' n hn]
    by_cases htn : t.val = n + 1
    · have e : t = ⟨n + 1, hn⟩ := Fin.ext htn
      subst e; exact hreset _ _ _ _ hp
    · exact hloc _ _ _ _ (accFrom_indep R hloc hreset Y Y' n (Nat.lt_of_succ_lt hn) p ⟨t, by omega, hp⟩)

end Resident

/-! ## The two degree columns -/

/-- The last point. -/
def last0 : Fin cfg0.N := ⟨31, by have := N0; omega⟩

theorem flush0_1_before (t : Fin cfg0.N) (ht : t.val + 1 < cfg0.N) : (cfg0.win 1).flush t = false := by
  cases hf : (cfg0.win 1).flush t
  · rfl
  · have := (flush0_1 t).mp hf; have := N0; omega

theorem flush0_2_before (t : Fin cfg0.N) (ht : t.val + 1 < cfg0.N) : (cfg0.win 2).flush t = false := by
  cases hf : (cfg0.win 2).flush t
  · rfl
  · have := (flush0_2 t).mp hf; have := N0; omega

/-- The row-sum buffer's update at point `t`. -/
def rowStepAt (c : Dev nD) (t : Fin cfg0.N) (Y : Vec F S4096x1 .f32) : Vec F S4096x1 .f32 :=
  rowStep (grid0.coords t) (iblk0 V c 0 t) Y

/-- The column-sum buffer's update at point `t`. -/
def colStepAt (c : Dev nD) (t : Fin cfg0.N) (Y : Vec F S8192x1 .f32) : Vec F S8192x1 .f32 :=
  colStep (grid0.coords t) (iblk0 V c 0 t) Y

/-- The row-sum buffer after point `n` from a start `Y0`. -/
def rowAcc (c : Dev nD) (Y0 : Vec F S4096x1 .f32) (n : Nat) : Vec F S4096x1 .f32 :=
  accFrom (1 : Fin cfg0.W) (rowStepAt V c) Y0 n

/-- The column-sum buffer after point `n` from a start `Y0`. -/
def colAcc (c : Dev nD) (Y0 : Vec F S8192x1 .f32) (n : Nat) : Vec F S8192x1 .f32 :=
  accFrom (2 : Fin cfg0.W) (colStepAt V c) Y0 n

/-- The rows point `t` resets: those of its block, if it is the first point of its block row. -/
def rowReset (t : Fin cfg0.N) (p : S4096x1.Idx) : Prop :=
  ∃ h : k0_cond1 (grid0.coords t) = 1#1, p ∈ (Rect.unit (s := S4096x1) (k0_off1 (grid0.coords t)) S512x1.size (k0_off1_inb _ h)).set

/-- The column-sum rows point `t` resets: those of its block, if it is in the first block row. -/
def colReset (t : Fin cfg0.N) (p : S8192x1.Idx) : Prop :=
  ∃ h : k0_cond3 (grid0.coords t) = 1#1, p ∈ (Rect.unit (s := S8192x1) (k0_off3 (grid0.coords t)) S2048x1.size (k0_off3_inb _ h)).set

/-- Every row is reset at some point: row r at the first point of block row r / 512. -/
theorem rowReset_cover (p : S4096x1.Idx) : ∃ t : Fin cfg0.N, t.val ≤ 31 ∧ rowReset t p := by
  have hp0 : (p 0).val < 4096 := (p 0).isLt
  have hp1 : (p 1).val < 1 := (p 1).isLt
  have hN := N0
  have hN' : grid0.N = 32 := N_0
  refine ⟨⟨4 * ((p 0).val / 512), by omega⟩, by show 4 * ((p 0).val / 512) ≤ 31; omega, ?_⟩
  obtain ⟨h1, -, -, -, ho0, ho1, -, -⟩ := sched0 ⟨4 * ((p 0).val / 512), by omega⟩
  have hc : k0_cond1 (grid0.coords ⟨4 * ((p 0).val / 512), by omega⟩) = 1#1 := h1.mpr (by show 4 * ((p 0).val / 512) % 4 = 0; omega)
  have e0 : k0_off1 (grid0.coords ⟨4 * ((p 0).val / 512), by omega⟩) 0 = 512 * (4 * ((p 0).val / 512) / 4) := ho0
  refine ⟨hc, Rect.mem_set_unit.mpr (Fin.forall_fin_two.mpr ⟨?_, ?_⟩)⟩
  · show k0_off1 _ 0 ≤ (p 0).val ∧ (p 0).val < k0_off1 _ 0 + 512
    rw [e0]; omega
  · show k0_off1 _ 1 ≤ (p 1).val ∧ (p 1).val < k0_off1 _ 1 + 1
    rw [ho1]; omega

/-- Every column-sum row is reset at some point: row q at point q / 2048 of the first block row. -/
theorem colReset_cover (p : S8192x1.Idx) : ∃ t : Fin cfg0.N, t.val ≤ 31 ∧ colReset t p := by
  have hp0 : (p 0).val < 8192 := (p 0).isLt
  have hp1 : (p 1).val < 1 := (p 1).isLt
  have hN := N0
  have hN' : grid0.N = 32 := N_0
  refine ⟨⟨(p 0).val / 2048, by omega⟩, by show (p 0).val / 2048 ≤ 31; omega, ?_⟩
  obtain ⟨-, -, h3, -, -, -, ho0, ho1⟩ := sched0 ⟨(p 0).val / 2048, by omega⟩
  have hc : k0_cond3 (grid0.coords ⟨(p 0).val / 2048, by omega⟩) = 1#1 := h3.mpr (by show (p 0).val / 2048 / 4 = 0; omega)
  have e0 : k0_off3 (grid0.coords ⟨(p 0).val / 2048, by omega⟩) 0 = 2048 * ((p 0).val / 2048 % 4) := ho0
  refine ⟨hc, Rect.mem_set_unit.mpr (Fin.forall_fin_two.mpr ⟨?_, ?_⟩)⟩
  · show k0_off3 _ 0 ≤ (p 0).val ∧ (p 0).val < k0_off3 _ 0 + 2048
    rw [e0]; omega
  · show k0_off3 _ 1 ≤ (p 1).val ∧ (p 1).val < k0_off3 _ 1 + 1
    rw [ho1]; omega

/-- After the last point the row-sum buffer does not depend on what it held before the first. -/
theorem rowAcc_indep (c : Dev nD) (Y Y' : Vec F S4096x1 .f32) : rowAcc V c Y 31 = rowAcc V c Y' 31 :=
  funext fun p =>
    accFrom_indep (1 : Fin cfg0.W) (rowStepAt V c) rowReset
      (fun t Y Y' p h => rowStep_local _ _ Y Y' p h)
      (fun t Y Y' p ⟨h, hp⟩ => rowStep_reset _ _ Y Y' p h hp) Y Y' 31 last0.isLt p (rowReset_cover p)

/-- After the last point the column-sum buffer does not depend on what it held before the first. -/
theorem colAcc_indep (c : Dev nD) (Y Y' : Vec F S8192x1 .f32) : colAcc V c Y 31 = colAcc V c Y' 31 :=
  funext fun p =>
    accFrom_indep (2 : Fin cfg0.W) (colStepAt V c) colReset
      (fun t Y Y' p h => colStep_local _ _ Y Y' p h)
      (fun t Y Y' p ⟨h, hp⟩ => colStep_reset _ _ Y Y' p h hp) Y Y' 31 last0.isLt p (colReset_cover p)

/-! ## The low-precision copy: exact data, written back at every point -/

/-- Exact proof data that names what the body leaves in the copy's buffer (the other windows unnamed): its
    `arrAt` is the fold of the write-backs. -/
def copyDat0 (c : Dev nD) : Dat τ (Elt F) Unit ℕ (UR sig nD τ) ℕ cfg0 c where
  A w := V c (Pipeline.arrRef spec0 w)
  after w t := match w with
    | ⟨0, _⟩ => fun _ => Classical.arbitrary _
    | ⟨1, _⟩ => fun _ => Classical.arbitrary _
    | ⟨2, _⟩ => fun _ => Classical.arbitrary _
    | ⟨3, _⟩ => out0_3 (iblk0 V c 0 t)
  Φ _ := Pipeline.ΦA spec0 c
  q _ := fullShare
  owed _ := 0

theorem copyDat0_after (c : Dev nD) (t : Fin cfg0.N) : (copyDat0 V c).after 3 t = out0_3 (iblk0 V c 0 t) := by
  dsimp only [copyDat0]

/-- What the copy's array may hold after the write-backs below `n` is what the exact data names. -/
theorem copyArrAt0 (c : Dev nD) : ∀ (n : Nat) (Fb : Buf (Elt F) ((cfg0.win 3).arr.view.loc (c.tc : Thread nD τ))),
    (rdat0 V c).ArrAt 3 n Fb → Fb = (copyDat0 V c).arrAt 3 n
  | 0, _, h => h
  | n + 1, Fb, h => by
    by_cases hn : n < cfg0.N
    · have hR := (rdat0 V c).ArrAt_succ 3 ⟨n, hn⟩
      have hD := (copyDat0 V c).arrAt_succ 3 ⟨n, hn⟩
      dsimp only at hR hD
      rw [hR, if_pos (flush0_3 _)] at h; rw [hD, if_pos (flush0_3 _)]
      obtain ⟨F₀, X, hF₀, ⟨Y, _, hX⟩, rfl⟩ := h
      rw [copyArrAt0 c n F₀ hF₀, (after0_3 V c _ Y X).mp hX, ← copyDat0_after V c ⟨n, hn⟩]
    · have hN : cfg0.N ≤ n := Nat.not_lt.mp hn
      rw [(rdat0 V c).ArrAt_stable 3 (n + 1) (by omega), ← (rdat0 V c).ArrAt_stable 3 n hN] at h
      rw [(copyDat0 V c).arrAt_stable 3 (n + 1) (by omega), ← (copyDat0 V c).arrAt_stable 3 n hN]
      exact copyArrAt0 c n Fb h

/-! ## The arrays region 0 leaves -/

/-- Some contents for the row-sum buffer before the first point (which contents does not matter). -/
def start1 : Vec F S4096x1 .f32 := fun _ => Classical.choice (Elt.nonempty F .f32)

/-- Some contents for the column-sum buffer before the first point. -/
def start2 : Vec F S8192x1 .f32 := fun _ => Classical.choice (Elt.nonempty F .f32)

/-- What region 0 leaves in each of its arrays: the adjacency as found; the entry contents of each degree column
    with the one write-back of the buffer accumulated from an arbitrary start (which start does not matter:
    `rowAcc_indep`, `colAcc_indep`); the copy's write-backs in point order. -/
def final0 (c : Dev nD) : (w : Fin cfg0.W) → Buf (Elt F) ((cfg0.win w).arr.view.loc (c.tc : Thread nD τ))
  | ⟨0, _⟩ => V c (Pipeline.arrRef spec0 0)
  | ⟨1, _⟩ => ((cfg0.win 1).blk last0).view.write (Elt F) (V c (Pipeline.arrRef spec0 1))
      ((cfg0.win 1).cut (cfg0.grid.coords last0) (rowAcc V c start1 31)) Finset.univ
  | ⟨2, _⟩ => ((cfg0.win 2).blk last0).view.write (Elt F) (V c (Pipeline.arrRef spec0 2))
      ((cfg0.win 2).cut (cfg0.grid.coords last0) (colAcc V c start2 31)) Finset.univ
  | ⟨3, _⟩ => (copyDat0 V c).arrAt 3 cfg0.N

theorem final0_in (c : Dev nD) : final0 V c 0 = V c (Pipeline.arrRef spec0 0) := rfl

theorem final0_1 (c : Dev nD) : final0 V c 1 = ((cfg0.win 1).blk last0).view.write (Elt F) (V c (Pipeline.arrRef spec0 1))
      ((cfg0.win 1).cut (cfg0.grid.coords last0) (rowAcc V c start1 31)) Finset.univ := rfl

theorem final0_2 (c : Dev nD) : final0 V c 2 = ((cfg0.win 2).blk last0).view.write (Elt F) (V c (Pipeline.arrRef spec0 2))
      ((cfg0.win 2).cut (cfg0.grid.coords last0) (colAcc V c start2 31)) Finset.univ := rfl

theorem final0_3 (c : Dev nD) : final0 V c 3 = (copyDat0 V c).arrAt 3 cfg0.N := rfl

/-- After region 0 each array holds exactly `final0`. -/
theorem arrAt0_eq (c : Dev nD) (w : Fin cfg0.W) (Fb : Buf (Elt F) ((cfg0.win w).arr.view.loc (c.tc : Thread nD τ))) :
    (rdat0 V c).ArrAt w cfg0.N Fb → Fb = final0 V c w := by
  match w with
  | ⟨0, hw⟩ =>
    intro h
    exact (congrFun ((rdat0 V c).ArrAt_in ⟨0, hw⟩ rfl cfg0.N) Fb).mp h
  | ⟨1, _⟩ =>
    intro h
    obtain ⟨Y0, rfl⟩ := arrAt_last V c 1 (rowStepAt V c) rfl flush0_1_before
      (fun t Y X hX => (after0_1 V c t Y X).mp hX) 31 last0.isLt ((flush0_1 _).mpr rfl) Fb h
    show _ = ((cfg0.win 1).blk last0).view.write (Elt F) (V c (Pipeline.arrRef spec0 1))
      ((cfg0.win 1).cut (cfg0.grid.coords last0) (rowAcc V c start1 31)) Finset.univ
    rw [rowAcc_indep V c start1 Y0]; rfl
  | ⟨2, _⟩ =>
    intro h
    obtain ⟨Y0, rfl⟩ := arrAt_last V c 2 (colStepAt V c) rfl flush0_2_before
      (fun t Y X hX => (after0_2 V c t Y X).mp hX) 31 last0.isLt ((flush0_2 _).mpr rfl) Fb h
    show _ = ((cfg0.win 2).blk last0).view.write (Elt F) (V c (Pipeline.arrRef spec0 2))
      ((cfg0.win 2).cut (cfg0.grid.coords last0) (colAcc V c start2 31)) Finset.univ
    rw [colAcc_indep V c start2 Y0]; rfl
  | ⟨3, _⟩ =>
    intro h
    exact copyArrAt0 V c cfg0.N Fb h

end Cert.Kernel.Hand

end
-- ==== Proof.K.R1.lean ====
import proofs.«123106_g36129264894623_cont_8to1_b_1457_4_alg».proof.Proof.Gen.Kernel.Launch
import proofs.«123106_g36129264894623_cont_8to1_b_1457_4_alg».proof.Proof.Gen.Kernel.Skeleton
import proofs.«123106_g36129264894623_cont_8to1_b_1457_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1: `cc1__y_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is through the whole block -/

abbrev r1_0 : Rect S2048x512 := Rect.unit (s := S2048x512) ![0, 0] S2048x512.size inb_S2048x512_S2048x512_0_0
abbrev r1_1 : Rect S512x512 := Rect.unit (s := S512x512) ![0, 0] S512x512.size inb_S512x512_S512x512_0_0
abbrev r1_2 : Rect S2048x1 := Rect.unit (s := S2048x1) ![0, 0] S2048x1.size inb_S2048x1_S2048x1_0_0

/-! ## What the body leaves in each output window's buffer -/

/-- Window 3's staging buffer after the body, from the input windows' blocks: its one store, of the whole block. -/
def out1_3 (x0 : Vec F S2048x512 .f32) (x1 : Vec F S512x512 .f32) : Vec F S2048x512 .f32 :=
  View.canon [⟨r1_0, k1_pay1 (View.ld x0 r1_0) (View.ld x1 r1_1)⟩]

/-- The store covers the buffer. -/
theorem cover1_3 (p0 : Vec F S2048x512 .f32) (y : S2048x512.Idx) :
    ∃ pc ∈ ([⟨r1_0, p0⟩] : List (View.Piece (Elt F) S2048x512 .f32)), y ∈ pc.1.set :=
  View.cover_of_tiled [⟨r1_0, p0⟩] S2048x512.size (by rfl) y

/-- Window 4's staging buffer after the body, from the input windows' blocks: its one store, of the whole block. -/
def out1_4 (x0 : Vec F S2048x512 .f32) (x1 : Vec F S512x512 .f32) (x2 : Vec F S2048x1 .f32) : Vec F S2048x512 .bf16 :=
  View.canon [⟨r1_0, k1_pay2 (View.ld x0 r1_0) (View.ld x1 r1_1) (View.ld x2 r1_2)⟩]

/-- The store covers the buffer. -/
theorem cover1_4 (p0 : Vec F S2048x512 .bf16) (y : S2048x512.Idx) :
    ∃ pc ∈ ([⟨r1_0, p0⟩] : List (View.Piece (Elt F) S2048x512 .bf16)), y ∈ pc.1.set :=
  View.cover_of_tiled [⟨r1_0, p0⟩] S2048x512.size (by rfl) y

/-! ## The body's triple -/

set_option maxHeartbeats 1000000 in
/-- The kernel body on whole staging memrefs, the inputs' at read contents `xW` and the outputs' at anything, runs to
    the continuation holding the inputs' as they were and each output's at `out1_W` of the inputs'. Each output
    buffer is loaded once before it is stored (the value read is unused), which is why it must be owned beforehand. -/
theorem sound_kernel1 (c : Dev nD) (E : Set ℕ) (i : grid1.Coords) (arg0 : Memref sig .tc .vmem S2048x512 .f32) (harg0 : arg0.IsWhole) (arg1 : Memref sig .tc .vmem S512x512 .f32) (harg1 : arg1.IsWhole) (arg2 : Memref sig .tc .vmem S2048x1 .f32) (harg2 : arg2.IsWhole) (arg3 : Memref sig .tc .vmem S2048x512 .f32) (harg3 : arg3.IsWhole) (arg4 : Memref sig .tc .vmem S2048x512 .bf16) (harg4 : arg4.IsWhole)
    (x0 : Vec F S2048x512 .f32) (x1 : Vec F S512x512 .f32) (x2 : Vec F S2048x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1) ∗ owns (c : Thread nD τ) arg4 fullShare (out1_4 x0 x1 x2)) -∗ K ⟨⟩))
      ⊢ wp frame (wpE (defs₀ (F := F)) Variants.none c none) E (cc1__y_kernel i arg0 harg0 arg1 harg1 arg2 harg2 arg3 harg3 arg4 harg4) K := by
  simp only [cc1__y_kernel_eq_skeleton]; unfold cc1__y_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«123106_g36129264894623_cont_8to1_b_1457_4_alg».proof.Proof.Gen.Kernel.Launch
import proofs.«123106_g36129264894623_cont_8to1_b_1457_4_alg».proof.Proof.Gen.Kernel.Skeleton
import proofs.«123106_g36129264894623_cont_8to1_b_1457_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2: `cc2__x_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through the whole block -/

abbrev r2_0 : Rect S512x8192 := Rect.unit (s := S512x8192) ![0, 0] S512x8192.size inb_S512x8192_S512x8192_0_0
abbrev r2_1 : Rect S8192x512 := Rect.unit (s := S8192x512) ![0, 0] S8192x512.size inb_S8192x512_S8192x512_0_0
abbrev r2_2 : Rect S512x512 := Rect.unit (s := S512x512) ![0, 0] S512x512.size inb_S512x512_S512x512_0_0
abbrev r2_3 : Rect S512x1 := Rect.unit (s := S512x1) ![0, 0] S512x1.size inb_S512x1_S512x1_0_0

/-! ## What the body leaves in each output window's buffer -/

/-- Window 5's staging buffer after the body, from the input windows' blocks: its one store, of the whole block. -/
def out2_5 (x0 : Vec F S512x8192 .bf16) (x1 : Vec F S8192x512 .bf16) (x2 : Vec F S512x512 .f32) (x3 : Vec F S512x512 .f32) (x4 : Vec F S512x1 .f32) : Vec F S512x512 .f32 :=
  View.canon [⟨r2_2, k2_pay3 (View.ld x0 r2_0) (View.ld x1 r2_1) (View.ld x2 r2_2) (View.ld x3 r2_2) (View.ld x4 r2_3)⟩]

/-- The store covers the buffer. -/
theorem cover2_5 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-- Window 6's staging buffer after the body, from the input windows' blocks: its one store, of the whole block. -/
def out2_6 (x0 : Vec F S512x8192 .bf16) (x1 : Vec F S8192x512 .bf16) (x2 : Vec F S512x512 .f32) (x3 : Vec F S512x512 .f32) (x4 : Vec F S512x1 .f32) : Vec F S512x512 .bf16 :=
  View.canon [⟨r2_2, k2_pay4 (View.ld x0 r2_0) (View.ld x1 r2_1) (View.ld x2 r2_2) (View.ld x3 r2_2) (View.ld x4 r2_3)⟩]

/-- The store covers the buffer. -/
theorem cover2_6 (p0 : Vec F S512x512 .bf16) (y : S512x512.Idx) :
    ∃ pc ∈ ([⟨r2_2, p0⟩] : List (View.Piece (Elt F) S512x512 .bf16)), y ∈ pc.1.set :=
  View.cover_of_tiled [⟨r2_2, p0⟩] S512x512.size (by rfl) y

/-! ## The body's triple -/

set_option maxHeartbeats 1000000 in
/-- The kernel body on whole staging memrefs, the inputs' at read contents `xW` and the outputs' at anything, runs to
    the continuation holding the inputs' as they were and each output's at `out2_W` of the inputs'. Each output
    buffer is loaded once before it is stored (the value read is unused), which is why it must be owned beforehand. -/
theorem sound_kernel2 (c : Dev nD) (E : Set ℕ) (i : grid2.Coords) (arg0 : Memref sig .tc .vmem S512x8192 .bf16) (harg0 : arg0.IsWhole) (arg1 : Memref sig .tc .vmem S8192x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .bf16) (harg6 : arg6.IsWhole)
    (x0 : Vec F S512x8192 .bf16) (x1 : Vec F S8192x512 .bf16) (x2 : Vec F S512x512 .f32) (x3 : Vec F S512x512 .f32) (x4 : Vec F S512x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4) ∗ owns (c : Thread nD τ) arg6 fullShare (out2_6 x0 x1 x2 x3 x4)) -∗ K ⟨⟩))
      ⊢ wp frame (wpE (defs₀ (F := F)) Variants.none c none) E (cc2__x_kernel i arg0 harg0 arg1 harg1 arg2 harg2 arg3 harg3 arg4 harg4 arg5 harg5 arg6 harg6) K := by
  simp only [cc2__x_kernel_eq_skeleton]; unfold cc2__x_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and each output's at `out2_W` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«123106_g36129264894623_cont_8to1_b_1457_4_alg».proof.Proof.Gen.Kernel.Launch
import proofs.«123106_g36129264894623_cont_8to1_b_1457_4_alg».proof.Proof.Gen.Kernel.Skeleton
import proofs.«123106_g36129264894623_cont_8to1_b_1457_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3: `cc3__yout_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is through the whole block -/

abbrev r3_0 : Rect S4096x1024 := Rect.unit (s := S4096x1024) ![0, 0] S4096x1024.size inb_S4096x1024_S4096x1024_0_0
abbrev r3_1 : Rect S512x4096 := Rect.unit (s := S512x4096) ![0, 0] S512x4096.size inb_S512x4096_S512x4096_0_0
abbrev r3_2 : Rect S1024x512 := Rect.unit (s := S1024x512) ![0, 0] S1024x512.size inb_S1024x512_S1024x512_0_0
abbrev r3_3 : Rect S1024x1 := Rect.unit (s := S1024x1) ![0, 0] S1024x1.size inb_S1024x1_S1024x1_0_0

/-! ## What the body leaves in each output window's buffer -/

/-- Window 4's staging buffer after the body, from the input windows' blocks: its one store, of the whole block. -/
def out3_4 (x0 : Vec F S4096x1024 .bf16) (x1 : Vec F S512x4096 .bf16) (x2 : Vec F S1024x512 .f32) (x3 : Vec F S1024x1 .f32) : Vec F S1024x512 .f32 :=
  View.canon [⟨r3_2, k3_pay1 (View.ld x1 r3_1) (View.ld x0 r3_0) (View.ld x3 r3_3) (View.ld x2 r3_2)⟩]

/-- The store covers the buffer. -/
theorem cover3_4 (p0 : Vec F S1024x512 .f32) (y : S1024x512.Idx) :
    ∃ pc ∈ ([⟨r3_2, p0⟩] : List (View.Piece (Elt F) S1024x512 .f32)), y ∈ pc.1.set :=
  View.cover_of_tiled [⟨r3_2, p0⟩] S1024x512.size (by rfl) y

/-! ## The body's triple -/

set_option maxHeartbeats 1000000 in
/-- The kernel body on whole staging memrefs, the inputs' at read contents `xW` and the outputs' at anything, runs to
    the continuation holding the inputs' as they were and each output's at `out3_W` of the inputs'. Each output
    buffer is loaded once before it is stored (the value read is unused), which is why it must be owned beforehand. -/
theorem sound_kernel3 (c : Dev nD) (E : Set ℕ) (i : grid3.Coords) (arg0 : Memref sig .tc .vmem S4096x1024 .bf16) (harg0 : arg0.IsWhole) (arg1 : Memref sig .tc .vmem S512x4096 .bf16) (harg1 : arg1.IsWhole) (arg2 : Memref sig .tc .vmem S1024x512 .f32) (harg2 : arg2.IsWhole) (arg3 : Memref sig .tc .vmem S1024x1 .f32) (harg3 : arg3.IsWhole) (arg4 : Memref sig .tc .vmem S1024x512 .f32) (harg4 : arg4.IsWhole)
    (x0 : Vec F S4096x1024 .bf16) (x1 : Vec F S512x4096 .bf16) (x2 : Vec F S1024x512 .f32) (x3 : Vec F S1024x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__yout_kernel i arg0 harg0 arg1 harg1 arg2 harg2 arg3 harg3 arg4 harg4) K := by
  simp only [cc3__yout_kernel_eq_skeleton]; unfold cc3__yout_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The run of the four launches: what every unscoped buffer holds at each launch boundary, and the launch of the
  whole program from them.

  Between two launches core `c`'s buffers are held whole at a definite valuation: `W0` the launch memory; `W1` that
  with the degree pass's arrays at what it leaves (`final0`: the relational data has exactly one solution,
  `arrAt0_eq`); `W2`, `W3`, `W4` each the previous one with the next launch's arrays at what its write-backs fold
  to (`Dat.arrAt`).  No launch writes an argument array, so each argument is read back through the four updates to
  its launch contents.  The program's frame and its results' values are both read off the last valuation.
-/
import proofs.«123106_g36129264894623_cont_8to1_b_1457_4_alg».proof.Proof.K.R0
import proofs.«123106_g36129264894623_cont_8to1_b_1457_4_alg».proof.Proof.K.R0Fin
import proofs.«123106_g36129264894623_cont_8to1_b_1457_4_alg».proof.Proof.K.R1
import proofs.«123106_g36129264894623_cont_8to1_b_1457_4_alg».proof.Proof.K.R2
import proofs.«123106_g36129264894623_cont_8to1_b_1457_4_alg».proof.Proof.K.R3
import Idealize.ShloMosaic.Lib.Pipeline.Regions
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each launch boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the degree pass. -/
def W1 (c : Dev nD) : Valuation τ sig (Elt F) :=
  Pipeline.withArrays spec0 c (W0 m c) fun w => final0 (V0 m) c w
theorem W1_arr (c : Dev nD) (w : Fin cfg0.W) :
    W1 m c (Proc.devRef .tc (Pipeline.arrRef spec0 w)) = final0 (V0 m) c w := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : final0 (V0 m) c w = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the target-side product launch. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) := (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the source-side aggregation launch. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) := (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After the target-side aggregation launch: the end. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) := (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-! ## The arguments end as launched -/

/-- The source features: staged by the source-side aggregation launch (its window 2) only. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := (W3_arr m c 2).trans (((dat2 (V2 m) c).arrAt_in 2 rfl _).trans (A_eq2 (V2 m) c 2))
    _ = W1 m c (Proc.devRef .tc main_arg0) := W2_of_ne m c main_arg0 (by decide)
    _ = W0 m c (Proc.devRef .tc main_arg0) := W1_of_ne m c main_arg0 (by decide)
    _ = m ((c : Thread nD τ).loc main_arg0) := rfl

/-- The target features: staged by the target-side product launch (its window 0) only. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat1 (V1 m) c).arrAt_in 0 rfl _).trans (A_eq1 (V1 m) c 0))
    _ = W0 m c (Proc.devRef .tc main_arg1) := W1_of_ne m c main_arg1 (by decide)
    _ = m ((c : Thread nD τ).loc main_arg1) := rfl

/-- The adjacency: staged by the degree pass (its window 0) only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := (W1_arr m c 0).trans (final0_in (V0 m) c)
    _ = m ((c : Thread nD τ).loc main_arg2) := rfl

/-- The weight: staged by both product launches (window 1 of the one, window 3 of the other). -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := (W3_arr m c 3).trans (((dat2 (V2 m) c).arrAt_in 3 rfl _).trans (A_eq2 (V2 m) c 3))
    _ = W1 m c (Proc.devRef .tc main_arg3) := (W2_arr m c 1).trans (((dat1 (V1 m) c).arrAt_in 1 rfl _).trans (A_eq1 (V1 m) c 1))
    _ = W0 m c (Proc.devRef .tc main_arg3) := W1_of_ne m c main_arg3 (by decide)
    _ = m ((c : Thread nD τ).loc main_arg3) := rfl

/-- The first result: the source-side aggregation launch's window 5, untouched by the last launch. -/
theorem W4_main_v2_0 (c : Dev nD) : W4 m c (Proc.devRef .tc main_v2_0) = (dat2 (V2 m) c).arrAt 5 cfg2.N :=
  (W4_of_ne m c main_v2_0 (by decide)).trans (W3_arr m c 5)

/-- The second result: the last launch's window 4. -/
theorem W4_main_v3 (c : Dev nD) : W4 m c (Proc.devRef .tc main_v3) = (dat3 (V3 m) c).arrAt 4 cfg3.N := W4_arr m c 4

/-! ## The proof data family and the thread state -/

/-- No launch has a prefetched table. -/
abbrev adm : (p : Fin 4) → (pcfgs (F := F) p).Adm := fun p => (cfgs p).toPCfg_adm

/-- Every launch's proof data at its entry contents: the degree pass's relational, the other three exact data read
    as relational. -/
def rdats : (p : Fin 4) → (c : Dev nD) → RDat τ (Elt F) Unit ℕ (UR sig nD τ) ℕ (Pipeline.pin (pcfgs (F := F)) adm p) c
  | ⟨0, _⟩ => fun c => rdat0 (V0 m) c
  | ⟨1, _⟩ => fun c => (dat1 (V1 m) c).toR
  | ⟨2, _⟩ => fun c => (dat2 (V2 m) c).toR
  | ⟨3, _⟩ => fun c => (dat3 (V3 m) c).toR

/-- An exact family with the same entry arrays and shares, through which the library's lemma that puts a launch's
    arrays back among the core's buffers is cited. -/
def dat0x (c : Dev nD) : Dat τ (Elt F) Unit ℕ (UR sig nD τ) ℕ cfg0 c where
  A w := V0 m c (Pipeline.arrRef spec0 w)
  after _ _ := fun _ => Classical.arbitrary _
  Φ _ := Pipeline.ΦA spec0 c
  q _ := fullShare
  owed _ := 0
def pdatsX : (p : Fin 4) → (c : Dev nD) → Dat τ (Elt F) Unit ℕ (UR sig nD τ) ℕ (Pipeline.pin (pcfgs (F := F)) adm p) c
  | ⟨0, _⟩ => fun c => dat0x m c
  | ⟨1, _⟩ => fun c => dat1 (V1 m) c
  | ⟨2, _⟩ => fun c => dat2 (V2 m) c
  | ⟨3, _⟩ => fun c => dat3 (V3 m) c

abbrev 𝒱₀ : Variants := Variants.none
abbrev L : GSem nD τ sig → Finset Unit := fun _ => ∅
abbrev lv : GSem nD τ sig → Unit → ℕ := fun _ _ => 0
/-- What rides beside the buffers through every launch: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at the contents before it, left at the
    contents after it; its arrays split out of the unscoped buffers and put back at what the launch leaves; the
    generator register into the class invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsX m) ((pdatsX m 0 c).share_full fun _ => rfl)
      (V0 m c) (V1 m c) (final0 (V0 m) c) (hF0 m c) (hrest0 m c)
    rw [Pipeline.unscopedBufs_held] at hjoin
    have hat : (rdats m 0 c).arraysAt cfg0.N ⊢ ((pdatsX m 0 c).arrays (final0 (V0 m) c) : sProp 𝕄) :=
      BI.bigSep_mono fun w _ =>
        show iprop(∃ Fb, ⌜(rdats m 0 c).ArrAt w cfg0.N Fb⌝ ∗ (cfg0.win w).arr.view.loc (c.tc : Thread nD τ) ↦[(cfg0.win w).arr.view.set]{(rdats m 0 c).share w} Fb)
            ⊢ ((cfg0.win w).arr.view.loc (c.tc : Thread nD τ) ↦[(cfg0.win w).arr.view.set]{(pdatsX m 0 c).share w} final0 (V0 m) c w : sProp 𝕄) from by
          rw [(rdats m 0 c).share_full (fun _ => rfl) w, (pdatsX m 0 c).share_full (fun _ => rfl) w]
          iintro ⟨%Fb, %hFb, H⟩
          rw [arrAt0_eq (V0 m) c w Fb hFb]
          iexact H
    iintro ⟨Ha, HO, HY, Hrest⟩
    ihave Ha' := hat $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Launch 1 over the thread state: entered from every unscoped buffer at the contents before it, left at the
    contents after it; its arrays split out of the unscoped buffers and put back at what the launch leaves; the
    generator register into the class invariant and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).toR
  hwaits := Pipeline.RDat.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsX m) ((pdatsX m 1 c).share_full fun _ => rfl)
      (V1 m c) (V2 m c) ((pdatsX m 1 c).arrAt · cfg1.N) (hF1 m c) (hrest1 m c)
    rw [Pipeline.unscopedBufs_held] at hjoin
    have hat : (rdats m 1 c).arraysAt cfg1.N ⊢ ((pdatsX m 1 c).arrays ((pdatsX m 1 c).arrAt · cfg1.N) : sProp 𝕄) :=
      Pipeline.Dat.toR_arraysAt_post (pdatsX m 1 c) cfg1.N
    iintro ⟨Ha, HO, HY, Hrest⟩
    ihave Ha' := hat $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Launch 2 over the thread state: entered from every unscoped buffer at the contents before it, left at the
    contents after it; its arrays split out of the unscoped buffers and put back at what the launch leaves; the
    generator register into the class invariant and out; nothing owed; no semaphore of the kernel's own. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).toR
  hwaits := Pipeline.RDat.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsX m) ((pdatsX m 2 c).share_full fun _ => rfl)
      (V2 m c) (V3 m c) ((pdatsX m 2 c).arrAt · cfg2.N) (hF2 m c) (hrest2 m c)
    rw [Pipeline.unscopedBufs_held] at hjoin
    have hat : (rdats m 2 c).arraysAt cfg2.N ⊢ ((pdatsX m 2 c).arrays ((pdatsX m 2 c).arrAt · cfg2.N) : sProp 𝕄) :=
      Pipeline.Dat.toR_arraysAt_post (pdatsX m 2 c) cfg2.N
    iintro ⟨Ha, HO, HY, Hrest⟩
    ihave Ha' := hat $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Launch 3 over the thread state: entered from every unscoped buffer at the contents before it, left at the
    contents after it; its arrays split out of the unscoped buffers and put back at what the launch leaves; the
    generator register into the class invariant and out; nothing owed; no semaphore of the kernel's own. -/
def reg3 : Pipeline.RDat.RegionSeg (pcfgs (F := F)) adm (rdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).toR
  hwaits := Pipeline.RDat.hwaits_of_owed_zero _ _ _ _ L lv 3 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.RDat.arrays_of_unscopedBufs (p := 3) (pcfgs (F := F)) adm (rdats m) launch3.win launch3.arr_whole c
      ((rdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsX m) ((pdatsX m 3 c).share_full fun _ => rfl)
      (V3 m c) (V4 m c) ((pdatsX m 3 c).arrAt · cfg3.N) (hF3 m c) (hrest3 m c)
    rw [Pipeline.unscopedBufs_held] at hjoin
    have hat : (rdats m 3 c).arraysAt cfg3.N ⊢ ((pdatsX m 3 c).arrays ((pdatsX m 3 c).arrAt · cfg3.N) : sProp 𝕄) :=
      Pipeline.Dat.toR_arraysAt_post (pdatsX m 3 c) cfg3.N
    iintro ⟨Ha, HO, HY, Hrest⟩
    ihave Ha' := hat $$ Ha
    imodintro
    isplitl [Ha' Hrest HY]
    · isplitl [Ha' Hrest]
      · iapply hjoin; isplitl [Ha'] <;> iassumption
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m) () defs₀ 𝒱₀ L lv) :=
  [ .region (reg0 m), .region (reg1 m), .region (reg2 m), .region (reg3 m) ]

set_option backward.isDefEq.respectTransparency.types false in
/-- THE RUN. From any memory with zero counters every weakly fair execution of the program terminates, nothing
    faulting, and in every final state each unscoped buffer of core `c` holds the last valuation `W4 m c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

/-- THE RESULTS: the two result arrays end at what the last two launches' write-backs fold to, the arguments as launched. -/
theorem run_results : θ_run defs (onTc (τ := τ) (main (F := F))) ⟨m, fun _ => 0, ρ⟩ (fun r => ∀ c : Dev nD,
      r.2.mem ((c.tc : Thread nD τ).loc main_v2_0) = (dat2 (V2 m) c).arrAt 5 cfg2.N
      ∧ r.2.mem ((c.tc : Thread nD τ).loc main_v3) = (dat3 (V3 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2_0 (by decide))).trans (W4_main_v2_0 m c),
     (h c _ (mem_uc main_v3 (by decide))).trans (W4_main_v3 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.Kernel.Hand

end
-- ==== Proof.KI.R0Defs.lean ====
/-
  Region 0 (the degree pass) point by point: what one grid point does to the two resident degree columns.

  At grid point (i, j) the body reads the adjacency block x0 (rows 512·i …, columns 2048·j …), forms the block's
  row sums (a [512,1] column) and column sums (a [2048,1] column), and
    * in the row-sum buffer [4096,1] overwrites rows 512·i … 512·i+511: with the block's row sums when j = 0,
      with "what was there plus the block's row sums" when j > 0; every other row is left as found;
    * in the column-sum buffer [8192,1] overwrites rows 2048·j … 2048·j+2047 likewise, by i = 0 / i > 0.
  `rowStep` and `colStep` are these two updates as functions of the buffer's contents before the point; the
  relational proof data `rdat0` says each window's buffer after the point is that function of what was found.
-/
import proofs.«123106_g36129264894623_cont_8to1_b_1457_4_alg».proof.Proof.Gen.KernelIdeal.Launch
import proofs.«123106_g36129264894623_cont_8to1_b_1457_4_alg».proof.Proof.Gen.KernelIdeal.Skeleton
import proofs.«123106_g36129264894623_cont_8to1_b_1457_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangle of the adjacency block and of its low-precision copy. -/
abbrev r0_0 : Rect S512x2048 := Rect.unit (s := S512x2048) ![0, 0] S512x2048.size inb_S512x2048_S512x2048_0_0

/-- The row-sum buffer after the point at coordinates `i`, from the adjacency block `x0` and the buffer before. -/
def rowStep (i : grid0.Coords) (x0 : Vec F S512x2048 .f32) (Y : Vec F S4096x1 .f32) : Vec F S4096x1 .f32 :=
  let Y1 : Vec F S4096x1 .f32 :=
    if h : k0_cond1 i = 1#1 then (Rect.unit (s := S4096x1) (k0_off1 i) S512x1.size (k0_off1_inb i h)).overlay Y (k0_pay2 x0) else Y
  if h : k0_cond2 i = 1#1 then
    (Rect.unit (s := S4096x1) (k0_off2 i) S512x1.size (k0_off2_inb i h)).overlay Y1
      (k0_pay4 x0 (View.ld Y1 (Rect.unit (s := S4096x1) (k0_off2 i) S512x1.size (k0_off2_inb i h))))
  else Y1

/-- The column-sum buffer after the point at coordinates `i`, from the adjacency block `x0` and the buffer before. -/
def colStep (i : grid0.Coords) (x0 : Vec F S512x2048 .f32) (Y : Vec F S8192x1 .f32) : Vec F S8192x1 .f32 :=
  let Y1 : Vec F S8192x1 .f32 :=
    if h : k0_cond3 i = 1#1 then (Rect.unit (s := S8192x1) (k0_off3 i) S2048x1.size (k0_off3_inb i h)).overlay Y (k0_pay3 x0) else Y
  if h : k0_cond4 i = 1#1 then
    (Rect.unit (s := S8192x1) (k0_off4 i) S2048x1.size (k0_off4_inb i h)).overlay Y1
      (k0_pay5 x0 (View.ld Y1 (Rect.unit (s := S8192x1) (k0_off4 i) S2048x1.size (k0_off4_inb i h))))
  else Y1

/-- The low-precision copy of the block: the one whole-block store. -/
def out0_3 (x0 : Vec F S512x2048 .f32) : Vec F S512x2048 .bf16 :=
  View.canon [⟨r0_0, k0_pay1 (View.ld x0 r0_0)⟩]

/-- Region 0's relational proof data on core `c`: the arrays as the region finds them; after the body at point `t`
    the input block is as found, the two degree columns are `rowStep` / `colStep` of what was found, the copy is
    the block's; the class invariant; nothing owed; full shares. -/
def rdat0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = rowStep (grid0.coords t) (iblk0 V c 0 t) Y
    | ⟨2, _⟩ => fun Y X => X = colStep (grid0.coords t) (iblk0 V c 0 t) Y
    | ⟨3, _⟩ => fun _ X => X = out0_3 (iblk0 V c 0 t)
  Φ _ := Pipeline.ΦA spec0 c
  q _ := fullShare
  owed _ := 0

theorem rdat0_A (c : Dev nD) (w : Fin cfg0.W) : (rdat0 V c).A w = V c (Pipeline.arrRef spec0 w) := by
  dsimp only [rdat0]

theorem after0_0 (c : Dev nD) (t : Fin cfg0.N) (Y X) : (rdat0 V c).after 0 t Y X ↔ X = Y := by dsimp only [rdat0]; exact Iff.rfl
theorem after0_1 (c : Dev nD) (t : Fin cfg0.N) (Y X) :
    (rdat0 V c).after 1 t Y X ↔ X = rowStep (grid0.coords t) (iblk0 V c 0 t) Y := by dsimp only [rdat0]; exact Iff.rfl
theorem after0_2 (c : Dev nD) (t : Fin cfg0.N) (Y X) :
    (rdat0 V c).after 2 t Y X ↔ X = colStep (grid0.coords t) (iblk0 V c 0 t) Y := by dsimp only [rdat0]; exact Iff.rfl
theorem after0_3 (c : Dev nD) (t : Fin cfg0.N) (Y X) :
    (rdat0 V c).after 3 t Y X ↔ X = out0_3 (iblk0 V c 0 t) := by dsimp only [rdat0]; exact Iff.rfl

end Cert.KernelIdeal.Hand

end
-- ==== Proof.KI.R0.lean ====
/-
  Region 0 (the degree pass): the body obligation over the relational proof data.

  At every grid point the adjacency block's buffer holds the block (it is fetched at every point); the body, run on
  the four staging buffers at the contents found there, leaves the block as found, the row-sum and column-sum
  buffers at one dynamic slice overwritten (the rest as found), and the low-precision copy stored whole.
-/
import proofs.«123106_g36129264894623_cont_8to1_b_1457_4_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## The control conditions: exactly one of each pair holds -/

theorem k0_cond2_iff : ∀ i : grid0.Coords, k0_cond2 i = 1#1 ↔ ¬ k0_cond1 i = 1#1 := by decide +kernel
theorem k0_cond4_iff : ∀ i : grid0.Coords, k0_cond4 i = 1#1 ↔ ¬ k0_cond3 i = 1#1 := by decide +kernel

/-! ## One store through a rectangle over given contents -/

/-- What a buffer reads after ONE unmasked store through rectangle `r` over contents reading `X`: the payload on
    the rectangle, `X` off it. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons,
      View.read_slice_write_of_not_mem r _ _ _ (by rw [Rect.map_emb_univ]; exact hy)]
    rfl

section Region0

variable (V : (c : Dev nD) → (b : Ref sig .tc) → Buf (Elt F) ((c : Thread nD τ).loc b))

/-! ## What the body finds in the adjacency block's buffer -/

/-- The adjacency block's window is fetched at every point and is uncut: its buffer holds the block. -/
theorem finds0_0 (c : Dev nD) (t : Fin cfg0.N) (Y) (h : (rdat0 V c).Finds 0 t Y) : Y = iblk0 V c 0 t := by
  obtain ⟨d, rfl⟩ := ((rdat0 V c).finds_of_fetch (fetch0_0 t) Y).mp h
  unfold RDat.fetched RDat.blockOf iblk0; rw [rdat0_A]; try rfl

/-! ## The whole-block rectangle -/

/-- A load through the whole-block rectangle reads the block itself. -/
theorem ld_r0_0 {e : EltTy} (x0 : S512x2048.Idx → Elt F e) : View.ld x0 r0_0 = x0 := by
  funext x
  show x0 (r0_0.idx x) = x0 x
  congr 1
  funext a; apply Fin.ext
  show (![0, 0] : Fin 2 → ℕ) a + 1 * (x a).val = (x a).val
  fin_cases a <;> simp

/-- The one store of the low-precision copy covers its buffer. -/
theorem cover0_3 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The two degree updates, by control case -/

theorem rowStep_A (i : grid0.Coords) (h1 : k0_cond1 i = 1#1) (h2 : ¬ k0_cond2 i = 1#1) (x0 : Vec F S512x2048 .f32) (Y : Vec F S4096x1 .f32) :
    rowStep i x0 Y = (Rect.unit (s := S4096x1) (k0_off1 i) S512x1.size (k0_off1_inb i h1)).overlay Y (k0_pay2 x0) := by
  simp only [rowStep, dif_pos h1, dif_neg h2]

theorem rowStep_B (i : grid0.Coords) (h1 : ¬ k0_cond1 i = 1#1) (h2 : k0_cond2 i = 1#1) (x0 : Vec F S512x2048 .f32) (Y : Vec F S4096x1 .f32) :
    rowStep i x0 Y = (Rect.unit (s := S4096x1) (k0_off2 i) S512x1.size (k0_off2_inb i h2)).overlay Y
      (k0_pay4 x0 (View.ld Y (Rect.unit (s := S4096x1) (k0_off2 i) S512x1.size (k0_off2_inb i h2)))) := by
  simp only [rowStep, dif_neg h1, dif_pos h2]

theorem colStep_A (i : grid0.Coords) (h3 : k0_cond3 i = 1#1) (h4 : ¬ k0_cond4 i = 1#1) (x0 : Vec F S512x2048 .f32) (Y : Vec F S8192x1 .f32) :
    colStep i x0 Y = (Rect.unit (s := S8192x1) (k0_off3 i) S2048x1.size (k0_off3_inb i h3)).overlay Y (k0_pay3 x0) := by
  simp only [colStep, dif_pos h3, dif_neg h4]

theorem colStep_B (i : grid0.Coords) (h3 : ¬ k0_cond3 i = 1#1) (h4 : k0_cond4 i = 1#1) (x0 : Vec F S512x2048 .f32) (Y : Vec F S8192x1 .f32) :
    colStep i x0 Y = (Rect.unit (s := S8192x1) (k0_off4 i) S2048x1.size (k0_off4_inb i h4)).overlay Y
      (k0_pay5 x0 (View.ld Y (Rect.unit (s := S8192x1) (k0_off4 i) S2048x1.size (k0_off4_inb i h4)))) := by
  simp only [colStep, dif_neg h3, dif_pos h4]

/-! ## The body's triple, by control case -/

set_option maxHeartbeats 1000000 in
/-- The body where the row sums are stored afresh (first column of blocks) and the column sums are
    stored afresh (first row of blocks): each degree buffer ends with its one slice overwritten, the rest as found. -/
theorem sound_kernel0_AA (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : k0_cond1 i = 1#1) (h2 : ¬ k0_cond2 i = 1#1) (h3 : k0_cond3 i = 1#1) (h4 : ¬ k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off1 i) S512x1.size (k0_off1_inb i h1)).overlay Y1 (k0_pay2 x0))
            ∗ owns (c : Thread nD τ) arg4 fullShare
            ((Rect.unit (s := S8192x1) (k0_off3 i) S2048x1.size (k0_off3_inb i h3)).overlay Y2 (k0_pay3 x0))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0]
  isplitl [H2]
  · iexists _; isplitr
    swap; · iexact H2
    ipureintro
    rw [read_writes_single, harg4.read_unread, e0]
  iexists _; isplitr
  swap; · iexact H3
  ipureintro
  exact View.read_writes_eq_canon _ _ _ (cover0_3 _)

set_option maxHeartbeats 1000000 in
/-- The body where the row sums are stored afresh (first column of blocks) and the column sums are
    added to what the buffer holds (later rows of blocks): each degree buffer ends with its one slice overwritten, the rest as found. -/
theorem sound_kernel0_AB (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : k0_cond1 i = 1#1) (h2 : ¬ k0_cond2 i = 1#1) (h3 : ¬ k0_cond3 i = 1#1) (h4 : k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off1 i) S512x1.size (k0_off1_inb i h1)).overlay Y1 (k0_pay2 x0))
            ∗ owns (c : Thread nD τ) arg4 fullShare
            ((Rect.unit (s := S8192x1) (k0_off4 i) S2048x1.size (k0_off4_inb i h4)).overlay Y2
              (k0_pay5 x0 (View.ld Y2 (Rect.unit (s := S8192x1) (k0_off4 i) S2048x1.size (k0_off4_inb i h4)))))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0]
  isplitl [H2]
  · iexists _; isplitr
    swap; · iexact H2
    ipureintro
    rw [read_writes_single, harg4.read_unread, e0, View.readAt_eq_ld, harg4.read_unread]
  iexists _; isplitr
  swap; · iexact H3
  ipureintro
  exact View.read_writes_eq_canon _ _ _ (cover0_3 _)

set_option maxHeartbeats 1000000 in
/-- The body where the row sums are added to what the buffer holds (later columns of blocks) and the column sums are
    stored afresh (first row of blocks): each degree buffer ends with its one slice overwritten, the rest as found. -/
theorem sound_kernel0_BA (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : ¬ k0_cond1 i = 1#1) (h2 : k0_cond2 i = 1#1) (h3 : k0_cond3 i = 1#1) (h4 : ¬ k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off2 i) S512x1.size (k0_off2_inb i h2)).overlay Y1
              (k0_pay4 x0 (View.ld Y1 (Rect.unit (s := S4096x1) (k0_off2 i) S512x1.size (k0_off2_inb i h2)))))
            ∗ owns (c : Thread nD τ) arg4 fullShare
            ((Rect.unit (s := S8192x1) (k0_off3 i) S2048x1.size (k0_off3_inb i h3)).overlay Y2 (k0_pay3 x0))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0, View.readAt_eq_ld, harg3.read_unread]
  isplitl [H2]
  · iexists _; isplitr
    swap; · iexact H2
    ipureintro
    rw [read_writes_single, harg4.read_unread, e0]
  iexists _; isplitr
  swap; · iexact H3
  ipureintro
  exact View.read_writes_eq_canon _ _ _ (cover0_3 _)

set_option maxHeartbeats 1000000 in
/-- The body where the row sums are added to what the buffer holds (later columns of blocks) and the column sums are
    added to what the buffer holds (later rows of blocks): each degree buffer ends with its one slice overwritten, the rest as found. -/
theorem sound_kernel0_BB (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (h1 : ¬ k0_cond1 i = 1#1) (h2 : k0_cond2 i = 1#1) (h3 : ¬ k0_cond3 i = 1#1) (h4 : k0_cond4 i = 1#1)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0
            ∗ owns (c : Thread nD τ) arg3 fullShare
            ((Rect.unit (s := S4096x1) (k0_off2 i) S512x1.size (k0_off2_inb i h2)).overlay Y1
              (k0_pay4 x0 (View.ld Y1 (Rect.unit (s := S4096x1) (k0_off2 i) S512x1.size (k0_off2_inb i h2)))))
            ∗ owns (c : Thread nD τ) arg4 fullShare
            ((Rect.unit (s := S8192x1) (k0_off4 i) S2048x1.size (k0_off4_inb i h4)).overlay Y2
              (k0_pay5 x0 (View.ld Y2 (Rect.unit (s := S8192x1) (k0_off4 i) S2048x1.size (k0_off4_inb i h4)))))
            ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  simp only [cc0__deg_kernel_eq_skeleton]; unfold cc0__deg_kernel_skel
  unfold owns
  iintro ⟨⟨%f0, %hf0, H0⟩, ⟨%f1, %hf1, H1⟩, ⟨%f2, %hf2, H2⟩, ⟨%d3, %f3, -, H3⟩, Hk⟩
  subst hf0
  obtain rfl := harg3.eq_unread hf1; obtain rfl := harg4.eq_unread hf2
  sl_exec (disch := first | exact h1 | exact h2 | exact h3 | exact h4)
  sl_step
  have e0 : View.readAt (Elt F) arg2.view (Rect.unit (s := S512x2048) ![0, 0] S512x2048.size inb_S512x2048_S512x2048_0_0).toLoadRect f0
      = View.read (Elt F) arg2.view f0 := ld_r0_0 _
  iapply Hk
  isplitl [H0]
  · iexists f0; isplitr; · ipureintro; rfl
    iexact H0
  isplitl [H1]
  · iexists _; isplitr
    swap; · iexact H1
    ipureintro
    rw [read_writes_single, harg3.read_unread, e0, View.readAt_eq_ld, harg3.read_unread]
  isplitl [H2]
  · iexists _; isplitr
    swap; · iexact H2
    ipureintro
    rw [read_writes_single, harg4.read_unread, e0, View.readAt_eq_ld, harg4.read_unread]
  iexists _; isplitr
  swap; · iexact H3
  ipureintro
  exact View.read_writes_eq_canon _ _ _ (cover0_3 _)

/-! ## The body's triple -/

/-- The body on whole staging buffers — the adjacency block's at `x0`, the degree buffers' at `Y1`, `Y2`, the copy's at
    anything — runs to the continuation holding the block as it was, the degree buffers at `rowStep` / `colStep` of
    what they held, the copy at the block's: the point's coordinates decide which of the four control cases runs. -/
theorem sound_kernel0 (c : Dev nD) (E : Set ℕ) (i : grid0.Coords)
    (arg2 : Memref sig .tc .vmem S512x2048 .f32) (harg2 : arg2.IsWhole) (arg3 : Memref sig .tc .vmem S4096x1 .f32) (harg3 : arg3.IsWhole)
    (arg4 : Memref sig .tc .vmem S8192x1 .f32) (harg4 : arg4.IsWhole) (arg5 : Memref sig .tc .vmem S512x2048 .bf16) (harg5 : arg5.IsWhole)
    (x0 : Vec F S512x2048 .f32) (Y1 : Vec F S4096x1 .f32) (Y2 : Vec F S8192x1 .f32) (K : PUnit → sProp 𝕄) :
    iprop(owns (c : Thread nD τ) arg2 fullShare x0 ∗ owns (c : Thread nD τ) arg3 fullShare Y1 ∗ owns (c : Thread nD τ) arg4 fullShare Y2
        ∗ (∃ d, owns (c : Thread nD τ) arg5 fullShare d)
        ∗ (iprop(owns (c : Thread nD τ) arg2 fullShare x0 ∗ owns (c : Thread nD τ) arg3 fullShare (rowStep i x0 Y1)
            ∗ owns (c : Thread nD τ) arg4 fullShare (colStep i x0 Y2) ∗ owns (c : Thread nD τ) arg5 fullShare (out0_3 x0)) -∗ K ⟨⟩))
      ⊢ wp frame (wpE (defs₀ (F := F)) Variants.none c none) E (cc0__deg_kernel i arg2 harg2 arg3 harg3 arg4 harg4 arg5 harg5) K := by
  by_cases h1 : k0_cond1 i = 1#1
  · have h2 : ¬ k0_cond2 i = 1#1 := fun h => (k0_cond2_iff i).mp h h1
    by_cases h3 : k0_cond3 i = 1#1
    · have h4 : ¬ k0_cond4 i = 1#1 := fun h => (k0_cond4_iff i).mp h h3
      rw [rowStep_A i h1 h2, colStep_A i h3 h4]
      exact sound_kernel0_AA c E i arg2 harg2 arg3 harg3 arg4 harg4 arg5 harg5 h1 h2 h3 h4 x0 Y1 Y2 K
    · have h4 : k0_cond4 i = 1#1 := (k0_cond4_iff i).mpr h3
      rw [rowStep_A i h1 h2, colStep_B i h3 h4]
      exact sound_kernel0_AB c E i arg2 harg2 arg3 harg3 arg4 harg4 arg5 harg5 h1 h2 h3 h4 x0 Y1 Y2 K
  · have h2 : k0_cond2 i = 1#1 := (k0_cond2_iff i).mpr h1
    by_cases h3 : k0_cond3 i = 1#1
    · have h4 : ¬ k0_cond4 i = 1#1 := fun h => (k0_cond4_iff i).mp h h3
      rw [rowStep_B i h1 h2, colStep_A i h3 h4]
      exact sound_kernel0_BA c E i arg2 harg2 arg3 harg3 arg4 harg4 arg5 harg5 h1 h2 h3 h4 x0 Y1 Y2 K
    · have h4 : k0_cond4 i = 1#1 := (k0_cond4_iff i).mpr h3
      rw [rowStep_B i h1 h2, colStep_B i h3 h4]
      exact sound_kernel0_BB c E i arg2 harg2 arg3 harg3 arg4 harg4 arg5 harg5 h1 h2 h3 h4 x0 Y1 Y2 K

/-! ## The body obligation, at a generic point -/

/-- The body at any point: the adjacency block's buffer holds the block (`finds0_0`), the other buffers whatever they
    were found at; the body's triple applies at those contents; the invariant and what the core owes pass through
    unread; each buffer ends in the relation the proof data states to what was found. -/
theorem sound_body0 (c : Dev nD) (t : Fin cfg0.N) (Y : (w : Fin cfg0.W) → (cfg0.win w).block.Idx → Elt F (cfg0.win w).elt)
    (hY : ∀ w, (rdat0 V c).Finds w t (Y w)) :
    iprop((rdat0 V c).Φ t.castSucc ∗ (rdat0 V c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat0 V c).Φ t.succ ∗ (rdat0 V c).owesAt () t.succ
            ∗ (∃ X, ⌜(rdat0 V c).after 0 t (Y 0) X⌝ ∗ owns (c : Thread nD τ) (st0_0 t) fullShare X)
            ∗ (∃ X, ⌜(rdat0 V c).after 1 t (Y 1) X⌝ ∗ owns (c : Thread nD τ) (st0_1 t) fullShare X)
            ∗ (∃ X, ⌜(rdat0 V c).after 2 t (Y 2) X⌝ ∗ owns (c : Thread nD τ) (st0_2 t) fullShare X)
            ∗ (∃ X, ⌜(rdat0 V c).after 3 t (Y 3) X⌝ ∗ owns (c : Thread nD τ) (st0_3 t) fullShare X))) := by
  have e0 : Y 0 = iblk0 V c 0 t := finds0_0 V c t (Y 0) (hY 0)
  unfold bodyAt0
  rw [show (rdat0 V c).Φ t.succ = (rdat0 V c).Φ t.castSucc from rfl,
    show (rdat0 V c).owesAt () t.succ = (rdat0 V c).owesAt () t.castSucc from rfl]
  iintro ⟨HΦ, Ho, H0, H1, H2, H3⟩
  iapply (sound_kernel0 c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr
    swap; · iexact H0
    ipureintro; exact (after0_0 V c t _ _).mpr rfl
  isplitl [H1]
  · iexists _; isplitr
    swap; · iexact H1
    ipureintro; exact (after0_1 V c t _ _).mpr (by rw [e0])
  isplitl [H2]
  · iexists _; isplitr
    swap; · iexact H2
    ipureintro; exact (after0_2 V c t _ _).mpr (by rw [e0])
  iexists _; isplitr
  swap; · iexact H3
  ipureintro; exact (after0_3 V c t _ _).mpr (by rw [e0])

/-- The body obligation of the relational proof data, at every point. -/
theorem body_obligation0 (c : Dev nD) : (rdat0 (F := F) V c).BodyObligation (defs₀ (F := F)) Variants.none () Set.univ := fun t Y hY => by
  rw [bigSep_W0, bigSep_W0]
  exact sound_body0 V c t Y hY

end Region0

end Cert.KernelIdeal.Hand

end
-- ==== Proof.KI.R0Fin.lean ====
/-
  Region 0 (the degree pass), the arrays it leaves: definite contents for each of its four windowed arrays, and
  the proof that they are the only contents the relational data allows after the last point.

  The two degree columns are resident: their staging buffers are written back once, after the last point, and at the
  first point hold contents nothing states. Each row of the row-sum buffer is overwritten (not added into) at the
  first point that touches it, so whatever the buffer held at the start is gone after the last point: the buffer
  after point n from a start Y, `rowAcc Y n`, agrees for any two starts on the rows already reset, and at the last
  point those are all rows. Likewise the column-sum buffer. The low-precision copy is written back at every point
  with contents that do not depend on what was found: a plain fold over the points.
-/
import proofs.«123106_g36129264894623_cont_8to1_b_1457_4_alg».proof.Proof.KI.R0Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: 32 points, and what the body's conditions and offsets are at each -/

theorem N0 : cfg0.N = 32 := N_0

/-- At point t = 4·i + j: the row block is reset iff j = 0 and added into iff j ≠ 0; the column block is reset iff
    i = 0 and added into iff i ≠ 0; the row offsets are (512·i, 0), the column offsets (2048·j, 0). -/
theorem sched0 : ∀ t : Fin grid0.N,
    (k0_cond1 (grid0.coords t) = 1#1 ↔ t.val % 4 = 0) ∧ (k0_cond2 (grid0.coords t) = 1#1 ↔ t.val % 4 ≠ 0)
    ∧ (k0_cond3 (grid0.coords t) = 1#1 ↔ t.val / 4 = 0) ∧ (k0_cond4 (grid0.coords t) = 1#1 ↔ t.val / 4 ≠ 0)
    ∧ k0_off1 (grid0.coords t) 0 = 512 * (t.val / 4) ∧ k0_off1 (grid0.coords t) 1 = 0
    ∧ k0_off3 (grid0.coords t) 0 = 2048 * (t.val % 4) ∧ k0_off3 (grid0.coords t) 1 = 0 := by
  decide +kernel

/-! ## A buffer overwritten on a rectangle, read at one index -/

/-- Two overlays on one rectangle agree at an index where the underlying contents agree and the payloads agree
    at the index's preimage (if it has one). -/
theorem overlay_congr_at {sh : Shape} {α : Type} (r : Rect sh) (X X' : sh.Idx → α) (G G' : r.shape.Idx → α) (p : sh.Idx)
    (hX : X p = X' p) (hG : ∀ q, r.emb q = p → G q = G' q) : r.overlay X G p = r.overlay X' G' p := by
  by_cases hp : p ∈ r.set
  · obtain ⟨q, rfl⟩ := r.exists_idx_of_mem hp
    rw [show r.idx q = r.emb q from rfl, Rect.overlay_emb, Rect.overlay_emb]; exact hG q rfl
  · rw [Rect.overlay_of_not_mem _ _ _ hp, Rect.overlay_of_not_mem _ _ _ hp]; exact hX

/-- The accumulating payload of the row column at an index: what was loaded there plus the block's row sum. -/
theorem k0_pay4_apply (x0 : Vec F S512x2048 .f32) (Z : Vec F S512x1 .f32) (q : S512x1.Idx) :
    k0_pay4 x0 Z q = FloatOps.addf (Z q) (k0_pay2 x0 q) := by
  show addf (shapeCast S512x1 Z shapeCasts_S512x1_S512x1) (k0_pay2 x0) q = _
  rw [shapeCast_self]; rfl

/-- The accumulating payload of the column column at an index. -/
theorem k0_pay5_apply (x0 : Vec F S512x2048 .f32) (Z : Vec F S2048x1 .f32) (q : S2048x1.Idx) :
    k0_pay5 x0 Z q = FloatOps.addf (Z q) (k0_pay3 x0 q) := by
  show addf (shapeCast S2048x1 Z shapeCasts_S2048x1_S2048x1) (k0_pay3 x0) q = _
  rw [shapeCast_self]; rfl

/-! ## The two halves of a point's update of a degree column -/

/-- The reset half of the row update. -/
def rowStepA (i : grid0.Coords) (x0 : Vec F S512x2048 .f32) (Y : Vec F S4096x1 .f32) : Vec F S4096x1 .f32 :=
  if h : k0_cond1 i = 1#1 then (Rect.unit (s := S4096x1) (k0_off1 i) S512x1.size (k0_off1_inb i h)).overlay Y (k0_pay2 x0) else Y

/-- The accumulating half of the row update. -/
def rowStepB (i : grid0.Coords) (x0 : Vec F S512x2048 .f32) (Y1 : Vec F S4096x1 .f32) : Vec F S4096x1 .f32 :=
  if h : k0_cond2 i = 1#1 then
    (Rect.unit (s := S4096x1) (k0_off2 i) S512x1.size (k0_off2_inb i h)).overlay Y1
      (k0_pay4 x0 (View.ld Y1 (Rect.unit (s := S4096x1) (k0_off2 i) S512x1.size (k0_off2_inb i h))))
  else Y1

theorem rowStep_eq (i : grid0.Coords) (x0 : Vec F S512x2048 .f32) (Y : Vec F S4096x1 .f32) :
    rowStep i x0 Y = rowStepB i x0 (rowStepA i x0 Y) := rfl

/-- The reset half of the column update. -/
def colStepA (i : grid0.Coords) (x0 : Vec F S512x2048 .f32) (Y : Vec F S8192x1 .f32) : Vec F S8192x1 .f32 :=
  if h : k0_cond3 i = 1#1 then (Rect.unit (s := S8192x1) (k0_off3 i) S2048x1.size (k0_off3_inb i h)).overlay Y (k0_pay3 x0) else Y

/-- The accumulating half of the column update. -/
def colStepB (i : grid0.Coords) (x0 : Vec F S512x2048 .f32) (Y1 : Vec F S8192x1 .f32) : Vec F S8192x1 .f32 :=
  if h : k0_cond4 i = 1#1 then
    (Rect.unit (s := S8192x1) (k0_off4 i) S2048x1.size (k0_off4_inb i h)).overlay Y1
      (k0_pay5 x0 (View.ld Y1 (Rect.unit (s := S8192x1) (k0_off4 i) S2048x1.size (k0_off4_inb i h))))
  else Y1

theorem colStep_eq (i : grid0.Coords) (x0 : Vec F S512x2048 .f32) (Y : Vec F S8192x1 .f32) :
    colStep i x0 Y = colStepB i x0 (colStepA i x0 Y) := rfl

/-- A row's value after the point depends only on the same row's value before it. -/
theorem rowStepA_local (i : grid0.Coords) (x0 : Vec F S512x2048 .f32) (Y Y' : Vec F S4096x1 .f32) (p : S4096x1.Idx)
    (h : Y p = Y' p) : rowStepA i x0 Y p = rowStepA i x0 Y' p := by
  unfold rowStepA; split
  · exact overlay_congr_at _ _ _ _ _ p h fun _ _ => rfl
  · exact h

theorem rowStepB_local (i : grid0.Coords) (x0 : Vec F S512x2048 .f32) (Y Y' : Vec F S4096x1 .f32) (p : S4096x1.Idx)
    (h : Y p = Y' p) : rowStepB i x0 Y p = rowStepB i x0 Y' p := by
  unfold rowStepB; split
  · refine overlay_congr_at _ _ _ _ _ p h fun q hq => ?_
    rw [k0_pay4_apply, k0_pay4_apply]
    show FloatOps.addf (Y (Rect.emb _ q)) _ = FloatOps.addf (Y' (Rect.emb _ q)) _
    rw [hq, h]
  · exact h

theorem rowStep_local (i : grid0.Coords) (x0 : Vec F S512x2048 .f32) (Y Y' : Vec F S4096x1 .f32) (p : S4096x1.Idx)
    (h : Y p = Y' p) : rowStep i x0 Y p = rowStep i x0 Y' p := by
  rw [rowStep_eq, rowStep_eq]; exact rowStepB_local i x0 _ _ p (rowStepA_local i x0 _ _ p h)

/-- A row the point resets holds afterwards a value that does not depend on the buffer before. -/
theorem rowStep_reset (i : grid0.Coords) (x0 : Vec F S512x2048 .f32) (Y Y' : Vec F S4096x1 .f32) (p : S4096x1.Idx)
    (h : k0_cond1 i = 1#1) (hp : p ∈ (Rect.unit (s := S4096x1) (k0_off1 i) S512x1.size (k0_off1_inb i h)).set) :
    rowStep i x0 Y p = rowStep i x0 Y' p := by
  rw [rowStep_eq, rowStep_eq]; refine rowStepB_local i x0 _ _ p ?_
  unfold rowStepA; rw [dif_pos h, dif_pos h]
  obtain ⟨q, rfl⟩ := (Rect.unit (s := S4096x1) (k0_off1 i) S512x1.size (k0_off1_inb i h)).exists_idx_of_mem hp
  exact (Rect.overlay_emb _ _ _ q).trans (Rect.overlay_emb _ _ _ q).symm

theorem colStepA_local (i : grid0.Coords) (x0 : Vec F S512x2048 .f32) (Y Y' : Vec F S8192x1 .f32) (p : S8192x1.Idx)
    (h : Y p = Y' p) : colStepA i x0 Y p = colStepA i x0 Y' p := by
  unfold colStepA; split
  · exact overlay_congr_at _ _ _ _ _ p h fun _ _ => rfl
  · exact h

theorem colStepB_local (i : grid0.Coords) (x0 : Vec F S512x2048 .f32) (Y Y' : Vec F S8192x1 .f32) (p : S8192x1.Idx)
    (h : Y p = Y' p) : colStepB i x0 Y p = colStepB i x0 Y' p := by
  unfold colStepB; split
  · refine overlay_congr_at _ _ _ _ _ p h fun q hq => ?_
    rw [k0_pay5_apply, k0_pay5_apply]
    show FloatOps.addf (Y (Rect.emb _ q)) _ = FloatOps.addf (Y' (Rect.emb _ q)) _
    rw [hq, h]
  · exact h

theorem colStep_local (i : grid0.Coords) (x0 : Vec F S512x2048 .f32) (Y Y' : Vec F S8192x1 .f32) (p : S8192x1.Idx)
    (h : Y p = Y' p) : colStep i x0 Y p = colStep i x0 Y' p := by
  rw [colStep_eq, colStep_eq]; exact colStepB_local i x0 _ _ p (colStepA_local i x0 _ _ p h)

theorem colStep_reset (i : grid0.Coords) (x0 : Vec F S512x2048 .f32) (Y Y' : Vec F S8192x1 .f32) (p : S8192x1.Idx)
    (h : k0_cond3 i = 1#1) (hp : p ∈ (Rect.unit (s := S8192x1) (k0_off3 i) S2048x1.size (k0_off3_inb i h)).set) :
    colStep i x0 Y p = colStep i x0 Y' p := by
  rw [colStep_eq, colStep_eq]; refine colStepB_local i x0 _ _ p ?_
  unfold colStepA; rw [dif_pos h, dif_pos h]
  obtain ⟨q, rfl⟩ := (Rect.unit (s := S8192x1) (k0_off3 i) S2048x1.size (k0_off3_inb i h)).exists_idx_of_mem hp
  exact (Rect.overlay_emb _ _ _ q).trans (Rect.overlay_emb _ _ _ q).symm

/-! ## A resident output window: one write-back, of the points' updates in order from some start -/

section Resident

variable (c : Dev nD) (w : Fin cfg0.W)
  (step : Fin cfg0.N → ((cfg0.win w).block.Idx → Elt F (cfg0.win w).elt) → ((cfg0.win w).block.Idx → Elt F (cfg0.win w).elt))

/-- The staging buffer after point `n`, from contents `Y0` before the first point: the points' updates in order. -/
def accFrom (Y0 : (cfg0.win w).block.Idx → Elt F (cfg0.win w).elt) : Nat → ((cfg0.win w).block.Idx → Elt F (cfg0.win w).elt)
  | 0 => if h : 0 < cfg0.N then step ⟨0, h⟩ Y0 else Y0
  | n + 1 => if h : n + 1 < cfg0.N then step ⟨n + 1, h⟩ (accFrom Y0 n) else accFrom Y0 n

theorem accFrom_zero (Y0 : (cfg0.win w).block.Idx → Elt F (cfg0.win w).elt) (h : 0 < cfg0.N) :
    accFrom w step Y0 0 = step ⟨0, h⟩ Y0 := dif_pos h

theorem accFrom_succ (Y0 : (cfg0.win w).block.Idx → Elt F (cfg0.win w).elt) (n : Nat) (h : n + 1 < cfg0.N) :
    accFrom w step Y0 (n + 1) = step ⟨n + 1, h⟩ (accFrom w step Y0 n) := dif_pos h

/-- What the body may leave in the buffer at point `n` is the points' updates in order from SOME start, when no
    point before the last writes the buffer back and each point's relation is a function of what was found. -/
theorem leaves_accFrom (hout : (cfg0.win w).isOut = true)
    (hfl : ∀ t : Fin cfg0.N, t.val + 1 < cfg0.N → (cfg0.win w).flush t = false)
    (haft : ∀ t Y X, (rdat0 V c).after w t Y X → X = step t Y) :
    ∀ (n : Nat) (h : n < cfg0.N) (X : (cfg0.win w).block.Idx → Elt F (cfg0.win w).elt),
      (rdat0 V c).Leaves w ⟨n, h⟩ X → ∃ Y0, X = accFrom w step Y0 n
  | 0, h, X, ⟨Y, _, hX⟩ => ⟨Y, by rw [haft _ _ _ hX, accFrom_zero w step Y h]⟩
  | n + 1, h, X, ⟨Y, hY, hX⟩ => by
    rw [(rdat0 V c).finds_of_pos ((cfg0.win w).fetch_out hout _) (Nat.succ_ne_zero n)] at hY
    have e : (⟨(⟨n + 1, h⟩ : Fin cfg0.N).val - 1, Nat.lt_of_le_of_lt (Nat.sub_le _ _) h⟩ : Fin cfg0.N) = ⟨n, Nat.lt_of_succ_lt h⟩ :=
      Fin.ext (by show n + 1 - 1 = n; omega)
    rw [e] at hY
    rcases hY with hY | hY
    · rw [hfl ⟨n, Nat.lt_of_succ_lt h⟩ h] at hY; exact absurd hY Bool.false_ne_true
    · obtain ⟨Y0, rfl⟩ := leaves_accFrom hout hfl haft n (Nat.lt_of_succ_lt h) Y hY
      exact ⟨Y0, by rw [haft _ _ _ hX, accFrom_succ w step Y0 n h]⟩

/-- Before the last point the array is as at entry. -/
theorem arrAt_resident (hfl : ∀ t : Fin cfg0.N, t.val + 1 < cfg0.N → (cfg0.win w).flush t = false) :
    ∀ n, n < cfg0.N → (rdat0 V c).ArrAt w n = fun Fb => Fb = (rdat0 V c).A w
  | 0, _ => rfl
  | n + 1, h => by
    have h' : n < cfg0.N := Nat.lt_of_succ_lt h
    have hs := (rdat0 V c).ArrAt_succ w ⟨n, h'⟩
    dsimp only at hs
    rw [hs, if_neg (by rw [hfl ⟨n, h'⟩ h]; exact Bool.false_ne_true)]
    exact arrAt_resident hfl n h'

/-- After the last point it is the entry contents with the one write-back, of the updates in order from some start. -/
theorem arrAt_last (hout : (cfg0.win w).isOut = true)
    (hfl : ∀ t : Fin cfg0.N, t.val + 1 < cfg0.N → (cfg0.win w).flush t = false)
    (haft : ∀ t Y X, (rdat0 V c).after w t Y X → X = step t Y)
    (m : Nat) (hm : m < cfg0.N) (hflm : (cfg0.win w).flush ⟨m, hm⟩ = true)
    (Fb : Buf (Elt F) ((cfg0.win w).arr.view.loc (c.tc : Thread nD τ))) (h : (rdat0 V c).ArrAt w (m + 1) Fb) :
    ∃ Y0, Fb = ((cfg0.win w).blk ⟨m, hm⟩).view.write (Elt F) ((rdat0 V c).A w)
      ((cfg0.win w).cut (cfg0.grid.coords ⟨m, hm⟩) (accFrom w step Y0 m)) Finset.univ := by
  have hs := (rdat0 V c).ArrAt_succ w ⟨m, hm⟩
  dsimp only at hs
  rw [hs, if_pos hflm, arrAt_resident V c w hfl m hm] at h
  obtain ⟨G₀, X, rfl, hX, rfl⟩ := h
  obtain ⟨Y0, rfl⟩ := leaves_accFrom V c w step hout hfl haft m hm X hX
  exact ⟨Y0, rfl⟩

/-- Two starts give buffers that agree, after point `n`, at every index some point up to `n` has reset, when an
    index's value after a point depends only on its value before and a reset index's value on nothing. -/
theorem accFrom_indep (R : Fin cfg0.N → (cfg0.win w).block.Idx → Prop)
    (hloc : ∀ t Y Y' p, Y p = Y' p → step t Y p = step t Y' p)
    (hreset : ∀ t Y Y' p, R t p → step t Y p = step t Y' p)
    (Y Y' : (cfg0.win w).block.Idx → Elt F (cfg0.win w).elt) :
    ∀ (n : Nat) (hn : n < cfg0.N) (p : (cfg0.win w).block.Idx), (∃ t : Fin cfg0.N, t.val ≤ n ∧ R t p) →
      accFrom w step Y n p = accFrom w step Y' n p
  | 0, hn, p, ⟨t, ht, hp⟩ => by
    have e : t = ⟨0, hn⟩ := Fin.ext (Nat.le_zero.mp ht)
    subst e
    rw [accFrom_zero w step Y hn, accFrom_zero w step Y' hn]; exact hreset _ _ _ _ hp
  | n + 1, hn, p, ⟨t, ht, hp⟩ => by
    rw [accFrom_succ w step Y n hn, accFrom_succ w step Y' n hn]
    by_cases htn : t.val = n + 1
    · have e : t = ⟨n + 1, hn⟩ := Fin.ext htn
      subst e; exact hreset _ _ _ _ hp
    · exact hloc _ _ _ _ (accFrom_indep R hloc hreset Y Y' n (Nat.lt_of_succ_lt hn) p ⟨t, by omega, hp⟩)

end Resident

/-! ## The two degree columns -/

/-- The last point. -/
def last0 : Fin cfg0.N := ⟨31, by have := N0; omega⟩

theorem flush0_1_before (t : Fin cfg0.N) (ht : t.val + 1 < cfg0.N) : (cfg0.win 1).flush t = false := by
  cases hf : (cfg0.win 1).flush t
  · rfl
  · have := (flush0_1 t).mp hf; have := N0; omega

theorem flush0_2_before (t : Fin cfg0.N) (ht : t.val + 1 < cfg0.N) : (cfg0.win 2).flush t = false := by
  cases hf : (cfg0.win 2).flush t
  · rfl
  · have := (flush0_2 t).mp hf; have := N0; omega

/-- The row-sum buffer's update at point `t`. -/
def rowStepAt (c : Dev nD) (t : Fin cfg0.N) (Y : Vec F S4096x1 .f32) : Vec F S4096x1 .f32 :=
  rowStep (grid0.coords t) (iblk0 V c 0 t) Y

/-- The column-sum buffer's update at point `t`. -/
def colStepAt (c : Dev nD) (t : Fin cfg0.N) (Y : Vec F S8192x1 .f32) : Vec F S8192x1 .f32 :=
  colStep (grid0.coords t) (iblk0 V c 0 t) Y

/-- The row-sum buffer after point `n` from a start `Y0`. -/
def rowAcc (c : Dev nD) (Y0 : Vec F S4096x1 .f32) (n : Nat) : Vec F S4096x1 .f32 :=
  accFrom (1 : Fin cfg0.W) (rowStepAt V c) Y0 n

/-- The column-sum buffer after point `n` from a start `Y0`. -/
def colAcc (c : Dev nD) (Y0 : Vec F S8192x1 .f32) (n : Nat) : Vec F S8192x1 .f32 :=
  accFrom (2 : Fin cfg0.W) (colStepAt V c) Y0 n

/-- The rows point `t` resets: those of its block, if it is the first point of its block row. -/
def rowReset (t : Fin cfg0.N) (p : S4096x1.Idx) : Prop :=
  ∃ h : k0_cond1 (grid0.coords t) = 1#1, p ∈ (Rect.unit (s := S4096x1) (k0_off1 (grid0.coords t)) S512x1.size (k0_off1_inb _ h)).set

/-- The column-sum rows point `t` resets: those of its block, if it is in the first block row. -/
def colReset (t : Fin cfg0.N) (p : S8192x1.Idx) : Prop :=
  ∃ h : k0_cond3 (grid0.coords t) = 1#1, p ∈ (Rect.unit (s := S8192x1) (k0_off3 (grid0.coords t)) S2048x1.size (k0_off3_inb _ h)).set

/-- Every row is reset at some point: row r at the first point of block row r / 512. -/
theorem rowReset_cover (p : S4096x1.Idx) : ∃ t : Fin cfg0.N, t.val ≤ 31 ∧ rowReset t p := by
  have hp0 : (p 0).val < 4096 := (p 0).isLt
  have hp1 : (p 1).val < 1 := (p 1).isLt
  have hN := N0
  have hN' : grid0.N = 32 := N_0
  refine ⟨⟨4 * ((p 0).val / 512), by omega⟩, by show 4 * ((p 0).val / 512) ≤ 31; omega, ?_⟩
  obtain ⟨h1, -, -, -, ho0, ho1, -, -⟩ := sched0 ⟨4 * ((p 0).val / 512), by omega⟩
  have hc : k0_cond1 (grid0.coords ⟨4 * ((p 0).val / 512), by omega⟩) = 1#1 := h1.mpr (by show 4 * ((p 0).val / 512) % 4 = 0; omega)
  have e0 : k0_off1 (grid0.coords ⟨4 * ((p 0).val / 512), by omega⟩) 0 = 512 * (4 * ((p 0).val / 512) / 4) := ho0
  refine ⟨hc, Rect.mem_set_unit.mpr (Fin.forall_fin_two.mpr ⟨?_, ?_⟩)⟩
  · show k0_off1 _ 0 ≤ (p 0).val ∧ (p 0).val < k0_off1 _ 0 + 512
    rw [e0]; omega
  · show k0_off1 _ 1 ≤ (p 1).val ∧ (p 1).val < k0_off1 _ 1 + 1
    rw [ho1]; omega

/-- Every column-sum row is reset at some point: row q at point q / 2048 of the first block row. -/
theorem colReset_cover (p : S8192x1.Idx) : ∃ t : Fin cfg0.N, t.val ≤ 31 ∧ colReset t p := by
  have hp0 : (p 0).val < 8192 := (p 0).isLt
  have hp1 : (p 1).val < 1 := (p 1).isLt
  have hN := N0
  have hN' : grid0.N = 32 := N_0
  refine ⟨⟨(p 0).val / 2048, by omega⟩, by show (p 0).val / 2048 ≤ 31; omega, ?_⟩
  obtain ⟨-, -, h3, -, -, -, ho0, ho1⟩ := sched0 ⟨(p 0).val / 2048, by omega⟩
  have hc : k0_cond3 (grid0.coords ⟨(p 0).val / 2048, by omega⟩) = 1#1 := h3.mpr (by show (p 0).val / 2048 / 4 = 0; omega)
  have e0 : k0_off3 (grid0.coords ⟨(p 0).val / 2048, by omega⟩) 0 = 2048 * ((p 0).val / 2048 % 4) := ho0
  refine ⟨hc, Rect.mem_set_unit.mpr (Fin.forall_fin_two.mpr ⟨?_, ?_⟩)⟩
  · show k0_off3 _ 0 ≤ (p 0).val ∧ (p 0).val < k0_off3 _ 0 + 2048
    rw [e0]; omega
  · show k0_off3 _ 1 ≤ (p 1).val ∧ (p 1).val < k0_off3 _ 1 + 1
    rw [ho1]; omega

/-- After the last point the row-sum buffer does not depend on what it held before the first. -/
theorem rowAcc_indep (c : Dev nD) (Y Y' : Vec F S4096x1 .f32) : rowAcc V c Y 31 = rowAcc V c Y' 31 :=
  funext fun p =>
    accFrom_indep (1 : Fin cfg0.W) (rowStepAt V c) rowReset
      (fun t Y Y' p h => rowStep_local _ _ Y Y' p h)
      (fun t Y Y' p ⟨h, hp⟩ => rowStep_reset _ _ Y Y' p h hp) Y Y' 31 last0.isLt p (rowReset_cover p)

/-- After the last point the column-sum buffer does not depend on what it held before the first. -/
theorem colAcc_indep (c : Dev nD) (Y Y' : Vec F S8192x1 .f32) : colAcc V c Y 31 = colAcc V c Y' 31 :=
  funext fun p =>
    accFrom_indep (2 : Fin cfg0.W) (colStepAt V c) colReset
      (fun t Y Y' p h => colStep_local _ _ Y Y' p h)
      (fun t Y Y' p ⟨h, hp⟩ => colStep_reset _ _ Y Y' p h hp) Y Y' 31 last0.isLt p (colReset_cover p)

/-! ## The low-precision copy: exact data, written back at every point -/

/-- Exact proof data that names what the body leaves in the copy's buffer (the other windows unnamed): its
    `arrAt` is the fold of the write-backs. -/
def copyDat0 (c : Dev nD) : Dat τ (Elt F) Unit ℕ (UR sig nD τ) ℕ cfg0 c where
  A w := V c (Pipeline.arrRef spec0 w)
  after w t := match w with
    | ⟨0, _⟩ => fun _ => Classical.arbitrary _
    | ⟨1, _⟩ => fun _ => Classical.arbitrary _
    | ⟨2, _⟩ => fun _ => Classical.arbitrary _
    | ⟨3, _⟩ => out0_3 (iblk0 V c 0 t)
  Φ _ := Pipeline.ΦA spec0 c
  q _ := fullShare
  owed _ := 0

theorem copyDat0_after (c : Dev nD) (t : Fin cfg0.N) : (copyDat0 V c).after 3 t = out0_3 (iblk0 V c 0 t) := by
  dsimp only [copyDat0]

/-- What the copy's array may hold after the write-backs below `n` is what the exact data names. -/
theorem copyArrAt0 (c : Dev nD) : ∀ (n : Nat) (Fb : Buf (Elt F) ((cfg0.win 3).arr.view.loc (c.tc : Thread nD τ))),
    (rdat0 V c).ArrAt 3 n Fb → Fb = (copyDat0 V c).arrAt 3 n
  | 0, _, h => h
  | n + 1, Fb, h => by
    by_cases hn : n < cfg0.N
    · have hR := (rdat0 V c).ArrAt_succ 3 ⟨n, hn⟩
      have hD := (copyDat0 V c).arrAt_succ 3 ⟨n, hn⟩
      dsimp only at hR hD
      rw [hR, if_pos (flush0_3 _)] at h; rw [hD, if_pos (flush0_3 _)]
      obtain ⟨F₀, X, hF₀, ⟨Y, _, hX⟩, rfl⟩ := h
      rw [copyArrAt0 c n F₀ hF₀, (after0_3 V c _ Y X).mp hX, ← copyDat0_after V c ⟨n, hn⟩]
    · have hN : cfg0.N ≤ n := Nat.not_lt.mp hn
      rw [(rdat0 V c).ArrAt_stable 3 (n + 1) (by omega), ← (rdat0 V c).ArrAt_stable 3 n hN] at h
      rw [(copyDat0 V c).arrAt_stable 3 (n + 1) (by omega), ← (copyDat0 V c).arrAt_stable 3 n hN]
      exact copyArrAt0 c n Fb h

/-! ## The arrays region 0 leaves -/

/-- Some contents for the row-sum buffer before the first point (which contents does not matter). -/
def start1 : Vec F S4096x1 .f32 := fun _ => Classical.choice (Elt.nonempty F .f32)

/-- Some contents for the column-sum buffer before the first point. -/
def start2 : Vec F S8192x1 .f32 := fun _ => Classical.choice (Elt.nonempty F .f32)

/-- What region 0 leaves in each of its arrays: the adjacency as found; the entry contents of each degree column
    with the one write-back of the buffer accumulated from an arbitrary start (which start does not matter:
    `rowAcc_indep`, `colAcc_indep`); the copy's write-backs in point order. -/
def final0 (c : Dev nD) : (w : Fin cfg0.W) → Buf (Elt F) ((cfg0.win w).arr.view.loc (c.tc : Thread nD τ))
  | ⟨0, _⟩ => V c (Pipeline.arrRef spec0 0)
  | ⟨1, _⟩ => ((cfg0.win 1).blk last0).view.write (Elt F) (V c (Pipeline.arrRef spec0 1))
      ((cfg0.win 1).cut (cfg0.grid.coords last0) (rowAcc V c start1 31)) Finset.univ
  | ⟨2, _⟩ => ((cfg0.win 2).blk last0).view.write (Elt F) (V c (Pipeline.arrRef spec0 2))
      ((cfg0.win 2).cut (cfg0.grid.coords last0) (colAcc V c start2 31)) Finset.univ
  | ⟨3, _⟩ => (copyDat0 V c).arrAt 3 cfg0.N

theorem final0_in (c : Dev nD) : final0 V c 0 = V c (Pipeline.arrRef spec0 0) := rfl

theorem final0_1 (c : Dev nD) : final0 V c 1 = ((cfg0.win 1).blk last0).view.write (Elt F) (V c (Pipeline.arrRef spec0 1))
      ((cfg0.win 1).cut (cfg0.grid.coords last0) (rowAcc V c start1 31)) Finset.univ := rfl

theorem final0_2 (c : Dev nD) : final0 V c 2 = ((cfg0.win 2).blk last0).view.write (Elt F) (V c (Pipeline.arrRef spec0 2))
      ((cfg0.win 2).cut (cfg0.grid.coords last0) (colAcc V c start2 31)) Finset.univ := rfl

theorem final0_3 (c : Dev nD) : final0 V c 3 = (copyDat0 V c).arrAt 3 cfg0.N := rfl

/-- After region 0 each array holds exactly `final0`. -/
theorem arrAt0_eq (c : Dev nD) (w : Fin cfg0.W) (Fb : Buf (Elt F) ((cfg0.win w).arr.view.loc (c.tc : Thread nD τ))) :
    (rdat0 V c).ArrAt w cfg0.N Fb → Fb = final0 V c w := by
  match w with
  | ⟨0, hw⟩ =>
    intro h
    exact (congrFun ((rdat0 V c).ArrAt_in ⟨0, hw⟩ rfl cfg0.N) Fb).mp h
  | ⟨1, _⟩ =>
    intro h
    obtain ⟨Y0, rfl⟩ := arrAt_last V c 1 (rowStepAt V c) rfl flush0_1_before
      (fun t Y X hX => (after0_1 V c t Y X).mp hX) 31 last0.isLt ((flush0_1 _).mpr rfl) Fb h
    show _ = ((cfg0.win 1).blk last0).view.write (Elt F) (V c (Pipeline.arrRef spec0 1))
      ((cfg0.win 1).cut (cfg0.grid.coords last0) (rowAcc V c start1 31)) Finset.univ
    rw [rowAcc_indep V c start1 Y0]; rfl
  | ⟨2, _⟩ =>
    intro h
    obtain ⟨Y0, rfl⟩ := arrAt_last V c 2 (colStepAt V c) rfl flush0_2_before
      (fun t Y X hX => (after0_2 V c t Y X).mp hX) 31 last0.isLt ((flush0_2 _).mpr rfl) Fb h
    show _ = ((cfg0.win 2).blk last0).view.write (Elt F) (V c (Pipeline.arrRef spec0 2))
      ((cfg0.win 2).cut (cfg0.grid.coords last0) (colAcc V c start2 31)) Finset.univ
    rw [colAcc_indep V c start2 Y0]; rfl
  | ⟨3, _⟩ =>
    intro h
    exact copyArrAt0 V c cfg0.N Fb h

end Cert.KernelIdeal.Hand

end
-- ==== Proof.KI.R1.lean ====
import proofs.«123106_g36129264894623_cont_8to1_b_1457_4_alg».proof.Proof.Gen.KernelIdeal.Launch
import proofs.«123106_g36129264894623_cont_8to1_b_1457_4_alg».proof.Proof.Gen.KernelIdeal.Skeleton
import proofs.«123106_g36129264894623_cont_8to1_b_1457_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1: `cc1__y_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is through the whole block -/

abbrev r1_0 : Rect S2048x512 := Rect.unit (s := S2048x512) ![0, 0] S2048x512.size inb_S2048x512_S2048x512_0_0
abbrev r1_1 : Rect S512x512 := Rect.unit (s := S512x512) ![0, 0] S512x512.size inb_S512x512_S512x512_0_0
abbrev r1_2 : Rect S2048x1 := Rect.unit (s := S2048x1) ![0, 0] S2048x1.size inb_S2048x1_S2048x1_0_0

/-! ## What the body leaves in each output window's buffer -/

/-- Window 3's staging buffer after the body, from the input windows' blocks: its one store, of the whole block. -/
def out1_3 (x0 : Vec F S2048x512 .f32) (x1 : Vec F S512x512 .f32) : Vec F S2048x512 .f32 :=
  View.canon [⟨r1_0, k1_pay1 (View.ld x0 r1_0) (View.ld x1 r1_1)⟩]

/-- The store covers the buffer. -/
theorem cover1_3 (p0 : Vec F S2048x512 .f32) (y : S2048x512.Idx) :
    ∃ pc ∈ ([⟨r1_0, p0⟩] : List (View.Piece (Elt F) S2048x512 .f32)), y ∈ pc.1.set :=
  View.cover_of_tiled [⟨r1_0, p0⟩] S2048x512.size (by rfl) y

/-- Window 4's staging buffer after the body, from the input windows' blocks: its one store, of the whole block. -/
def out1_4 (x0 : Vec F S2048x512 .f32) (x1 : Vec F S512x512 .f32) (x2 : Vec F S2048x1 .f32) : Vec F S2048x512 .bf16 :=
  View.canon [⟨r1_0, k1_pay2 (View.ld x0 r1_0) (View.ld x1 r1_1) (View.ld x2 r1_2)⟩]

/-- The store covers the buffer. -/
theorem cover1_4 (p0 : Vec F S2048x512 .bf16) (y : S2048x512.Idx) :
    ∃ pc ∈ ([⟨r1_0, p0⟩] : List (View.Piece (Elt F) S2048x512 .bf16)), y ∈ pc.1.set :=
  View.cover_of_tiled [⟨r1_0, p0⟩] S2048x512.size (by rfl) y

/-! ## The body's triple -/

set_option maxHeartbeats 1000000 in
/-- The kernel body on whole staging memrefs, the inputs' at read contents `xW` and the outputs' at anything, runs to
    the continuation holding the inputs' as they were and each output's at `out1_W` of the inputs'. Each output
    buffer is loaded once before it is stored (the value read is unused), which is why it must be owned beforehand. -/
theorem sound_kernel1 (c : Dev nD) (E : Set ℕ) (i : grid1.Coords) (arg0 : Memref sig .tc .vmem S2048x512 .f32) (harg0 : arg0.IsWhole) (arg1 : Memref sig .tc .vmem S512x512 .f32) (harg1 : arg1.IsWhole) (arg2 : Memref sig .tc .vmem S2048x1 .f32) (harg2 : arg2.IsWhole) (arg3 : Memref sig .tc .vmem S2048x512 .f32) (harg3 : arg3.IsWhole) (arg4 : Memref sig .tc .vmem S2048x512 .bf16) (harg4 : arg4.IsWhole)
    (x0 : Vec F S2048x512 .f32) (x1 : Vec F S512x512 .f32) (x2 : Vec F S2048x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1) ∗ owns (c : Thread nD τ) arg4 fullShare (out1_4 x0 x1 x2)) -∗ K ⟨⟩))
      ⊢ wp frame (wpE (defs₀ (F := F)) Variants.none c none) E (cc1__y_kernel i arg0 harg0 arg1 harg1 arg2 harg2 arg3 harg3 arg4 harg4) K := by
  simp only [cc1__y_kernel_eq_skeleton]; unfold cc1__y_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«123106_g36129264894623_cont_8to1_b_1457_4_alg».proof.Proof.Gen.KernelIdeal.Launch
import proofs.«123106_g36129264894623_cont_8to1_b_1457_4_alg».proof.Proof.Gen.KernelIdeal.Skeleton
import proofs.«123106_g36129264894623_cont_8to1_b_1457_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2: `cc2__x_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is through the whole block -/

abbrev r2_0 : Rect S512x8192 := Rect.unit (s := S512x8192) ![0, 0] S512x8192.size inb_S512x8192_S512x8192_0_0
abbrev r2_1 : Rect S8192x512 := Rect.unit (s := S8192x512) ![0, 0] S8192x512.size inb_S8192x512_S8192x512_0_0
abbrev r2_2 : Rect S512x512 := Rect.unit (s := S512x512) ![0, 0] S512x512.size inb_S512x512_S512x512_0_0
abbrev r2_3 : Rect S512x1 := Rect.unit (s := S512x1) ![0, 0] S512x1.size inb_S512x1_S512x1_0_0

/-! ## What the body leaves in each output window's buffer -/

/-- Window 5's staging buffer after the body, from the input windows' blocks: its one store, of the whole block. -/
def out2_5 (x0 : Vec F S512x8192 .bf16) (x1 : Vec F S8192x512 .bf16) (x2 : Vec F S512x512 .f32) (x3 : Vec F S512x512 .f32) (x4 : Vec F S512x1 .f32) : Vec F S512x512 .f32 :=
  View.canon [⟨r2_2, k2_pay3 (View.ld x0 r2_0) (View.ld x1 r2_1) (View.ld x2 r2_2) (View.ld x3 r2_2) (View.ld x4 r2_3)⟩]

/-- The store covers the buffer. -/
theorem cover2_5 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-- Window 6's staging buffer after the body, from the input windows' blocks: its one store, of the whole block. -/
def out2_6 (x0 : Vec F S512x8192 .bf16) (x1 : Vec F S8192x512 .bf16) (x2 : Vec F S512x512 .f32) (x3 : Vec F S512x512 .f32) (x4 : Vec F S512x1 .f32) : Vec F S512x512 .bf16 :=
  View.canon [⟨r2_2, k2_pay4 (View.ld x0 r2_0) (View.ld x1 r2_1) (View.ld x2 r2_2) (View.ld x3 r2_2) (View.ld x4 r2_3)⟩]

/-- The store covers the buffer. -/
theorem cover2_6 (p0 : Vec F S512x512 .bf16) (y : S512x512.Idx) :
    ∃ pc ∈ ([⟨r2_2, p0⟩] : List (View.Piece (Elt F) S512x512 .bf16)), y ∈ pc.1.set :=
  View.cover_of_tiled [⟨r2_2, p0⟩] S512x512.size (by rfl) y

/-! ## The body's triple -/

set_option maxHeartbeats 1000000 in
/-- The kernel body on whole staging memrefs, the inputs' at read contents `xW` and the outputs' at anything, runs to
    the continuation holding the inputs' as they were and each output's at `out2_W` of the inputs'. Each output
    buffer is loaded once before it is stored (the value read is unused), which is why it must be owned beforehand. -/
theorem sound_kernel2 (c : Dev nD) (E : Set ℕ) (i : grid2.Coords) (arg0 : Memref sig .tc .vmem S512x8192 .bf16) (harg0 : arg0.IsWhole) (arg1 : Memref sig .tc .vmem S8192x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .bf16) (harg6 : arg6.IsWhole)
    (x0 : Vec F S512x8192 .bf16) (x1 : Vec F S8192x512 .bf16) (x2 : Vec F S512x512 .f32) (x3 : Vec F S512x512 .f32) (x4 : Vec F S512x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4) ∗ owns (c : Thread nD τ) arg6 fullShare (out2_6 x0 x1 x2 x3 x4)) -∗ K ⟨⟩))
      ⊢ wp frame (wpE (defs₀ (F := F)) Variants.none c none) E (cc2__x_kernel i arg0 harg0 arg1 harg1 arg2 harg2 arg3 harg3 arg4 harg4 arg5 harg5 arg6 harg6) K := by
  simp only [cc2__x_kernel_eq_skeleton]; unfold cc2__x_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and each output's at `out2_W` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«123106_g36129264894623_cont_8to1_b_1457_4_alg».proof.Proof.Gen.KernelIdeal.Launch
import proofs.«123106_g36129264894623_cont_8to1_b_1457_4_alg».proof.Proof.Gen.KernelIdeal.Skeleton
import proofs.«123106_g36129264894623_cont_8to1_b_1457_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 3: `cc3__yout_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is through the whole block -/

abbrev r3_0 : Rect S4096x1024 := Rect.unit (s := S4096x1024) ![0, 0] S4096x1024.size inb_S4096x1024_S4096x1024_0_0
abbrev r3_1 : Rect S512x4096 := Rect.unit (s := S512x4096) ![0, 0] S512x4096.size inb_S512x4096_S512x4096_0_0
abbrev r3_2 : Rect S1024x512 := Rect.unit (s := S1024x512) ![0, 0] S1024x512.size inb_S1024x512_S1024x512_0_0
abbrev r3_3 : Rect S1024x1 := Rect.unit (s := S1024x1) ![0, 0] S1024x1.size inb_S1024x1_S1024x1_0_0

/-! ## What the body leaves in each output window's buffer -/

/-- Window 4's staging buffer after the body, from the input windows' blocks: its one store, of the whole block. -/
def out3_4 (x0 : Vec F S4096x1024 .bf16) (x1 : Vec F S512x4096 .bf16) (x2 : Vec F S1024x512 .f32) (x3 : Vec F S1024x1 .f32) : Vec F S1024x512 .f32 :=
  View.canon [⟨r3_2, k3_pay1 (View.ld x1 r3_1) (View.ld x0 r3_0) (View.ld x3 r3_3) (View.ld x2 r3_2)⟩]

/-- The store covers the buffer. -/
theorem cover3_4 (p0 : Vec F S1024x512 .f32) (y : S1024x512.Idx) :
    ∃ pc ∈ ([⟨r3_2, p0⟩] : List (View.Piece (Elt F) S1024x512 .f32)), y ∈ pc.1.set :=
  View.cover_of_tiled [⟨r3_2, p0⟩] S1024x512.size (by rfl) y

/-! ## The body's triple -/

set_option maxHeartbeats 1000000 in
/-- The kernel body on whole staging memrefs, the inputs' at read contents `xW` and the outputs' at anything, runs to
    the continuation holding the inputs' as they were and each output's at `out3_W` of the inputs'. Each output
    buffer is loaded once before it is stored (the value read is unused), which is why it must be owned beforehand. -/
theorem sound_kernel3 (c : Dev nD) (E : Set ℕ) (i : grid3.Coords) (arg0 : Memref sig .tc .vmem S4096x1024 .bf16) (harg0 : arg0.IsWhole) (arg1 : Memref sig .tc .vmem S512x4096 .bf16) (harg1 : arg1.IsWhole) (arg2 : Memref sig .tc .vmem S1024x512 .f32) (harg2 : arg2.IsWhole) (arg3 : Memref sig .tc .vmem S1024x1 .f32) (harg3 : arg3.IsWhole) (arg4 : Memref sig .tc .vmem S1024x512 .f32) (harg4 : arg4.IsWhole)
    (x0 : Vec F S4096x1024 .bf16) (x1 : Vec F S512x4096 .bf16) (x2 : Vec F S1024x512 .f32) (x3 : Vec F S1024x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__yout_kernel i arg0 harg0 arg1 harg1 arg2 harg2 arg3 harg3 arg4 harg4) K := by
  simp only [cc3__yout_kernel_eq_skeleton]; unfold cc3__yout_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at
    point `t` each input's buffer at its block and each output's at `out3_W` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of the four launches: what every unscoped buffer holds at each launch boundary, and the launch of the
  whole program from them.

  Between two launches core `c`'s buffers are held whole at a definite valuation: `W0` the launch memory; `W1` that
  with the degree pass's arrays at what it leaves (`final0`: the relational data has exactly one solution,
  `arrAt0_eq`); `W2`, `W3`, `W4` each the previous one with the next launch's arrays at what its write-backs fold
  to (`Dat.arrAt`).  No launch writes an argument array, so each argument is read back through the four updates to
  its launch contents.  The program's frame and its results' values are both read off the last valuation.
-/
import proofs.«123106_g36129264894623_cont_8to1_b_1457_4_alg».proof.Proof.KI.R0
import proofs.«123106_g36129264894623_cont_8to1_b_1457_4_alg».proof.Proof.KI.R0Fin
import proofs.«123106_g36129264894623_cont_8to1_b_1457_4_alg».proof.Proof.KI.R1
import proofs.«123106_g36129264894623_cont_8to1_b_1457_4_alg».proof.Proof.KI.R2
import proofs.«123106_g36129264894623_cont_8to1_b_1457_4_alg».proof.Proof.KI.R3
import Idealize.ShloMosaic.Lib.Pipeline.Regions
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each launch boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the degree pass. -/
def W1 (c : Dev nD) : Valuation τ sig (Elt F) :=
  Pipeline.withArrays spec0 c (W0 m c) fun w => final0 (V0 m) c w
theorem W1_arr (c : Dev nD) (w : Fin cfg0.W) :
    W1 m c (Proc.devRef .tc (Pipeline.arrRef spec0 w)) = final0 (V0 m) c w := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : final0 (V0 m) c w = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the target-side product launch. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) := (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the source-side aggregation launch. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) := (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After the target-side aggregation launch: the end. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) := (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-! ## The arguments end as launched -/

/-- The source features: staged by the source-side aggregation launch (its window 2) only. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := (W3_arr m c 2).trans (((dat2 (V2 m) c).arrAt_in 2 rfl _).trans (A_eq2 (V2 m) c 2))
    _ = W1 m c (Proc.devRef .tc main_arg0) := W2_of_ne m c main_arg0 (by decide)
    _ = W0 m c (Proc.devRef .tc main_arg0) := W1_of_ne m c main_arg0 (by decide)
    _ = m ((c : Thread nD τ).loc main_arg0) := rfl

/-- The target features: staged by the target-side product launch (its window 0) only. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat1 (V1 m) c).arrAt_in 0 rfl _).trans (A_eq1 (V1 m) c 0))
    _ = W0 m c (Proc.devRef .tc main_arg1) := W1_of_ne m c main_arg1 (by decide)
    _ = m ((c : Thread nD τ).loc main_arg1) := rfl

/-- The adjacency: staged by the degree pass (its window 0) only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := (W1_arr m c 0).trans (final0_in (V0 m) c)
    _ = m ((c : Thread nD τ).loc main_arg2) := rfl

/-- The weight: staged by both product launches (window 1 of the one, window 3 of the other). -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := (W3_arr m c 3).trans (((dat2 (V2 m) c).arrAt_in 3 rfl _).trans (A_eq2 (V2 m) c 3))
    _ = W1 m c (Proc.devRef .tc main_arg3) := (W2_arr m c 1).trans (((dat1 (V1 m) c).arrAt_in 1 rfl _).trans (A_eq1 (V1 m) c 1))
    _ = W0 m c (Proc.devRef .tc main_arg3) := W1_of_ne m c main_arg3 (by decide)
    _ = m ((c : Thread nD τ).loc main_arg3) := rfl

/-- The first result: the source-side aggregation launch's window 5, untouched by the last launch. -/
theorem W4_main_v2_0 (c : Dev nD) : W4 m c (Proc.devRef .tc main_v2_0) = (dat2 (V2 m) c).arrAt 5 cfg2.N :=
  (W4_of_ne m c main_v2_0 (by decide)).trans (W3_arr m c 5)

/-- The second result: the last launch's window 4. -/
theorem W4_main_v3 (c : Dev nD) : W4 m c (Proc.devRef .tc main_v3) = (dat3 (V3 m) c).arrAt 4 cfg3.N := W4_arr m c 4

/-! ## The proof data family and the thread state -/

/-- No launch has a prefetched table. -/
abbrev adm : (p : Fin 4) → (pcfgs (F := F) p).Adm := fun p => (cfgs p).toPCfg_adm

/-- Every launch's proof data at its entry contents: the degree pass's relational, the other three exact data read
    as relational. -/
def rdats : (p : Fin 4) → (c : Dev nD) → RDat τ (Elt F) Unit ℕ (UR sig nD τ) ℕ (Pipeline.pin (pcfgs (F := F)) adm p) c
  | ⟨0, _⟩ => fun c => rdat0 (V0 m) c
  | ⟨1, _⟩ => fun c => (dat1 (V1 m) c).toR
  | ⟨2, _⟩ => fun c => (dat2 (V2 m) c).toR
  | ⟨3, _⟩ => fun c => (dat3 (V3 m) c).toR

/-- An exact family with the same entry arrays and shares, through which the library's lemma that puts a launch's
    arrays back among the core's buffers is cited. -/
def dat0x (c : Dev nD) : Dat τ (Elt F) Unit ℕ (UR sig nD τ) ℕ cfg0 c where
  A w := V0 m c (Pipeline.arrRef spec0 w)
  after _ _ := fun _ => Classical.arbitrary _
  Φ _ := Pipeline.ΦA spec0 c
  q _ := fullShare
  owed _ := 0
def pdatsX : (p : Fin 4) → (c : Dev nD) → Dat τ (Elt F) Unit ℕ (UR sig nD τ) ℕ (Pipeline.pin (pcfgs (F := F)) adm p) c
  | ⟨0, _⟩ => fun c => dat0x m c
  | ⟨1, _⟩ => fun c => dat1 (V1 m) c
  | ⟨2, _⟩ => fun c => dat2 (V2 m) c
  | ⟨3, _⟩ => fun c => dat3 (V3 m) c

abbrev 𝒱₀ : Variants := Variants.none
abbrev L : GSem nD τ sig → Finset Unit := fun _ => ∅
abbrev lv : GSem nD τ sig → Unit → ℕ := fun _ _ => 0
/-- What rides beside the buffers through every launch: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at the contents before it, left at the
    contents after it; its arrays split out of the unscoped buffers and put back at what the launch leaves; the
    generator register into the class invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsX m) ((pdatsX m 0 c).share_full fun _ => rfl)
      (V0 m c) (V1 m c) (final0 (V0 m) c) (hF0 m c) (hrest0 m c)
    rw [Pipeline.unscopedBufs_held] at hjoin
    have hat : (rdats m 0 c).arraysAt cfg0.N ⊢ ((pdatsX m 0 c).arrays (final0 (V0 m) c) : sProp 𝕄) :=
      BI.bigSep_mono fun w _ =>
        show iprop(∃ Fb, ⌜(rdats m 0 c).ArrAt w cfg0.N Fb⌝ ∗ (cfg0.win w).arr.view.loc (c.tc : Thread nD τ) ↦[(cfg0.win w).arr.view.set]{(rdats m 0 c).share w} Fb)
            ⊢ ((cfg0.win w).arr.view.loc (c.tc : Thread nD τ) ↦[(cfg0.win w).arr.view.set]{(pdatsX m 0 c).share w} final0 (V0 m) c w : sProp 𝕄) from by
          rw [(rdats m 0 c).share_full (fun _ => rfl) w, (pdatsX m 0 c).share_full (fun _ => rfl) w]
          iintro ⟨%Fb, %hFb, H⟩
          rw [arrAt0_eq (V0 m) c w Fb hFb]
          iexact H
    iintro ⟨Ha, HO, HY, Hrest⟩
    ihave Ha' := hat $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Launch 1 over the thread state: entered from every unscoped buffer at the contents before it, left at the
    contents after it; its arrays split out of the unscoped buffers and put back at what the launch leaves; the
    generator register into the class invariant and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).toR
  hwaits := Pipeline.RDat.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsX m) ((pdatsX m 1 c).share_full fun _ => rfl)
      (V1 m c) (V2 m c) ((pdatsX m 1 c).arrAt · cfg1.N) (hF1 m c) (hrest1 m c)
    rw [Pipeline.unscopedBufs_held] at hjoin
    have hat : (rdats m 1 c).arraysAt cfg1.N ⊢ ((pdatsX m 1 c).arrays ((pdatsX m 1 c).arrAt · cfg1.N) : sProp 𝕄) :=
      Pipeline.Dat.toR_arraysAt_post (pdatsX m 1 c) cfg1.N
    iintro ⟨Ha, HO, HY, Hrest⟩
    ihave Ha' := hat $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Launch 2 over the thread state: entered from every unscoped buffer at the contents before it, left at the
    contents after it; its arrays split out of the unscoped buffers and put back at what the launch leaves; the
    generator register into the class invariant and out; nothing owed; no semaphore of the kernel's own. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).toR
  hwaits := Pipeline.RDat.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsX m) ((pdatsX m 2 c).share_full fun _ => rfl)
      (V2 m c) (V3 m c) ((pdatsX m 2 c).arrAt · cfg2.N) (hF2 m c) (hrest2 m c)
    rw [Pipeline.unscopedBufs_held] at hjoin
    have hat : (rdats m 2 c).arraysAt cfg2.N ⊢ ((pdatsX m 2 c).arrays ((pdatsX m 2 c).arrAt · cfg2.N) : sProp 𝕄) :=
      Pipeline.Dat.toR_arraysAt_post (pdatsX m 2 c) cfg2.N
    iintro ⟨Ha, HO, HY, Hrest⟩
    ihave Ha' := hat $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Launch 3 over the thread state: entered from every unscoped buffer at the contents before it, left at the
    contents after it; its arrays split out of the unscoped buffers and put back at what the launch leaves; the
    generator register into the class invariant and out; nothing owed; no semaphore of the kernel's own. -/
def reg3 : Pipeline.RDat.RegionSeg (pcfgs (F := F)) adm (rdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).toR
  hwaits := Pipeline.RDat.hwaits_of_owed_zero _ _ _ _ L lv 3 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.RDat.arrays_of_unscopedBufs (p := 3) (pcfgs (F := F)) adm (rdats m) launch3.win launch3.arr_whole c
      ((rdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsX m) ((pdatsX m 3 c).share_full fun _ => rfl)
      (V3 m c) (V4 m c) ((pdatsX m 3 c).arrAt · cfg3.N) (hF3 m c) (hrest3 m c)
    rw [Pipeline.unscopedBufs_held] at hjoin
    have hat : (rdats m 3 c).arraysAt cfg3.N ⊢ ((pdatsX m 3 c).arrays ((pdatsX m 3 c).arrAt · cfg3.N) : sProp 𝕄) :=
      Pipeline.Dat.toR_arraysAt_post (pdatsX m 3 c) cfg3.N
    iintro ⟨Ha, HO, HY, Hrest⟩
    ihave Ha' := hat $$ Ha
    imodintro
    isplitl [Ha' Hrest HY]
    · isplitl [Ha' Hrest]
      · iapply hjoin; isplitl [Ha'] <;> iassumption
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m) () defs₀ 𝒱₀ L lv) :=
  [ .region (reg0 m), .region (reg1 m), .region (reg2 m), .region (reg3 m) ]

set_option backward.isDefEq.respectTransparency.types false in
/-- THE RUN. From any memory with zero counters every weakly fair execution of the program terminates, nothing
    faulting, and in every final state each unscoped buffer of core `c` holds the last valuation `W4 m c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

/-- THE RESULTS: the two result arrays end at what the last two launches' write-backs fold to, the arguments as launched. -/
theorem run_results : θ_run defs (onTc (τ := τ) (main (F := F))) ⟨m, fun _ => 0, ρ⟩ (fun r => ∀ c : Dev nD,
      r.2.mem ((c.tc : Thread nD τ).loc main_v2_0) = (dat2 (V2 m) c).arrAt 5 cfg2.N
      ∧ r.2.mem ((c.tc : Thread nD τ).loc main_v3) = (dat3 (V3 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2_0 (by decide))).trans (W4_main_v2_0 m c),
     (h c _ (mem_uc main_v3 (by decide))).trans (W4_main_v3 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.KernelIdeal.Hand

end
-- ==== Proof.Spec.KSpec.lean ====
/-
  What the four kernel launches compute, entry by entry, on the extended reals.

  The arguments are read by coordinates: `s` the source features [4096, 512], `u` the target features [8192, 512],
  `a` the bipartite adjacency [4096, 8192], `w` the shared weight [512, 512].  With the degree sums
  `rowsum i = ∑ j, a i j`, `colsum j = ∑ i, a i j` and the products `x0 = s·w`, `y0 = u·w`:

    ys j d   = y0 j d · (1 / √(colsum j + 1))
    acc i d  = ∑ j, a i j · ys j d  +  x0 i d
    Kx i d   = max (acc i d) 0 · rsqrt (rowsum i + 1)                       -- first result
    xs i d   = max (acc i d) 0 · (1 / (rowsum i + 1))
    Ky j d   = max (y0 j d + ∑ i, xs i d · a i j) 0 · (1 / √(colsum j + 1))  -- second result

  Every operation is the extended reals' own (`Ideal.div`, `Ideal.sqrt`, `Ideal.rsqrt`), so these are the values
  whatever the entries are; the comparison with the reference's normalised form needs finite entries and
  positive `rowsum + 1`, `colsum + 1`, and is made elsewhere.
-/
import Idealize.ShloMosaic.PureOps.Ideal

noncomputable section

namespace Cert.Spec

open Idealize.ShloMosaic

variable (s : Fin 4096 → Fin 512 → EReal) (u : Fin 8192 → Fin 512 → EReal)
  (a : Fin 4096 → Fin 8192 → EReal) (w : Fin 512 → Fin 512 → EReal)

/-- The sum of row `i` of the adjacency. -/
def rowsum (i : Fin 4096) : EReal := ∑ j : Fin 8192, a i j
/-- The sum of column `j` of the adjacency. -/
def colsum (j : Fin 8192) : EReal := ∑ i : Fin 4096, a i j
/-- The squared source degree factor, `rowsum + 1`. -/
def rs2 (i : Fin 4096) : EReal := rowsum a i + 1
/-- The squared target degree factor, `colsum + 1`. -/
def cs2 (j : Fin 8192) : EReal := colsum a j + 1
/-- The source features times the weight. -/
def x0 (i : Fin 4096) (d : Fin 512) : EReal := ∑ k : Fin 512, s i k * w k d
/-- The target features times the weight. -/
def y0 (j : Fin 8192) (d : Fin 512) : EReal := ∑ k : Fin 512, u j k * w k d
/-- The reciprocal of the target degree factor's root. -/
def rdtInv (j : Fin 8192) : EReal := Ideal.div 1 (Ideal.sqrt (cs2 a j))
/-- The target products scaled by the target degree. -/
def ys (j : Fin 8192) (d : Fin 512) : EReal := y0 u w j d * rdtInv a j
/-- The aggregated source pre-activation. -/
def acc (i : Fin 4096) (d : Fin 512) : EReal := (∑ j : Fin 8192, a i j * ys u a w j d) + x0 s w i d
/-- Its positive part. -/
def tx (i : Fin 4096) (d : Fin 512) : EReal := max (acc s u a w i d) 0
/-- The first result. -/
def Kx (i : Fin 4096) (d : Fin 512) : EReal := tx s u a w i d * Ideal.rsqrt (rs2 a i)
/-- The positive part scaled by the squared source degree. -/
def xs (i : Fin 4096) (d : Fin 512) : EReal := tx s u a w i d * Ideal.div 1 (rs2 a i)
/-- The second aggregation, read at (feature, target). -/
def ttm (d : Fin 512) (j : Fin 8192) : EReal := ∑ i : Fin 4096, xs s u a w i d * a i j
/-- The second result. -/
def Ky (j : Fin 8192) (d : Fin 512) : EReal := max (y0 u w j d + ttm s u a w d j) 0 * rdtInv a j

end Cert.Spec

end
-- ==== Proof.Val.LibWhole.lean ====
/-
  Two general facts used when a kernel body fills a whole buffer in one store and reads it back.

  * A buffer whose LAST write covers the whole shape (the unit rectangle at zero offsets, of the shape's own sizes) reads
    back as that write's payload, whatever was written before and whatever the buffer held.
  * One plane broadcast over many: an array of shape [1, a, b] broadcast to [m, a, b] reads, at (p, i, j), the plane at
    (0, i, j).
  * A sum over `a * b` consecutive indices is the sum over `a` chunks of the sums over the `b` indices of each chunk.
-/
import Idealize.ShloMosaic.Lib.Pipeline.Value
import Idealize.ShloMosaic.Lib.ValueIdx
import Idealize.ShloMosaic.Lib.ValueLayout

set_option maxRecDepth 16384

noncomputable section

namespace Cert.NonLocal.Lib

open Idealize.ShloMosaic Idealize.ShloMosaic.ValueIdx
open scoped BigOperators

variable {Val : EltTy → Type} {S : Shape} {e : EltTy}

/-- After a last write through the whole-shape rectangle, the buffer reads as that write's payload. -/
theorem read_writes_cons_whole [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A `[1, a, b]` array broadcast to `[m, a, b]` reads, at `(p, i, j)`, the operand's one plane at `(i, j)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Summing over `a * b` indices chunk by chunk: chunk `q` holds the indices `b * q + r`, `r < b`. -/
theorem sum_chunks {M : Type*} [AddCommMonoid M] (a b : ℕ) (f : Fin (a * b) → M) :
    ∑ n : Fin (a * b), f n
      = ∑ q : Fin a, ∑ r : Fin b, f ⟨b * q.val + r.val, by
          have hq := q.isLt; have hr := r.isLt
          calc b * q.val + r.val < b * q.val + b := by omega
            _ = b * (q.val + 1) := by ring
            _ ≤ b * a := Nat.mul_le_mul_left b hq
            _ = a * b := Nat.mul_comm b a⟩ := by
  refine ((finProdFinEquiv (m := a) (n := b)).sum_comp f).symm.trans ?_
  rw [Fintype.sum_prod_type]
  refine Finset.sum_congr rfl fun q _ => Finset.sum_congr rfl fun r _ => congrArg f (Fin.ext ?_)
  show r.val + b * q.val = b * q.val + r.val
  omega

end Cert.NonLocal.Lib

end
-- ==== Proof.Val.R0Val.lean ====
/-
  Region 0 (the degree pass) read on the extended reals: the row-sum column holds each row's sum of the adjacency,
  the column-sum column each column's, and the low-precision copy the adjacency itself.

  At a point (i, j) the body's row payload is, row by row, the sum over the block's 2048 columns, and its column
  payload, column by column, the sum over the block's 512 rows (the product with a column of ones); the first point
  that touches a row of a degree column overwrites it and the later ones add to it, the points that do not touch
  it leave it. Addition on the extended reals is commutative and associative, so a row's four (a column's eight)
  partial sums regroup into the sum over the whole row (column): a sum over 8192 = 4 · 2048 (4096 = 8 · 512)
  indices taken chunk by chunk.
-/
import proofs.«123106_g36129264894623_cont_8to1_b_1457_4_alg».proof.Proof.KI.R0Fin
import proofs.«123106_g36129264894623_cont_8to1_b_1457_4_alg».proof.Proof.Spec.KSpec
import proofs.«123106_g36129264894623_cont_8to1_b_1457_4_alg».proof.Proof.Val.LibWhole
import Idealize.ShloMosaic.Lib.ValueIdx
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen Cert.KernelIdeal.Hand
open Idealize.ShloMosaic.ValueIdx
open scoped BigOperators

variable (V : (c : Dev nD) → (b : Ref sig .tc) → Buf (Elt Ideal) ((c : Thread nD τ).loc b))

/-! ## The two payloads on the extended reals -/

/-- The row payload: row q of the block summed over its 2048 columns. -/
theorem pay2_at (x0 : Vec Ideal S512x2048 .f32) (q : Fin 512) :
    k0_pay2 x0 (ix2 q (0 : Fin 1)) = ∑ l : Fin 2048, x0 (ix2 q l) := by
  show shapeCast S512x1 (multiReduction (F := Ideal) .add [1] S512 x0 0x00000000#32 reduces_S512x2048_S512 (.inl rfl) rfl) shapeCasts_S512_S512x1 (ix2 q 0) = _
  refine (shapeCast_apply _ shapeCasts_S512_S512x1 (ix2 q 0) (ix1 q) ?_).trans ?_
  · rw [Shape.rowMajor_val_one, Shape.rowMajor_val_two]
    show q.val = q.val * 1 + 0
    omega
  · refine (Ideal.multiReduction_add_single x0 0x00000000#32 reduces_S512x2048_S512 (.inl rfl) rfl (ix1 q)).trans ?_
    show ∑ l : Fin 2048, x0 (Shape.Reduces.lift reduces_S512x2048_S512 (ix1 q) l) = ∑ l : Fin 2048, x0 (ix2 q l)
    refine Finset.sum_congr rfl fun l _ => congrArg x0 ?_
    funext a
    match a with
    | ⟨0, _⟩ => rfl
    | ⟨1, _⟩ => rfl

/-- The one-axis contraction of the column payload's product, by its coordinate. -/
def contr3 : dot_S512x2048_S512x1_S2048x1_0_0_1_1_n_n.contr.Idx ≃ Fin 512 :=
  contrEquiv1 dot_S512x2048_S512x1_S2048x1_0_0_1_1_n_n 512 rfl rfl

/-- The left operand's index at output row q and contraction position k: (k, q). -/
theorem lhsIdx3 (q : Fin 2048) (k : dot_S512x2048_S512x1_S2048x1_0_0_1_1_n_n.contr.Idx) :
    dot_S512x2048_S512x1_S2048x1_0_0_1_1_n_n.lhsIdx (ix2 q (0 : Fin 1)) k = ix2 (contr3 k) q := by
  funext a
  match a with
  | ⟨0, _⟩ =>
    apply Fin.ext
    show (dot_S512x2048_S512x1_S2048x1_0_0_1_1_n_n.lhsIdx (ix2 q (0 : Fin 1)) k 0).val = (contr3 k).val
    rw [dot_S512x2048_S512x1_S2048x1_0_0_1_1_n_n.lhsIdx_val_of_single (cl := 0) rfl]
    rfl
  | ⟨1, _⟩ =>
    apply Fin.ext
    rfl

/-- The column payload: column q of the block summed over its 512 rows (each entry times one). -/
theorem pay3_at (x0 : Vec Ideal S512x2048 .f32) (q : Fin 2048) :
    k0_pay3 x0 (ix2 q (0 : Fin 1)) = ∑ k : Fin 512, x0 (ix2 k q) := by
  show FloatOps.matmul dot_S512x2048_S512x1_S2048x1_0_0_1_1_n_n none (k0_pay1 x0) (broadcast S512x1 (Scalar.ofBits .bf16 0x3F80#16))
      (constant S2048x1 .f32 0x00000000#32) (ix2 q 0) = _
  rw [Ideal.matmul_constant_zero_apply]
  refine Eq.trans ?_ (Equiv.sum_comp contr3 fun i => x0 (ix2 i q))
  refine Finset.sum_congr rfl fun k _ => ?_
  rw [lhsIdx3]
  show x0 (ix2 (contr3 k) q) * Ideal.ofBits .bf16 0x3F80#16 = x0 (ix2 (contr3 k) q)
  rw [show Ideal.ofBits .bf16 0x3F80#16 = 1 from IdealRules.sign_bit.ideal_onePat .bf16, mul_one]

/-! ## One point's update of the row-sum column, at one row -/

/-- The block-local coordinate of row-sum row `r`. -/
def rloc (r : Fin 4096) : Fin 512 := ⟨r.val % 512, Nat.mod_lt _ (by norm_num)⟩

/-- Row `r` is in the rectangle of 512 rows from offset 512·a iff a is its block. -/
theorem row_mem_iff (off : Fin 2 → Nat) (a : Nat) (h0 : off 0 = 512 * a) (h1 : off 1 = 0) (r : Fin 4096)
    (inb : ∀ x, off x + S512x1.size x ≤ S4096x1.size x) :
    ix2 r (0 : Fin 1) ∈ (Rect.unit (s := S4096x1) off S512x1.size inb).set ↔ a = r.val / 512 := by
  have hr : r.val < 4096 := r.isLt
  rw [Rect.mem_set_unit]
  constructor
  · intro h
    have h' : off 0 ≤ r.val ∧ r.val < off 0 + 512 := h 0
    rw [h0] at h'
    omega
  · intro h
    refine Fin.forall_fin_two.mpr ⟨?_, ?_⟩
    · show off 0 ≤ r.val ∧ r.val < off 0 + 512
      rw [h0]; omega
    · show off 1 ≤ 0 ∧ 0 < off 1 + 1
      rw [h1]; omega

/-- and then it is the rectangle's element at its block-local coordinate. -/
theorem row_emb (off : Fin 2 → Nat) (a : Nat) (h0 : off 0 = 512 * a) (h1 : off 1 = 0) (r : Fin 4096)
    (inb : ∀ x, off x + S512x1.size x ≤ S4096x1.size x) (h : a = r.val / 512) :
    (Rect.unit (s := S4096x1) off S512x1.size inb).emb (ix2 (rloc r) (0 : Fin 1)) = ix2 r (0 : Fin 1) := by
  have hr : r.val < 4096 := r.isLt
  funext x
  apply Fin.ext
  rw [Rect.emb_apply]
  match x with
  | ⟨0, _⟩ =>
    show off 0 + 1 * (r.val % 512) = r.val
    rw [h0]; omega
  | ⟨1, _⟩ =>
    show off 1 + 1 * 0 = 0
    rw [h1]

/-- What point `k` adds at row `r`: its block's payload there if the row is in its block row, else nothing. -/
def Drow (c : Dev nD) (r : Fin 4096) (k : Nat) : EReal :=
  if h : k < cfg0.N then (if k / 4 = r.val / 512 then k0_pay2 (iblk0 V c 0 ⟨k, h⟩) (ix2 (rloc r) (0 : Fin 1)) else 0) else 0

/-- The update at a point, read at row `r`: the row's value before (nothing, at the point that resets the row) plus what the
    point adds. -/
theorem rowStepAt_val (c : Dev nD) (t : Fin cfg0.N) (Y : Vec Ideal S4096x1 .f32) (r : Fin 4096) :
    rowStepAt V c t Y (ix2 r (0 : Fin 1)) = (if t.val = 4 * (r.val / 512) then 0 else Y (ix2 r (0 : Fin 1))) + Drow V c r t.val := by
  obtain ⟨hc1, hc2, hc3, hc4, ho10, ho11, ho30, ho31⟩ := sched0 t
  have hoA0 : k0_off1 (grid0.coords t) 0 = 512 * (t.val / 4) := ho10
  have hoA1 : k0_off1 (grid0.coords t) 1 = 0 := ho11
  have hoB0 : k0_off2 (grid0.coords t) 0 = 512 * (t.val / 4) := ho10
  have hoB1 : k0_off2 (grid0.coords t) 1 = 0 := ho11
  have hr : r.val < 4096 := r.isLt
  have ht : t.val < 32 := by have := t.isLt; have := N0; omega
  have hD : Drow V c r t.val = if t.val / 4 = r.val / 512 then k0_pay2 (iblk0 V c 0 t) (ix2 (rloc r) (0 : Fin 1)) else 0 := by
    unfold Drow; rw [dif_pos t.isLt]
  rw [hD]
  show rowStepB (grid0.coords t) (iblk0 V c 0 t) (rowStepA (grid0.coords t) (iblk0 V c 0 t) Y) (ix2 r 0) = _
  by_cases hblk : t.val / 4 = r.val / 512
  · rw [if_pos hblk]
    by_cases hfirst : t.val % 4 = 0
    · -- the point that resets the row
      have h1 : k0_cond1 (grid0.coords t) = 1#1 := hc1.mpr hfirst
      have h2 : ¬ k0_cond2 (grid0.coords t) = 1#1 := fun h => (hc2.mp h) hfirst
      rw [if_pos (by omega), zero_add]
      unfold rowStepB; rw [dif_neg h2]
      unfold rowStepA; rw [dif_pos h1]
      have he := row_emb _ _ hoA0 hoA1 r (k0_off1_inb _ h1) hblk
      conv_lhs => rw [← he]
      rw [Rect.overlay_emb]
    · -- a later point of the row's block row
      have h1 : ¬ k0_cond1 (grid0.coords t) = 1#1 := fun h => hfirst (hc1.mp h)
      have h2 : k0_cond2 (grid0.coords t) = 1#1 := hc2.mpr hfirst
      rw [if_neg (by omega)]
      unfold rowStepB; rw [dif_pos h2]
      unfold rowStepA; rw [dif_neg h1]
      have he := row_emb _ _ hoB0 hoB1 r (k0_off2_inb _ h2) hblk
      conv_lhs => rw [← he]
      rw [Rect.overlay_emb, k0_pay4_apply]
      show Y ((Rect.unit (s := S4096x1) (k0_off2 (grid0.coords t)) S512x1.size (k0_off2_inb _ h2)).emb (ix2 (rloc r) (0 : Fin 1))) + _ = _
      rw [he]
  · rw [if_neg hblk, if_neg (by omega), add_zero]
    have hA : rowStepA (grid0.coords t) (iblk0 V c 0 t) Y (ix2 r 0) = Y (ix2 r 0) := by
      unfold rowStepA; split
      · next h1 => exact Rect.overlay_of_not_mem _ _ _ (fun hm => hblk ((row_mem_iff _ _ hoA0 hoA1 r _).mp hm))
      · rfl
    unfold rowStepB; split
    · next h2 => rw [Rect.overlay_of_not_mem _ _ _ (fun hm => hblk ((row_mem_iff _ _ hoB0 hoB1 r _).mp hm))]; exact hA
    · exact hA

/-! ## One point's update of the column-sum column, at one row -/

/-- The block-local coordinate of column-sum row `r`. -/
def cloc (r : Fin 8192) : Fin 2048 := ⟨r.val % 2048, Nat.mod_lt _ (by norm_num)⟩

/-- Row `r` is in the rectangle of 2048 rows from offset 2048·a iff a is its block. -/
theorem col_mem_iff (off : Fin 2 → Nat) (a : Nat) (h0 : off 0 = 2048 * a) (h1 : off 1 = 0) (r : Fin 8192)
    (inb : ∀ x, off x + S2048x1.size x ≤ S8192x1.size x) :
    ix2 r (0 : Fin 1) ∈ (Rect.unit (s := S8192x1) off S2048x1.size inb).set ↔ a = r.val / 2048 := by
  have hr : r.val < 8192 := r.isLt
  rw [Rect.mem_set_unit]
  constructor
  · intro h
    have h' : off 0 ≤ r.val ∧ r.val < off 0 + 2048 := h 0
    rw [h0] at h'
    omega
  · intro h
    refine Fin.forall_fin_two.mpr ⟨?_, ?_⟩
    · show off 0 ≤ r.val ∧ r.val < off 0 + 2048
      rw [h0]; omega
    · show off 1 ≤ 0 ∧ 0 < off 1 + 1
      rw [h1]; omega

/-- and then it is the rectangle's element at its block-local coordinate. -/
theorem col_emb (off : Fin 2 → Nat) (a : Nat) (h0 : off 0 = 2048 * a) (h1 : off 1 = 0) (r : Fin 8192)
    (inb : ∀ x, off x + S2048x1.size x ≤ S8192x1.size x) (h : a = r.val / 2048) :
    (Rect.unit (s := S8192x1) off S2048x1.size inb).emb (ix2 (cloc r) (0 : Fin 1)) = ix2 r (0 : Fin 1) := by
  have hr : r.val < 8192 := r.isLt
  funext x
  apply Fin.ext
  rw [Rect.emb_apply]
  match x with
  | ⟨0, _⟩ =>
    show off 0 + 1 * (r.val % 2048) = r.val
    rw [h0]; omega
  | ⟨1, _⟩ =>
    show off 1 + 1 * 0 = 0
    rw [h1]

/-- What point `k` adds at row `r`: its block's payload there if the row is in its block column, else nothing. -/
def Dcol (c : Dev nD) (r : Fin 8192) (k : Nat) : EReal :=
  if h : k < cfg0.N then (if k % 4 = r.val / 2048 then k0_pay3 (iblk0 V c 0 ⟨k, h⟩) (ix2 (cloc r) (0 : Fin 1)) else 0) else 0

/-- The update at a point, read at row `r`: the row's value before (nothing, at the point that resets the row) plus what the
    point adds. -/
theorem colStepAt_val (c : Dev nD) (t : Fin cfg0.N) (Y : Vec Ideal S8192x1 .f32) (r : Fin 8192) :
    colStepAt V c t Y (ix2 r (0 : Fin 1)) = (if t.val = r.val / 2048 then 0 else Y (ix2 r (0 : Fin 1))) + Dcol V c r t.val := by
  obtain ⟨hc1, hc2, hc3, hc4, ho10, ho11, ho30, ho31⟩ := sched0 t
  have hoA0 : k0_off3 (grid0.coords t) 0 = 2048 * (t.val % 4) := ho30
  have hoA1 : k0_off3 (grid0.coords t) 1 = 0 := ho31
  have hoB0 : k0_off4 (grid0.coords t) 0 = 2048 * (t.val % 4) := ho30
  have hoB1 : k0_off4 (grid0.coords t) 1 = 0 := ho31
  have hr : r.val < 8192 := r.isLt
  have ht : t.val < 32 := by have := t.isLt; have := N0; omega
  have hD : Dcol V c r t.val = if t.val % 4 = r.val / 2048 then k0_pay3 (iblk0 V c 0 t) (ix2 (cloc r) (0 : Fin 1)) else 0 := by
    unfold Dcol; rw [dif_pos t.isLt]
  rw [hD]
  show colStepB (grid0.coords t) (iblk0 V c 0 t) (colStepA (grid0.coords t) (iblk0 V c 0 t) Y) (ix2 r 0) = _
  by_cases hblk : t.val % 4 = r.val / 2048
  · rw [if_pos hblk]
    by_cases hfirst : t.val / 4 = 0
    · -- the point that resets the row
      have h1 : k0_cond3 (grid0.coords t) = 1#1 := hc3.mpr hfirst
      have h2 : ¬ k0_cond4 (grid0.coords t) = 1#1 := fun h => (hc4.mp h) hfirst
      rw [if_pos (by omega), zero_add]
      unfold colStepB; rw [dif_neg h2]
      unfold colStepA; rw [dif_pos h1]
      have he := col_emb _ _ hoA0 hoA1 r (k0_off3_inb _ h1) hblk
      conv_lhs => rw [← he]
      rw [Rect.overlay_emb]
    · -- a later point of the row's block column
      have h1 : ¬ k0_cond3 (grid0.coords t) = 1#1 := fun h => hfirst (hc3.mp h)
      have h2 : k0_cond4 (grid0.coords t) = 1#1 := hc4.mpr hfirst
      rw [if_neg (by omega)]
      unfold colStepB; rw [dif_pos h2]
      unfold colStepA; rw [dif_neg h1]
      have he := col_emb _ _ hoB0 hoB1 r (k0_off4_inb _ h2) hblk
      conv_lhs => rw [← he]
      rw [Rect.overlay_emb, k0_pay5_apply]
      show Y ((Rect.unit (s := S8192x1) (k0_off4 (grid0.coords t)) S2048x1.size (k0_off4_inb _ h2)).emb (ix2 (cloc r) (0 : Fin 1))) + _ = _
      rw [he]
  · rw [if_neg hblk, if_neg (by omega), add_zero]
    have hA : colStepA (grid0.coords t) (iblk0 V c 0 t) Y (ix2 r 0) = Y (ix2 r 0) := by
      unfold colStepA; split
      · next h1 => exact Rect.overlay_of_not_mem _ _ _ (fun hm => hblk ((col_mem_iff _ _ hoA0 hoA1 r _).mp hm))
      · rfl
    unfold colStepB; split
    · next h2 => rw [Rect.overlay_of_not_mem _ _ _ (fun hm => hblk ((col_mem_iff _ _ hoB0 hoB1 r _).mp hm))]; exact hA
    · exact hA

/-! ## A value reset once and added to afterwards is the sum of what was added -/

theorem acc_eq_sum (f D : Nat → EReal) (t0 N : Nat) (h0 : f t0 = D t0)
    (hs : ∀ n, t0 ≤ n → n + 1 < N → f (n + 1) = f n + D (n + 1)) :
    ∀ d, t0 + d < N → f (t0 + d) = ∑ k ∈ Finset.range (d + 1), D (t0 + k)
  | 0, _ => by simp [h0]
  | d + 1, h => by
    have ih := acc_eq_sum f D t0 N h0 hs d (by omega)
    have e := hs (t0 + d) (Nat.le_add_right _ _) (by omega)
    rw [Finset.sum_range_succ (fun k => D (t0 + k)) (d + 1), ← ih]
    exact e

/-- Over the 32 points: the value after the last is the sum over all points of what each adds, when no point before
    the resetting one adds anything. -/
theorem acc_total (f D : Nat → EReal) (t0 : Nat) (ht0 : t0 < 32) (h0 : f t0 = D t0)
    (hs : ∀ n, t0 ≤ n → n + 1 < 32 → f (n + 1) = f n + D (n + 1)) (hz : ∀ k, k < t0 → D k = 0) :
    f 31 = ∑ t : Fin 32, D t.val := by
  have h := acc_eq_sum f D t0 32 h0 hs (31 - t0) (by omega)
  rw [show t0 + (31 - t0) = 31 by omega, show 31 - t0 + 1 = 32 - t0 by omega] at h
  have e := Finset.sum_range_add D t0 (32 - t0)
  rw [show t0 + (32 - t0) = 32 by omega, Finset.sum_eq_zero (fun k hk => hz k (Finset.mem_range.mp hk)), zero_add] at e
  rw [h, ← e, Finset.sum_range]

/-! ## Where a block's element sits in its array -/

/-- The index maps over the grid: the adjacency's and the copy's block at point t is (t / 4, t % 4); the two degree
    columns have the one block (0, 0). -/
theorem idx0 : ∀ t : Fin cfg0.N, win0_0.index t (0 : Fin 2) = t.val / 4 ∧ win0_0.index t (1 : Fin 2) = t.val % 4
    ∧ win0_3.index t (0 : Fin 2) = t.val / 4 ∧ win0_3.index t (1 : Fin 2) = t.val % 4
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The adjacency as a function of its two coordinates. -/
abbrev adj0 (c : Dev nD) : Fin 4096 → Fin 8192 → EReal := fun p q => V c main_arg2 (ix2 p q)

/-- The adjacency block at point t, entry (y0, y1): the adjacency at (512·(t/4) + y0, 2048·(t%4) + y1). -/
theorem iblk0_at (c : Dev nD) (t : Fin cfg0.N) (y0 : Fin 512) (y1 : Fin 2048) (p : Fin 4096) (q : Fin 8192)
    (hp : p.val = 512 * (t.val / 4) + y0.val) (hq : q.val = 2048 * (t.val % 4) + y1.val) :
    iblk0 V c 0 t (ix2 y0 y1) = adj0 V c p q := by
  obtain ⟨e0, e1, -⟩ := idx0 t
  show V c main_arg2 (((cfg0.win 0).blk t).view.emb (ix2 y0 y1)) = V c main_arg2 (ix2 p q)
  refine congrArg (V c main_arg2) ?_
  funext a
  apply Fin.ext
  match a with
  | ⟨0, _⟩ => show win0_0.index t (0 : Fin 2) * 512 + 1 * y0.val = p.val; rw [e0]; omega
  | ⟨1, _⟩ => show win0_0.index t (1 : Fin 2) * 2048 + 1 * y1.val = q.val; rw [e1]; omega

/-- The row-sum array after region 0, at row r: the buffer after the last point there. -/
theorem final0_1_at (c : Dev nD) (r : Fin 4096) : final0 V c 1 (ix2 r (0 : Fin 1)) = rowAcc V c start1 31 (ix2 r (0 : Fin 1)) := by
  obtain ⟨-, -, -, -, e0, e1, -, -⟩ := idx0 last0
  have hemb : ((cfg0.win 1).blk last0).view.emb (ix2 r (0 : Fin 1)) = ix2 r (0 : Fin 1) := by
    funext a
    apply Fin.ext
    match a with
    | ⟨0, _⟩ => show win0_1.index last0 (0 : Fin 2) * 4096 + 1 * r.val = r.val; rw [e0]; omega
    | ⟨1, _⟩ => show win0_1.index last0 (1 : Fin 2) * 1 + 1 * 0 = 0; rw [e1]
  have key := View.write_emb_of_mem (v := ((cfg0.win 1).blk last0).view) (V c (Pipeline.arrRef spec0 1))
    ((cfg0.win 1).cut (cfg0.grid.coords last0) (rowAcc V c start1 31)) (Finset.mem_univ (ix2 r (0 : Fin 1)))
  rw [hemb] at key
  rw [final0_1]
  exact key

/-- The column-sum array after region 0, at row q: the buffer after the last point there. -/
theorem final0_2_at (c : Dev nD) (r : Fin 8192) : final0 V c 2 (ix2 r (0 : Fin 1)) = colAcc V c start2 31 (ix2 r (0 : Fin 1)) := by
  obtain ⟨-, -, -, -, -, -, e0, e1⟩ := idx0 last0
  have hemb : ((cfg0.win 2).blk last0).view.emb (ix2 r (0 : Fin 1)) = ix2 r (0 : Fin 1) := by
    funext a
    apply Fin.ext
    match a with
    | ⟨0, _⟩ => show win0_2.index last0 (0 : Fin 2) * 8192 + 1 * r.val = r.val; rw [e0]; omega
    | ⟨1, _⟩ => show win0_2.index last0 (1 : Fin 2) * 1 + 1 * 0 = 0; rw [e1]
  have key := View.write_emb_of_mem (v := ((cfg0.win 2).blk last0).view) (V c (Pipeline.arrRef spec0 2))
    ((cfg0.win 2).cut (cfg0.grid.coords last0) (colAcc V c start2 31)) (Finset.mem_univ (ix2 r (0 : Fin 1)))
  rw [hemb] at key
  rw [final0_2]
  exact key

/-! ## The row sums -/

/-- The buffer after a point is that point's update of some buffer (of the one after the point before, past the first). -/
theorem rowAcc_eq_step (c : Dev nD) (Y : Vec Ideal S4096x1 .f32) : ∀ (n : Nat) (h : n < cfg0.N), ∃ Yp, rowAcc V c Y n = rowStepAt V c ⟨n, h⟩ Yp
  | 0, h => ⟨Y, accFrom_zero (1 : Fin cfg0.W) (rowStepAt V c) Y h⟩
  | n + 1, h => ⟨rowAcc V c Y n, accFrom_succ (1 : Fin cfg0.W) (rowStepAt V c) Y n h⟩

theorem colAcc_eq_step (c : Dev nD) (Y : Vec Ideal S8192x1 .f32) : ∀ (n : Nat) (h : n < cfg0.N), ∃ Yp, colAcc V c Y n = colStepAt V c ⟨n, h⟩ Yp
  | 0, h => ⟨Y, accFrom_zero (2 : Fin cfg0.W) (colStepAt V c) Y h⟩
  | n + 1, h => ⟨colAcc V c Y n, accFrom_succ (2 : Fin cfg0.W) (colStepAt V c) Y n h⟩

/-- Row r of the row-sum array is the sum of row r of the adjacency. -/
theorem final0_row (c : Dev nD) (r : Fin 4096) :
    final0 V c 1 (ix2 r (0 : Fin 1)) = Cert.Spec.rowsum (adj0 V c) r := by
  have hr : r.val < 4096 := r.isLt
  have hN := N0
  rw [final0_1_at]
  have h0 : rowAcc V c start1 (4 * (r.val / 512)) (ix2 r (0 : Fin 1)) = Drow V c r (4 * (r.val / 512)) := by
    obtain ⟨Yp, e⟩ := rowAcc_eq_step V c start1 (4 * (r.val / 512)) (by omega)
    rw [e, rowStepAt_val, if_pos rfl, zero_add]
  have hs : ∀ n, 4 * (r.val / 512) ≤ n → n + 1 < 32 →
      rowAcc V c start1 (n + 1) (ix2 r (0 : Fin 1)) = rowAcc V c start1 n (ix2 r (0 : Fin 1)) + Drow V c r (n + 1) := by
    intro n hn hn'
    have e : rowAcc V c start1 (n + 1) = rowStepAt V c ⟨n + 1, by omega⟩ (rowAcc V c start1 n) := accFrom_succ (1 : Fin cfg0.W) (rowStepAt V c) start1 n (by omega)
    rw [e, rowStepAt_val, if_neg (by show n + 1 ≠ 4 * (r.val / 512); omega)]
  have hz : ∀ k, k < 4 * (r.val / 512) → Drow V c r k = 0 := by
    intro k hk
    unfold Drow
    split
    · rw [if_neg (by omega)]
    · rfl
  refine (acc_total (fun n => rowAcc V c start1 n (ix2 r (0 : Fin 1))) (Drow V c r) (4 * (r.val / 512)) (by omega) h0 hs hz).trans ?_
  -- the 32 points as 8 block rows of 4
  refine (Cert.NonLocal.Lib.sum_chunks 8 4 (fun t : Fin (8 * 4) => Drow V c r t.val)).trans ?_
  have hD : ∀ (i : Fin 8) (j : Fin 4), Drow V c r (4 * i.val + j.val)
      = if i.val = r.val / 512 then ∑ l : Fin 2048, adj0 V c r ⟨2048 * j.val + l.val, by have := j.isLt; have := l.isLt; omega⟩ else 0 := by
    intro i j
    have hi := i.isLt
    have hj := j.isLt
    unfold Drow
    rw [dif_pos (by omega)]
    by_cases h : i.val = r.val / 512
    · rw [if_pos (by omega), if_pos h, pay2_at]
      refine Finset.sum_congr rfl fun l _ => ?_
      have hl := l.isLt
      exact iblk0_at V c _ (rloc r) l r _ (by show r.val = 512 * ((4 * i.val + j.val) / 4) + r.val % 512; omega)
        (by show 2048 * j.val + l.val = 2048 * ((4 * i.val + j.val) % 4) + l.val; omega)
    · rw [if_neg (by omega), if_neg h]
  show ∑ i : Fin 8, ∑ j : Fin 4, Drow V c r (4 * i.val + j.val) = _
  simp only [hD]
  rw [Finset.sum_eq_single (⟨r.val / 512, by omega⟩ : Fin 8)]
  · rw [Finset.sum_congr rfl (fun (j : Fin 4) _ => if_pos rfl)]
    exact (Cert.NonLocal.Lib.sum_chunks 4 2048 (fun n : Fin (4 * 2048) => adj0 V c r n)).symm
  · intro b _ hb
    exact Finset.sum_eq_zero fun j _ => if_neg (fun h => hb (Fin.ext h))
  · intro h
    exact absurd (Finset.mem_univ _) h

/-! ## The column sums -/

/-- Row q of the column-sum array is the sum of column q of the adjacency. -/
theorem final0_col (c : Dev nD) (q : Fin 8192) :
    final0 V c 2 (ix2 q (0 : Fin 1)) = Cert.Spec.colsum (adj0 V c) q := by
  have hq : q.val < 8192 := q.isLt
  have hN := N0
  rw [final0_2_at]
  have h0 : colAcc V c start2 (q.val / 2048) (ix2 q (0 : Fin 1)) = Dcol V c q (q.val / 2048) := by
    obtain ⟨Yp, e⟩ := colAcc_eq_step V c start2 (q.val / 2048) (by omega)
    rw [e, colStepAt_val, if_pos rfl, zero_add]
  have hs : ∀ n, q.val / 2048 ≤ n → n + 1 < 32 →
      colAcc V c start2 (n + 1) (ix2 q (0 : Fin 1)) = colAcc V c start2 n (ix2 q (0 : Fin 1)) + Dcol V c q (n + 1) := by
    intro n hn hn'
    have e : colAcc V c start2 (n + 1) = colStepAt V c ⟨n + 1, by omega⟩ (colAcc V c start2 n) := accFrom_succ (2 : Fin cfg0.W) (colStepAt V c) start2 n (by omega)
    rw [e, colStepAt_val, if_neg (by show n + 1 ≠ q.val / 2048; omega)]
  have hz : ∀ k, k < q.val / 2048 → Dcol V c q k = 0 := by
    intro k hk
    unfold Dcol
    split
    · rw [if_neg (by omega)]
    · rfl
  refine (acc_total (fun n => colAcc V c start2 n (ix2 q (0 : Fin 1))) (Dcol V c q) (q.val / 2048) (by omega) h0 hs hz).trans ?_
  refine (Cert.NonLocal.Lib.sum_chunks 8 4 (fun t : Fin (8 * 4) => Dcol V c q t.val)).trans ?_
  have hD : ∀ (i : Fin 8) (j : Fin 4), Dcol V c q (4 * i.val + j.val)
      = if j.val = q.val / 2048 then ∑ k : Fin 512, adj0 V c ⟨512 * i.val + k.val, by have := i.isLt; have := k.isLt; omega⟩ q else 0 := by
    intro i j
    have hi := i.isLt
    have hj := j.isLt
    unfold Dcol
    rw [dif_pos (by omega)]
    by_cases h : j.val = q.val / 2048
    · rw [if_pos (by omega), if_pos h, pay3_at]
      refine Finset.sum_congr rfl fun k _ => ?_
      have hk := k.isLt
      exact iblk0_at V c _ k (cloc q) _ q (by show 512 * i.val + k.val = 512 * ((4 * i.val + j.val) / 4) + k.val; omega)
        (by show q.val = 2048 * ((4 * i.val + j.val) % 4) + q.val % 2048; omega)
    · rw [if_neg (by omega), if_neg h]
  show ∑ i : Fin 8, ∑ j : Fin 4, Dcol V c q (4 * i.val + j.val) = _
  simp only [hD]
  have hin : ∀ i : Fin 8, (∑ j : Fin 4, if j.val = q.val / 2048 then ∑ k : Fin 512, adj0 V c ⟨512 * i.val + k.val, by have := i.isLt; have := k.isLt; omega⟩ q else 0)
      = ∑ k : Fin 512, adj0 V c ⟨512 * i.val + k.val, by have := i.isLt; have := k.isLt; omega⟩ q := by
    intro i
    rw [Finset.sum_eq_single (⟨q.val / 2048, by omega⟩ : Fin 4)]
    · exact if_pos rfl
    · intro b _ hb
      exact if_neg (fun h => hb (Fin.ext h))
    · intro h
      exact absurd (Finset.mem_univ _) h
  rw [Finset.sum_congr rfl (fun i _ => hin i)]
  exact (Cert.NonLocal.Lib.sum_chunks 8 512 (fun n : Fin (8 * 512) => adj0 V c n q)).symm

/-! ## The low-precision copy -/

theorem zeros2 : (![0, 0] : Fin 2 → Nat) = fun _ => 0 := funext fun a => by fin_cases a <;> rfl

/-- The adjacency's contents, as contents of the copy's array (on the extended reals both formats' values are the
    extended reals). -/
def copyG (c : Dev nD) : Buf (Elt Ideal) ((cfg0.win 3).arr.view.loc (c.tc : Thread nD τ)) := V c main_arg2

/-- An index of the copy's array is in point t's block iff its coordinates are in the block's ranges. -/
theorem mem_blk3 (t : Fin cfg0.N) (i : S4096x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0_2).slice (win0_3.rect t)).set ↔ _
  rw [View.set_slice_whole, Rect.mem_set_unit]
  exact Iff.rfl

/-- What point t writes back is block t of the adjacency: the format change is the identity on the extended reals. -/
theorem flushed3_eq (c : Dev nD) (t : Fin cfg0.N) :
    (copyDat0 V c).flushed 3 t = ((cfg0.win 3).blk t).view.read (Elt Ideal) (copyG V c) := by
  show (cfg0.win 3).cut (grid0.coords t) ((copyDat0 V c).after 3 t) = _
  rw [copyDat0_after]
  unfold out0_3
  rw [View.canon_unit_zero zeros2]
  simp only [View.ld_unit_zero (S := S512x2048) zeros2]
  obtain ⟨e0, e1, e2, e3, -⟩ := idx0 t
  funext j
  show V c main_arg2 (((cfg0.win 0).blk t).view.emb j) = V c main_arg2 (((cfg0.win 3).blk t).view.emb j)
  refine congrArg (V c main_arg2) ?_
  funext a
  apply Fin.ext
  match a with
  | ⟨0, _⟩ => show win0_0.index t (0 : Fin 2) * 512 + 1 * (j 0).val = win0_3.index t (0 : Fin 2) * 512 + 1 * (j 0).val; rw [e0, e2]
  | ⟨1, _⟩ => show win0_0.index t (1 : Fin 2) * 2048 + 1 * (j 1).val = win0_3.index t (1 : Fin 2) * 2048 + 1 * (j 1).val; rw [e1, e3]

/-- The copy's array after region 0 is the adjacency, entry by entry. -/
theorem final0_copy (c : Dev nD) (p : Fin 4096) (q : Fin 8192) : final0 V c 3 (ix2 p q) = adj0 V c p q := by
  have hp := p.isLt
  have hq := q.isLt
  have hN := N0
  obtain ⟨t, ht⟩ : ∃ t : Fin cfg0.N, t.val = 4 * (p.val / 512) + q.val / 2048 := ⟨⟨4 * (p.val / 512) + q.val / 2048, by omega⟩, rfl⟩
  obtain ⟨-, -, e2, e3, -⟩ := idx0 t
  have hi : ix2 p q ∈ ((cfg0.win 3).blk t).view.set := by
    rw [mem_blk3]
    refine Fin.forall_fin_two.mpr ⟨?_, ?_⟩
    · show win0_3.index t (0 : Fin 2) * 512 ≤ p.val ∧ p.val < win0_3.index t (0 : Fin 2) * 512 + 512
      rw [e2]; omega
    · show win0_3.index t (1 : Fin 2) * 2048 ≤ q.val ∧ q.val < win0_3.index t (1 : Fin 2) * 2048 + 2048
      rw [e3]; omega
  rw [final0_3]
  exact (copyDat0 V c).arrAt_apply_of_mem 3 (copyG V c) (fun t _ => flushed3_eq V c t) cfg0.N t (ix2 p q) t.isLt (flush0_3 t) hi

end Cert.KernelIdeal.HandVal

end
-- ==== Proof.Val.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Val.ValLib.lean ====
/-
  Entries of matrix products and of a column spread along the rows, on the extended reals.

  The product of an M×K matrix X by a K×N matrix W accumulated into a zero splat has, at entry (r, c), the sum over k
  of X(r,k)·W(k,c): the accumulator contributes 0 + s = s, and the contraction index of a plain contraction is its one
  coordinate. A column [a, 1] broadcast to [a, n] reads, at (i, j), the column's entry (i, 0). The word 0x3F800000 is
  the extended real one. Nothing here cancels or distributes, so every statement holds at the infinities too.
-/
import proofs.«123106_g36129264894623_cont_8to1_b_1457_4_alg».proof.Proof.Val.LibLayout
import Idealize.ShloMosaic.Lib.StackMember
import Idealize.ShloMosaic.Lib.KernelVsHost
import Idealize.ShloMosaic.Lib.IdealHost
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.HandVal

open Idealize.ShloMosaic Idealize.ShloMosaic.ValueIdx
open scoped BigOperators

/-- A product accumulated into the zero splat, with the plain contraction (rows of the left against columns of the
    right), read at entry (r, c): the sum over the contracted coordinate of the products of the entries. -/
theorem matmul_plain_zero_apply {M K N : ℕ} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂) (r : Fin M) (c : Fin N) :
    matmul d none X W (constant (F := Ideal) ⟨2, ![M, N]⟩ .f32 0x00000000#32) (ix2 r c)
      = ∑ k : Fin K, X (ix2 r k) * W (ix2 k c) := by
  subst hd
  rw [matmul_zero_eq_dotGeneral]
  exact StackMember.dotGeneral_plain_apply none X W r c

/-- An `[a, 1]` column broadcast to `[a, n]` reads, at `(i, j)`, the column's entry `(i, 0)`. -/
theorem broadcastTo_col_apply {α : Type} {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) :=
  Cert.Bridge.Layout.broadcastTo_a1_an_apply v h i j

/-- The float word of 1.0 read at the ideal values, as a scalar constant of a payload. -/
theorem scalar_one_f32 : (Scalar.ofBits (F := Ideal) .f32 0x3F800000#32 : EReal) = 1 := Ideal.ofBits_one_f32

/-- The float word of 0.0 read at the ideal values, as a scalar constant of a payload. -/
theorem scalar_zero_f32 : (Scalar.ofBits (F := Ideal) .f32 0x00000000#32 : EReal) = 0 := Ideal.ofBits_zero_f32

end Cert.KernelIdeal.HandVal

end
-- ==== Proof.Val.R1Val.lean ====
/-
  REGION 1 at the ideal values: what the two output arrays hold after the region, entry by entry.

  The region walks the 8192 rows in 4 blocks of 2048. At each block it forms the product of the block of rows of the
  first operand by the whole 512×512 second operand (a product into the zero splat: the sum over the contracted
  coordinate), writes it to the first output, and writes to the second output the product times 1/sqrt(s + 1), s the
  block's entry of the column of sums spread along the row. A block of rows of a product is the product of the block of
  rows, so every point writes its block of ONE function of the region-entry arrays, and the blocks tile the outputs.
-/
import proofs.«123106_g36129264894623_cont_8to1_b_1457_4_alg».proof.Proof.KI.R1
import proofs.«123106_g36129264894623_cont_8to1_b_1457_4_alg».proof.Proof.Val.ValLib

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

-- an array's entry is an extended real only after its buffer's element type is computed: the products and sums of
-- entries below name the extended reals' operations outright
local notation:65 a:65 " +ₑ " b:66 => @HAdd.hAdd EReal EReal EReal instHAdd a b
local notation:70 a:70 " *ₑ " b:71 => @HMul.hMul EReal EReal EReal instHMul a b

theorem hz1 : (![0, 0] : Fin 2 → Nat) = fun _ => 0 := funext fun a => by fin_cases a <;> rfl

/-! ## The payloads at an entry -/

/-- The product block at entry (p, d): the sum over k of the row block's (p, k) times the second operand's (k, d). -/
theorem pay1_1_apply (v0 : FVec Ideal S2048x512 .f32) (v2 : FVec Ideal S512x512 .f32) (p : Fin 2048) (d : Fin 512) :
    k1_pay1 (F := Ideal) v0 v2 (ix2 p d) = ∑ k : Fin 512, v0 (ix2 p k) * v2 (ix2 k d) := by
  unfold k1_pay1
  exact matmul_plain_zero_apply _ rfl (truncf .bf16 v0 bitsLt_bf16_f32) (truncf .bf16 v2 bitsLt_bf16_f32) p d

/-- The scaled block at entry (p, d): the product's entry times 1/sqrt(s(p) + 1). -/
theorem pay1_2_apply (v0 : FVec Ideal S2048x512 .f32) (v2 : FVec Ideal S512x512 .f32) (v5 : FVec Ideal S2048x1 .f32)
    (p : Fin 2048) (d : Fin 512) :
    k1_pay2 (F := Ideal) v0 v2 v5 (ix2 p d)
      = (∑ k : Fin 512, v0 (ix2 p k) * v2 (ix2 k d)) * Ideal.div 1 (Ideal.sqrt (v5 (ix2 p (0 : Fin 1)) + 1)) := by
  unfold k1_pay2
  rw [truncf_apply, mulf_apply, pay1_1_apply, broadcastTo_col_apply, shapeCast_self]
  show _ * Ideal.div (Scalar.ofBits (F := Ideal) .f32 0x3F800000#32)
      (Ideal.sqrt (v5 (ix2 p (0 : Fin 1)) + Scalar.ofBits (F := Ideal) .f32 0x3F800000#32)) = _
  rw [scalar_one_f32]

/-! ## The blocks' places in the arrays -/

/-- The printed index maps, decided over the 4 points: the row-blocked windows are at block row `t`, column block 0;
    the second operand's window is its whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The first operand's block at point `t` is its rows `2048 t … 2048 t + 2047`. -/
theorem iblk1_0_apply (c : Dev nD) (t : Fin cfg1.N) (p : Fin 2048) (k : Fin 512) (r : Fin 8192)
    (hr : r.val = t.val * 2048 + p.val) :
    (iblk1 V c 0 t : FVec Ideal S2048x512 .f32) (ix2 p k) = (V c main_arg1 : S8192x512.Idx → EReal) (ix2 r k) := by
  obtain ⟨e0, e1, -⟩ := idx_facts1 t
  unfold iblk1
  rw [View.read_apply]
  show (V c main_arg1 : S8192x512.Idx → EReal) _ = _
  congr 1
  funext a
  apply Fin.ext
  match a with
  | ⟨0, _⟩ => show win1_0.index t (0 : Fin 2) * 2048 + 1 * p.val = r.val; omega
  | ⟨1, _⟩ => show win1_0.index t (1 : Fin 2) * 512 + 1 * k.val = k.val; omega

/-- The second operand's block at every point is the whole array. -/
theorem iblk1_1_apply (c : Dev nD) (t : Fin cfg1.N) (k : Fin 512) (d : Fin 512) :
    (iblk1 V c 1 t : FVec Ideal S512x512 .f32) (ix2 k d) = (V c main_arg3 : S512x512.Idx → EReal) (ix2 k d) := by
  obtain ⟨-, -, e0, e1, -⟩ := idx_facts1 t
  unfold iblk1
  rw [View.read_apply]
  show (V c main_arg3 : S512x512.Idx → EReal) _ = _
  congr 1
  funext a
  apply Fin.ext
  match a with
  | ⟨0, _⟩ => show win1_1.index t (0 : Fin 2) * 512 + 1 * k.val = k.val; omega
  | ⟨1, _⟩ => show win1_1.index t (1 : Fin 2) * 512 + 1 * d.val = d.val; omega

/-- The column of sums' block at point `t` is its rows `2048 t … 2048 t + 2047`. -/
theorem iblk1_2_apply (c : Dev nD) (t : Fin cfg1.N) (p : Fin 2048) (r : Fin 8192)
    (hr : r.val = t.val * 2048 + p.val) :
    (iblk1 V c 2 t : FVec Ideal S2048x1 .f32) (ix2 p (0 : Fin 1)) = (V c main_v0_1 : S8192x1.Idx → EReal) (ix2 r (0 : Fin 1)) := by
  obtain ⟨-, -, -, -, e0, e1, -⟩ := idx_facts1 t
  unfold iblk1
  rw [View.read_apply]
  show (V c main_v0_1 : S8192x1.Idx → EReal) _ = _
  congr 1
  funext a
  apply Fin.ext
  match a with
  | ⟨0, _⟩ => show win1_2.index t (0 : Fin 2) * 2048 + 1 * p.val = r.val; omega
  | ⟨1, _⟩ => show win1_2.index t (1 : Fin 2) * 1 + 1 * 0 = 0; omega

/-! ## The first output: the product -/

/-- The product of the region-entry operands, entry by entry. -/
def prodT (c : Dev nD) (j : Fin 8192) (d : Fin 512) : EReal :=
  ∑ k : Fin 512, V c main_arg1 (ix2 j k) *ₑ V c main_arg3 (ix2 k d)

/-- The first output as one function of the region-entry arrays. -/
def G1_3 (c : Dev nD) : S8192x512.Idx → EReal := fun i => prodT V c ⟨(i 0).val, idx2_lt0 i⟩ ⟨(i 1).val, idx2_lt1 i⟩

/-- What point `t` writes back to the first output is block `t` of `G1_3`. -/
theorem flushed1_3_eq (c : Dev nD) (t : Fin cfg1.N) :
    (dat1 V c).flushed 3 t = ((cfg1.win 3).blk t).view.read (Elt Ideal) (G1_3 V c) := by
  show (cfg1.win 3).cut (grid1.coords t) ((dat1 V c).after 3 t) = _
  rw [after1_3]
  unfold out1_3
  rw [View.canon_unit_zero hz1]
  simp only [View.ld_unit_zero (S := S2048x512) hz1, View.ld_unit_zero (S := S512x512) hz1]
  have hN : cfg1.N = 4 := N_1
  obtain ⟨-, -, -, -, -, -, e0, e1, -⟩ := idx_facts1 t
  funext y
  obtain ⟨p, q, rfl⟩ : ∃ (p : Fin 2048) (q : Fin 512), y = ix2 p q := ⟨y 0, y 1, eq_ix2 y⟩
  have hr : t.val * 2048 + p.val < 8192 := by have := t.isLt; omega
  show k1_pay1 (F := Ideal) (iblk1 V c 0 t) (iblk1 V c 1 t) (ix2 p q) = G1_3 V c (((cfg1.win 3).blk t).view.emb (ix2 p q))
  have hemb : ((cfg1.win 3).blk t).view.emb (ix2 p q) = (ix2 (⟨t.val * 2048 + p.val, hr⟩ : Fin 8192) q : S8192x512.Idx) := by
    funext a; apply Fin.ext
    match a with
    | ⟨0, _⟩ => show win1_3.index t (0 : Fin 2) * 2048 + 1 * p.val = t.val * 2048 + p.val; omega
    | ⟨1, _⟩ => show win1_3.index t (1 : Fin 2) * 512 + 1 * q.val = q.val; omega
  rw [hemb, pay1_1_apply]
  show _ = prodT V c ⟨t.val * 2048 + p.val, hr⟩ q
  unfold prodT
  refine Finset.sum_congr rfl fun k _ => ?_
  rw [iblk1_0_apply V c t p k ⟨t.val * 2048 + p.val, hr⟩ rfl, iblk1_1_apply V c t k q]

/-- An index of the first output is in point `t`'s block iff each coordinate is in the block's range on its axis. -/
theorem mem_blk1_3 (t : Fin cfg1.N) (i : S8192x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v1_0).slice (win1_3.rect t)).set ↔ _
  rw [View.set_slice_whole, Rect.mem_set_unit]
  exact Iff.rfl

/-- Every index of the first output is in the block of the point its row falls in: row `r` in block `r / 2048`. -/
theorem covered1_3 (i : S8192x512.Idx) :
    ∃ t : Fin cfg1.N, (cfg1.win 3).flush t = true ∧ i ∈ ((cfg1.win 3).blk t).view.set := by
  have hN : cfg1.N = 4 := N_1
  have hi0 : (i 0).val < 8192 := idx2_lt0 i
  have hi1 : (i 1).val < 512 := idx2_lt1 i
  obtain ⟨t, ht⟩ : ∃ t : Fin cfg1.N, t.val = (i 0).val / 2048 := ⟨⟨(i 0).val / 2048, by omega⟩, rfl⟩
  obtain ⟨-, -, -, -, -, -, e0, e1, -⟩ := idx_facts1 t
  refine ⟨t, flush1_3 t, ?_⟩
  rw [mem_blk1_3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 512 ≤ (i 1).val ∧ (i 1).val < win1_3.index t (1 : Fin 2) * 512 + 512; omega

/-- The first output after the region is the product. -/
theorem final1_3 (c : Dev nD) : (dat1 V c).arrAt 3 cfg1.N = G1_3 V c :=
  (dat1 V c).arrAt_eq_of_cover 3 (G1_3 V c) (fun t _ => flushed1_3_eq V c t) covered1_3

/-- THE FIRST OUTPUT, entry by entry: the product of the two operands as the region finds them. -/
theorem y0_val (c : Dev nD) (j : Fin 8192) (d : Fin 512) :
    (dat1 V c).arrAt 3 cfg1.N (ix2 j d) = ∑ k : Fin 512, V c main_arg1 (ix2 j k) *ₑ V c main_arg3 (ix2 k d) :=
  congrFun (final1_3 V c) (ix2 j d)

/-! ## The second output: the product scaled by 1/sqrt(s + 1) along each row -/

/-- The second output as one function of the region-entry arrays. -/
def G1_4 (c : Dev nD) : S8192x512.Idx → EReal := fun i =>
  prodT V c ⟨(i 0).val, idx2_lt0 i⟩ ⟨(i 1).val, idx2_lt1 i⟩
    * Ideal.div 1 (Ideal.sqrt (V c main_v0_1 (ix2 (⟨(i 0).val, idx2_lt0 i⟩ : Fin 8192) (0 : Fin 1)) +ₑ 1))

/-- What point `t` writes back to the second output is block `t` of `G1_4`. -/
theorem flushed1_4_eq (c : Dev nD) (t : Fin cfg1.N) :
    (dat1 V c).flushed 4 t = ((cfg1.win 4).blk t).view.read (Elt Ideal) (G1_4 V c) := by
  show (cfg1.win 4).cut (grid1.coords t) ((dat1 V c).after 4 t) = _
  rw [after1_4]
  unfold out1_4
  rw [View.canon_unit_zero hz1]
  simp only [View.ld_unit_zero (S := S2048x512) hz1, View.ld_unit_zero (S := S512x512) hz1, View.ld_unit_zero (S := S2048x1) hz1]
  have hN : cfg1.N = 4 := N_1
  obtain ⟨-, -, -, -, -, -, -, -, e0, e1⟩ := idx_facts1 t
  funext y
  obtain ⟨p, q, rfl⟩ : ∃ (p : Fin 2048) (q : Fin 512), y = ix2 p q := ⟨y 0, y 1, eq_ix2 y⟩
  have hr : t.val * 2048 + p.val < 8192 := by have := t.isLt; omega
  show k1_pay2 (F := Ideal) (iblk1 V c 0 t) (iblk1 V c 1 t) (iblk1 V c 2 t) (ix2 p q) = G1_4 V c (((cfg1.win 4).blk t).view.emb (ix2 p q))
  have hemb : ((cfg1.win 4).blk t).view.emb (ix2 p q) = (ix2 (⟨t.val * 2048 + p.val, hr⟩ : Fin 8192) q : S8192x512.Idx) := by
    funext a; apply Fin.ext
    match a with
    | ⟨0, _⟩ => show win1_4.index t (0 : Fin 2) * 2048 + 1 * p.val = t.val * 2048 + p.val; omega
    | ⟨1, _⟩ => show win1_4.index t (1 : Fin 2) * 512 + 1 * q.val = q.val; omega
  rw [hemb, pay1_2_apply]
  show _ = prodT V c ⟨t.val * 2048 + p.val, hr⟩ q
    * Ideal.div 1 (Ideal.sqrt (V c main_v0_1 (ix2 (⟨t.val * 2048 + p.val, hr⟩ : Fin 8192) (0 : Fin 1)) +ₑ 1))
  unfold prodT
  rw [iblk1_2_apply V c t p ⟨t.val * 2048 + p.val, hr⟩ rfl]
  congr 1
  refine Finset.sum_congr rfl fun k _ => ?_
  rw [iblk1_0_apply V c t p k ⟨t.val * 2048 + p.val, hr⟩ rfl, iblk1_1_apply V c t k q]

/-- An index of the second output is in point `t`'s block iff each coordinate is in the block's range on its axis. -/
theorem mem_blk1_4 (t : Fin cfg1.N) (i : S8192x512.Idx) :
    i ∈ ((cfg1.win 4).blk t).view.set ↔ ∀ a : Fin 2, win1_4.index t a * S2048x512.size a ≤ (i a).val ∧ (i a).val < win1_4.index t a * S2048x512.size a + S2048x512.size a := by
  show i ∈ ((View.whole main_v1_1).slice (win1_4.rect t)).set ↔ _
  rw [View.set_slice_whole, Rect.mem_set_unit]
  exact Iff.rfl

/-- Every index of the second output is in the block of the point its row falls in. -/
theorem covered1_4 (i : S8192x512.Idx) :
    ∃ t : Fin cfg1.N, (cfg1.win 4).flush t = true ∧ i ∈ ((cfg1.win 4).blk t).view.set := by
  have hN : cfg1.N = 4 := N_1
  have hi0 : (i 0).val < 8192 := idx2_lt0 i
  have hi1 : (i 1).val < 512 := idx2_lt1 i
  obtain ⟨t, ht⟩ : ∃ t : Fin cfg1.N, t.val = (i 0).val / 2048 := ⟨⟨(i 0).val / 2048, by omega⟩, rfl⟩
  obtain ⟨-, -, -, -, -, -, -, -, e0, e1⟩ := idx_facts1 t
  refine ⟨t, flush1_4 t, ?_⟩
  rw [mem_blk1_4]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 512 ≤ (i 1).val ∧ (i 1).val < win1_4.index t (1 : Fin 2) * 512 + 512; omega

/-- The second output after the region is the scaled product. -/
theorem final1_4 (c : Dev nD) : (dat1 V c).arrAt 4 cfg1.N = G1_4 V c :=
  (dat1 V c).arrAt_eq_of_cover 4 (G1_4 V c) (fun t _ => flushed1_4_eq V c t) covered1_4

/-- THE SECOND OUTPUT, entry by entry: the product's entry times 1/sqrt(s(j) + 1), `s` the column of sums as the
    region finds it. -/
theorem ys_val (c : Dev nD) (j : Fin 8192) (d : Fin 512) :
    (dat1 V c).arrAt 4 cfg1.N (ix2 j d)
      = (∑ k : Fin 512, V c main_arg1 (ix2 j k) *ₑ V c main_arg3 (ix2 k d))
        * Ideal.div 1 (Ideal.sqrt (V c main_v0_1 (ix2 j (0 : Fin 1)) +ₑ 1)) :=
  congrFun (final1_4 V c) (ix2 j d)

end Cert.KernelIdeal.HandVal

end
-- ==== Proof.Val.R2Val.lean ====
/-
  REGION 2 at the ideal values: what the two output arrays hold after the region, entry by entry.

  The region walks the 4096 source rows in 8 blocks of 512. At block `t` it multiplies the 512×8192 block of rows of the
  adjacency copy by the whole 8192×512 scaled product, adds the 512×512 block of rows of the source features times the
  whole 512×512 weight (both products into the zero splat), and takes the positive part; with r(i) + 1 the block's entry of
  the column of row sums plus one, the first output gets the positive part times rsqrt(r(i) + 1), and the second output
  gets the TRANSPOSE of the positive part times 1/(r(i) + 1): its block is columns `512 t … 512 t + 511`. A block of rows
  of a product is the product of the block of rows, so every point writes its block of ONE function of the region-entry
  arrays, and the blocks tile each output.
-/
import proofs.«123106_g36129264894623_cont_8to1_b_1457_4_alg».proof.Proof.KI.R2
import proofs.«123106_g36129264894623_cont_8to1_b_1457_4_alg».proof.Proof.Val.ValLib

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

-- an array's entry is an extended real only after its buffer's element type is computed: the products and sums of
-- entries below name the extended reals' operations outright
local notation:65 a:65 " +ₑ " b:66 => @HAdd.hAdd EReal EReal EReal instHAdd a b
local notation:70 a:70 " *ₑ " b:71 => @HMul.hMul EReal EReal EReal instHMul a b

theorem hz2 : (![0, 0] : Fin 2 → Nat) = fun _ => 0 := funext fun a => by fin_cases a <;> rfl

/-! ## The payloads at an entry -/

/-- The column of row sums plus one, at row p. -/
theorem pay2_1_apply (v11 : FVec Ideal S512x1 .f32) (p : Fin 512) :
    k2_pay1 (F := Ideal) v11 (ix2 p (0 : Fin 1)) = v11 (ix2 p (0 : Fin 1)) + 1 := by
  unfold k2_pay1
  rw [addf_apply, shapeCast_self]
  show _ + Scalar.ofBits (F := Ideal) .f32 0x3F800000#32 = _
  rw [scalar_one_f32]

/-- The positive part of the two products' sum, at entry (p, d). -/
theorem pay2_2_apply (v0 : FVec Ideal S512x8192 .bf16) (v2 : FVec Ideal S8192x512 .bf16) (v5 v7 : FVec Ideal S512x512 .f32)
    (p d : Fin 512) :
    k2_pay2 (F := Ideal) v0 v2 v5 v7 (ix2 p d)
      = max ((∑ j : Fin 8192, v0 (ix2 p j) * v2 (ix2 j d)) + ∑ k : Fin 512, v5 (ix2 p k) * v7 (ix2 k d)) 0 := by
  have hm1 := matmul_plain_zero_apply dot_S512x8192_S8192x512_S512x512_1_0_0_1_n_n rfl v0 v2 p d
  have hm2 := matmul_plain_zero_apply dot_S512x512_S512x512_S512x512_1_0_0_1_n_n rfl
    (truncf .bf16 v5 bitsLt_bf16_f32) (truncf .bf16 v7 bitsLt_bf16_f32) p d
  unfold k2_pay2
  rw [maximumf_apply, addf_apply, shapeCast_self, shapeCast_self, hm1, hm2]
  show max _ (Scalar.ofBits (F := Ideal) .f32 0x00000000#32) = _
  rw [scalar_zero_f32]
  rfl

/-- The first stored block at entry (p, d): the positive part times rsqrt(r(p) + 1). -/
theorem pay2_3_apply (v0 : FVec Ideal S512x8192 .bf16) (v2 : FVec Ideal S8192x512 .bf16) (v5 v7 : FVec Ideal S512x512 .f32)
    (v11 : FVec Ideal S512x1 .f32) (p d : Fin 512) :
    k2_pay3 (F := Ideal) v0 v2 v5 v7 v11 (ix2 p d)
      = max ((∑ j : Fin 8192, v0 (ix2 p j) * v2 (ix2 j d)) + ∑ k : Fin 512, v5 (ix2 p k) * v7 (ix2 k d)) 0
        * Ideal.rsqrt (v11 (ix2 p (0 : Fin 1)) + 1) := by
  unfold k2_pay3
  rw [mulf_apply, broadcastTo_col_apply, pay2_2_apply]
  show _ * Ideal.rsqrt (k2_pay1 (F := Ideal) v11 (ix2 p (0 : Fin 1))) = _
  rw [pay2_1_apply]

/-- The second stored block, the transpose, at entry (d, p): the positive part at (p, d) times 1/(r(p) + 1). -/
theorem pay2_4_apply (v0 : FVec Ideal S512x8192 .bf16) (v2 : FVec Ideal S8192x512 .bf16) (v5 v7 : FVec Ideal S512x512 .f32)
    (v11 : FVec Ideal S512x1 .f32) (d p : Fin 512) :
    k2_pay4 (F := Ideal) v0 v2 v5 v7 v11 (ix2 d p)
      = max ((∑ j : Fin 8192, v0 (ix2 p j) * v2 (ix2 j d)) + ∑ k : Fin 512, v5 (ix2 p k) * v7 (ix2 k d)) 0
        * Ideal.div 1 (v11 (ix2 p (0 : Fin 1)) + 1) := by
  unfold k2_pay4
  rw [transpose_ix2_apply, truncf_apply, mulf_apply, broadcastTo_col_apply, pay2_2_apply]
  show _ * Ideal.div (Scalar.ofBits (F := Ideal) .f32 0x3F800000#32) (k2_pay1 (F := Ideal) v11 (ix2 p (0 : Fin 1))) = _
  rw [pay2_1_apply, scalar_one_f32]

/-! ## The blocks' places in the arrays -/

/-- The printed index maps, decided over the 8 points: the row-blocked windows are at block row `t`; the two whole
    operands' windows are their whole arrays; the transposed output's window is at column block `t`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = 0 ∧ win2_6.index t (1 : Fin 2) = t.val :=
  (by decide +kernel : ∀ t : Fin grid2.N, _)

/-- The adjacency's block at point `t` is its rows `512 t … 512 t + 511`. -/
theorem iblk2_0_apply (c : Dev nD) (t : Fin cfg2.N) (p : Fin 512) (j : Fin 8192) (r : Fin 4096)
    (hr : r.val = t.val * 512 + p.val) :
    (iblk2 V c 0 t : FVec Ideal S512x8192 .bf16) (ix2 p j) = (V c main_v0_2 : S4096x8192.Idx → EReal) (ix2 r j) := by
  obtain ⟨e0, e1, -⟩ := idx_facts2 t
  unfold iblk2
  rw [View.read_apply]
  show (V c main_v0_2 : S4096x8192.Idx → EReal) _ = _
  congr 1
  funext a
  apply Fin.ext
  match a with
  | ⟨0, _⟩ => show win2_0.index t (0 : Fin 2) * 512 + 1 * p.val = r.val; omega
  | ⟨1, _⟩ => show win2_0.index t (1 : Fin 2) * 8192 + 1 * j.val = j.val; omega

/-- The scaled product's block at every point is the whole array. -/
theorem iblk2_1_apply (c : Dev nD) (t : Fin cfg2.N) (j : Fin 8192) (d : Fin 512) :
    (iblk2 V c 1 t : FVec Ideal S8192x512 .bf16) (ix2 j d) = (V c main_v1_1 : S8192x512.Idx → EReal) (ix2 j d) := by
  obtain ⟨-, -, e0, e1, -⟩ := idx_facts2 t
  unfold iblk2
  rw [View.read_apply]
  show (V c main_v1_1 : S8192x512.Idx → EReal) _ = _
  congr 1
  funext a
  apply Fin.ext
  match a with
  | ⟨0, _⟩ => show win2_1.index t (0 : Fin 2) * 8192 + 1 * j.val = j.val; omega
  | ⟨1, _⟩ => show win2_1.index t (1 : Fin 2) * 512 + 1 * d.val = d.val; omega

/-- The source features' block at point `t` is its rows `512 t … 512 t + 511`. -/
theorem iblk2_2_apply (c : Dev nD) (t : Fin cfg2.N) (p : Fin 512) (k : Fin 512) (r : Fin 4096)
    (hr : r.val = t.val * 512 + p.val) :
    (iblk2 V c 2 t : FVec Ideal S512x512 .f32) (ix2 p k) = (V c main_arg0 : S4096x512.Idx → EReal) (ix2 r k) := by
  obtain ⟨-, -, -, -, e0, e1, -⟩ := idx_facts2 t
  unfold iblk2
  rw [View.read_apply]
  show (V c main_arg0 : S4096x512.Idx → EReal) _ = _
  congr 1
  funext a
  apply Fin.ext
  match a with
  | ⟨0, _⟩ => show win2_2.index t (0 : Fin 2) * 512 + 1 * p.val = r.val; omega
  | ⟨1, _⟩ => show win2_2.index t (1 : Fin 2) * 512 + 1 * k.val = k.val; omega

/-- The weight's block at every point is the whole array. -/
theorem iblk2_3_apply (c : Dev nD) (t : Fin cfg2.N) (k : Fin 512) (d : Fin 512) :
    (iblk2 V c 3 t : FVec Ideal S512x512 .f32) (ix2 k d) = (V c main_arg3 : S512x512.Idx → EReal) (ix2 k d) := by
  obtain ⟨-, -, -, -, -, -, e0, e1, -⟩ := idx_facts2 t
  unfold iblk2
  rw [View.read_apply]
  show (V c main_arg3 : S512x512.Idx → EReal) _ = _
  congr 1
  funext a
  apply Fin.ext
  match a with
  | ⟨0, _⟩ => show win2_3.index t (0 : Fin 2) * 512 + 1 * k.val = k.val; omega
  | ⟨1, _⟩ => show win2_3.index t (1 : Fin 2) * 512 + 1 * d.val = d.val; omega

/-- The column of row sums' block at point `t` is its rows `512 t … 512 t + 511`. -/
theorem iblk2_4_apply (c : Dev nD) (t : Fin cfg2.N) (p : Fin 512) (r : Fin 4096)
    (hr : r.val = t.val * 512 + p.val) :
    (iblk2 V c 4 t : FVec Ideal S512x1 .f32) (ix2 p (0 : Fin 1)) = (V c main_v0_0 : S4096x1.Idx → EReal) (ix2 r (0 : Fin 1)) := by
  obtain ⟨-, -, -, -, -, -, -, -, e0, e1, -⟩ := idx_facts2 t
  unfold iblk2
  rw [View.read_apply]
  show (V c main_v0_0 : S4096x1.Idx → EReal) _ = _
  congr 1
  funext a
  apply Fin.ext
  match a with
  | ⟨0, _⟩ => show win2_4.index t (0 : Fin 2) * 512 + 1 * p.val = r.val; omega
  | ⟨1, _⟩ => show win2_4.index t (1 : Fin 2) * 1 + 1 * 0 = 0; omega

/-! ## The accumulated sum, and the payloads on the blocks at a point -/

/-- The two products' sum at (i, d): the adjacency's row i against the scaled product's column d, plus the source
    features' row i against the weight's column d. -/
def acc2 (c : Dev nD) (i : Fin 4096) (d : Fin 512) : EReal :=
  (∑ j : Fin 8192, V c main_v0_2 (ix2 i j) *ₑ V c main_v1_1 (ix2 j d))
    + ∑ k : Fin 512, V c main_arg0 (ix2 i k) *ₑ V c main_arg3 (ix2 k d)

/-- On the blocks at point `t`, the two products' sum at (p, d) is `acc2` at row `512 t + p`. -/
theorem acc_blocks (c : Dev nD) (t : Fin cfg2.N) (p d : Fin 512) (r : Fin 4096) (hr : r.val = t.val * 512 + p.val) :
    (∑ j : Fin 8192, (iblk2 V c 0 t : FVec Ideal S512x8192 .bf16) (ix2 p j) *ₑ (iblk2 V c 1 t : FVec Ideal S8192x512 .bf16) (ix2 j d))
      + ∑ k : Fin 512, (iblk2 V c 2 t : FVec Ideal S512x512 .f32) (ix2 p k) *ₑ (iblk2 V c 3 t : FVec Ideal S512x512 .f32) (ix2 k d)
      = acc2 V c r d := by
  unfold acc2
  congr 1
  · refine Finset.sum_congr rfl fun j _ => ?_
    rw [iblk2_0_apply V c t p j r hr, iblk2_1_apply V c t j d]
  · refine Finset.sum_congr rfl fun k _ => ?_
    rw [iblk2_2_apply V c t p k r hr, iblk2_3_apply V c t k d]

/-- The positive part times a factor depends on the accumulated sum only through its value. -/
theorem max_mul_congr {A B R : EReal} (h : A = B) : max A 0 * R = max B 0 * R := by rw [h]

/-! ## The first output -/

/-- The first output's entry (i, d). -/
def xOut (c : Dev nD) (i : Fin 4096) (d : Fin 512) : EReal :=
  max (acc2 V c i d) 0 * Ideal.rsqrt (V c main_v0_0 (ix2 i (0 : Fin 1)) +ₑ 1)

/-- The first output as one function of the region-entry arrays. -/
def G2_5 (c : Dev nD) : S4096x512.Idx → EReal := fun i => xOut V c ⟨(i 0).val, idx2_lt0 i⟩ ⟨(i 1).val, idx2_lt1 i⟩

/-- What point `t` writes back to the first output is block `t` of `G2_5`. -/
theorem flushed2_5_eq (c : Dev nD) (t : Fin cfg2.N) :
    (dat2 V c).flushed 5 t = ((cfg2.win 5).blk t).view.read (Elt Ideal) (G2_5 V c) := by
  show (cfg2.win 5).cut (grid2.coords t) ((dat2 V c).after 5 t) = _
  rw [after2_5]
  unfold out2_5
  rw [View.canon_unit_zero hz2]
  simp only [View.ld_unit_zero (S := S512x8192) hz2, View.ld_unit_zero (S := S8192x512) hz2,
    View.ld_unit_zero (S := S512x512) hz2, View.ld_unit_zero (S := S512x1) hz2]
  have hN : cfg2.N = 8 := N_2
  obtain ⟨-, -, -, -, -, -, -, -, -, -, e0, e1, -⟩ := idx_facts2 t
  funext y
  obtain ⟨p, q, rfl⟩ : ∃ (p : Fin 512) (q : Fin 512), y = ix2 p q := ⟨y 0, y 1, eq_ix2 y⟩
  have hr : t.val * 512 + p.val < 4096 := by have := t.isLt; omega
  show k2_pay3 (F := Ideal) (iblk2 V c 0 t) (iblk2 V c 1 t) (iblk2 V c 2 t) (iblk2 V c 3 t) (iblk2 V c 4 t) (ix2 p q)
    = G2_5 V c (((cfg2.win 5).blk t).view.emb (ix2 p q))
  have hemb : ((cfg2.win 5).blk t).view.emb (ix2 p q) = (ix2 (⟨t.val * 512 + p.val, hr⟩ : Fin 4096) q : S4096x512.Idx) := by
    funext a; apply Fin.ext
    match a with
    | ⟨0, _⟩ => show win2_5.index t (0 : Fin 2) * 512 + 1 * p.val = t.val * 512 + p.val; omega
    | ⟨1, _⟩ => show win2_5.index t (1 : Fin 2) * 512 + 1 * q.val = q.val; omega
  rw [hemb, pay2_3_apply, iblk2_4_apply V c t p ⟨t.val * 512 + p.val, hr⟩ rfl]
  show _ = xOut V c ⟨t.val * 512 + p.val, hr⟩ q
  unfold xOut
  exact max_mul_congr (acc_blocks V c t p q ⟨t.val * 512 + p.val, hr⟩ rfl)

/-- An index of the first output is in point `t`'s block iff each coordinate is in the block's range on its axis. -/
theorem mem_blk2_5 (t : Fin cfg2.N) (i : S4096x512.Idx) :
    i ∈ ((cfg2.win 5).blk t).view.set ↔ ∀ a : Fin 2, win2_5.index t a * S512x512.size a ≤ (i a).val ∧ (i a).val < win2_5.index t a * S512x512.size a + S512x512.size a := by
  show i ∈ ((View.whole main_v2_0).slice (win2_5.rect t)).set ↔ _
  rw [View.set_slice_whole, Rect.mem_set_unit]
  exact Iff.rfl

/-- Every index of the first output is in the block of the point its row falls in: row `r` in block `r / 512`. -/
theorem covered2_5 (i : S4096x512.Idx) :
    ∃ t : Fin cfg2.N, (cfg2.win 5).flush t = true ∧ i ∈ ((cfg2.win 5).blk t).view.set := by
  have hN : cfg2.N = 8 := N_2
  have hi0 : (i 0).val < 4096 := idx2_lt0 i
  have hi1 : (i 1).val < 512 := idx2_lt1 i
  obtain ⟨t, ht⟩ : ∃ t : Fin cfg2.N, t.val = (i 0).val / 512 := ⟨⟨(i 0).val / 512, by omega⟩, rfl⟩
  obtain ⟨-, -, -, -, -, -, -, -, -, -, e0, e1, -⟩ := idx_facts2 t
  refine ⟨t, flush2_5 t, ?_⟩
  rw [mem_blk2_5]
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 512 ≤ (i 1).val ∧ (i 1).val < win2_5.index t (1 : Fin 2) * 512 + 512; omega

/-- The first output after the region. -/
theorem final2_5 (c : Dev nD) : (dat2 V c).arrAt 5 cfg2.N = G2_5 V c :=
  (dat2 V c).arrAt_eq_of_cover 5 (G2_5 V c) (fun t _ => flushed2_5_eq V c t) covered2_5

/-- THE FIRST OUTPUT, entry by entry: the positive part of the accumulated sum times rsqrt(r(i) + 1). -/
theorem x_val (c : Dev nD) (i : Fin 4096) (d : Fin 512) :
    (dat2 V c).arrAt 5 cfg2.N (ix2 i d)
      = max (acc2 V c i d) 0 * Ideal.rsqrt (V c main_v0_0 (ix2 i (0 : Fin 1)) +ₑ 1) :=
  congrFun (final2_5 V c) (ix2 i d)

/-! ## The second output: the transpose -/

/-- The second output's entry (d, i). -/
def xsT (c : Dev nD) (d : Fin 512) (i : Fin 4096) : EReal :=
  max (acc2 V c i d) 0 * Ideal.div 1 (V c main_v0_0 (ix2 i (0 : Fin 1)) +ₑ 1)

/-- The second output as one function of the region-entry arrays. -/
def G2_6 (c : Dev nD) : S512x4096.Idx → EReal := fun i => xsT V c ⟨(i 0).val, idx2_lt0 i⟩ ⟨(i 1).val, idx2_lt1 i⟩

/-- What point `t` writes back to the second output is block `t` of `G2_6`. -/
theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6]
  unfold out2_6
  rw [View.canon_unit_zero hz2]
  simp only [View.ld_unit_zero (S := S512x8192) hz2, View.ld_unit_zero (S := S8192x512) hz2,
    View.ld_unit_zero (S := S512x512) hz2, View.ld_unit_zero (S := S512x1) hz2]
  have hN : cfg2.N = 8 := N_2
  obtain ⟨-, -, -, -, -, -, -, -, -, -, -, -, e0, e1⟩ := idx_facts2 t
  funext y
  obtain ⟨q, p, rfl⟩ : ∃ (q : Fin 512) (p : Fin 512), y = ix2 q p := ⟨y 0, y 1, eq_ix2 y⟩
  have hr : t.val * 512 + p.val < 4096 := by have := t.isLt; omega
  show k2_pay4 (F := Ideal) (iblk2 V c 0 t) (iblk2 V c 1 t) (iblk2 V c 2 t) (iblk2 V c 3 t) (iblk2 V c 4 t) (ix2 q p)
    = G2_6 V c (((cfg2.win 6).blk t).view.emb (ix2 q p))
  have hemb : ((cfg2.win 6).blk t).view.emb (ix2 q p) = (ix2 q (⟨t.val * 512 + p.val, hr⟩ : Fin 4096) : S512x4096.Idx) := by
    funext a; apply Fin.ext
    match a with
    | ⟨0, _⟩ => show win2_6.index t (0 : Fin 2) * 512 + 1 * q.val = q.val; omega
    | ⟨1, _⟩ => show win2_6.index t (1 : Fin 2) * 512 + 1 * p.val = t.val * 512 + p.val; omega
  rw [hemb, pay2_4_apply, iblk2_4_apply V c t p ⟨t.val * 512 + p.val, hr⟩ rfl]
  show _ = xsT V c q ⟨t.val * 512 + p.val, hr⟩
  unfold xsT
  exact max_mul_congr (acc_blocks V c t p q ⟨t.val * 512 + p.val, hr⟩ rfl)

/-- An index of the second output is in point `t`'s block iff each coordinate is in the block's range on its axis. -/
theorem mem_blk2_6 (t : Fin cfg2.N) (i : S512x4096.Idx) :
    i ∈ ((cfg2.win 6).blk t).view.set ↔ ∀ a : Fin 2, win2_6.index t a * S512x512.size a ≤ (i a).val ∧ (i a).val < win2_6.index t a * S512x512.size a + S512x512.size a := by
  show i ∈ ((View.whole main_v2_1).slice (win2_6.rect t)).set ↔ _
  rw [View.set_slice_whole, Rect.mem_set_unit]
  exact Iff.rfl

/-- Every index of the second output is in the block of the point its column falls in: column `r` in block `r / 512`. -/
theorem covered2_6 (i : S512x4096.Idx) :
    ∃ t : Fin cfg2.N, (cfg2.win 6).flush t = true ∧ i ∈ ((cfg2.win 6).blk t).view.set := by
  have hN : cfg2.N = 8 := N_2
  have hi0 : (i 0).val < 512 := idx2_lt0 i
  have hi1 : (i 1).val < 4096 := idx2_lt1 i
  obtain ⟨t, ht⟩ : ∃ t : Fin cfg2.N, t.val = (i 1).val / 512 := ⟨⟨(i 1).val / 512, by omega⟩, rfl⟩
  obtain ⟨-, -, -, -, -, -, -, -, -, -, -, -, e0, e1⟩ := idx_facts2 t
  refine ⟨t, flush2_6 t, ?_⟩
  rw [mem_blk2_6]
  intro a
  match a with
  | ⟨0, _⟩ => show win2_6.index t (0 : Fin 2) * 512 ≤ (i 0).val ∧ (i 0).val < win2_6.index t (0 : Fin 2) * 512 + 512; omega
  | ⟨1, _⟩ => show win2_6.index t (1 : Fin 2) * 512 ≤ (i 1).val ∧ (i 1).val < win2_6.index t (1 : Fin 2) * 512 + 512; omega

/-- The second output after the region. -/
theorem final2_6 (c : Dev nD) : (dat2 V c).arrAt 6 cfg2.N = G2_6 V c :=
  (dat2 V c).arrAt_eq_of_cover 6 (G2_6 V c) (fun t _ => flushed2_6_eq V c t) covered2_6

/-- THE SECOND OUTPUT, entry by entry: at (d, i), the positive part of the accumulated sum at (i, d) times 1/(r(i) + 1). -/
theorem xst_val (c : Dev nD) (d : Fin 512) (i : Fin 4096) :
    (dat2 V c).arrAt 6 cfg2.N (ix2 d i)
      = max (acc2 V c i d) 0 * Ideal.div 1 (V c main_v0_0 (ix2 i (0 : Fin 1)) +ₑ 1) :=
  congrFun (final2_6 V c) (ix2 d i)

end Cert.KernelIdeal.HandVal

end
-- ==== Proof.Val.R3Val.lean ====
/-
  REGION 3 at the ideal values: what the output array holds after the region, entry by entry.

  The region walks the 8192 target rows in 8 blocks of 1024. At block `t` it multiplies the whole 512×4096 left operand
  by the 4096×1024 block of columns `1024 t … 1024 t + 1023` of the adjacency copy (a product into the zero splat),
  transposes the 512×1024 result, adds it to the block of rows of the earlier product, takes the positive part, and
  scales row `j` by 1/sqrt(s(j) + 1), `s` the column of sums. Entry (j, d) of the transposed product is the sum over
  the 4096 source rows i of left(d, i)·adjacency(i, j): it involves column j of the adjacency only, so every point writes
  its block of ONE function of the region-entry arrays, and the blocks tile the output.
-/
import proofs.«123106_g36129264894623_cont_8to1_b_1457_4_alg».proof.Proof.KI.R3
import proofs.«123106_g36129264894623_cont_8to1_b_1457_4_alg».proof.Proof.Val.ValLib

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

-- an array's entry is an extended real only after its buffer's element type is computed: the products and sums of
-- entries below name the extended reals' operations outright
local notation:65 a:65 " +ₑ " b:66 => @HAdd.hAdd EReal EReal EReal instHAdd a b
local notation:70 a:70 " *ₑ " b:71 => @HMul.hMul EReal EReal EReal instHMul a b

theorem hz3 : (![0, 0] : Fin 2 → Nat) = fun _ => 0 := funext fun a => by fin_cases a <;> rfl

/-! ## The payload at an entry -/

/-- The stored block at entry (p, d): the earlier product's (p, d) plus the sum over i of left(d, i)·adjacency(i, p),
    its positive part, times 1/sqrt(s(p) + 1). -/
theorem pay3_1_apply (v0 : FVec Ideal S512x4096 .bf16) (v2 : FVec Ideal S4096x1024 .bf16) (v6 : FVec Ideal S1024x1 .f32)
    (v11 : FVec Ideal S1024x512 .f32) (p : Fin 1024) (d : Fin 512) :
    k3_pay1 (F := Ideal) v0 v2 v6 v11 (ix2 p d)
      = max (v11 (ix2 p d) + ∑ i : Fin 4096, v0 (ix2 d i) * v2 (ix2 i p)) 0
        * Ideal.div 1 (Ideal.sqrt (v6 (ix2 p (0 : Fin 1)) + 1)) := by
  have hm := matmul_plain_zero_apply dot_S512x4096_S4096x1024_S512x1024_1_0_0_1_n_n rfl v0 v2 d p
  unfold k3_pay1
  rw [mulf_apply, maximumf_apply, addf_apply, broadcastTo_col_apply, transpose_ix2_apply, shapeCast_self, shapeCast_self,
    shapeCast_self, shapeCast_self, hm]
  show max (_ + _) (Scalar.ofBits (F := Ideal) .f32 0x00000000#32)
      * Ideal.div (Scalar.ofBits (F := Ideal) .f32 0x3F800000#32)
        (Ideal.sqrt (v6 (ix2 p (0 : Fin 1)) + Scalar.ofBits (F := Ideal) .f32 0x3F800000#32)) = _
  rw [scalar_one_f32, scalar_zero_f32]

/-! ## The blocks' places in the arrays -/

/-- The printed index maps, decided over the 8 points: the adjacency's window is at column block `t`; the row-blocked
    windows are at block row `t`; the left operand's window is its whole array. -/
theorem idx_facts3 : ∀ t : Fin cfg3.N, win3_0.index t (0 : Fin 2) = 0 ∧ win3_0.index t (1 : Fin 2) = t.val
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The adjacency's block at point `t` is its columns `1024 t … 1024 t + 1023`. -/
theorem iblk3_0_apply (c : Dev nD) (t : Fin cfg3.N) (i : Fin 4096) (p : Fin 1024) (r : Fin 8192)
    (hr : r.val = t.val * 1024 + p.val) :
    (iblk3 V c 0 t : FVec Ideal S4096x1024 .bf16) (ix2 i p) = (V c main_v0_2 : S4096x8192.Idx → EReal) (ix2 i r) := by
  obtain ⟨e0, e1, -⟩ := idx_facts3 t
  unfold iblk3
  rw [View.read_apply]
  show (V c main_v0_2 : S4096x8192.Idx → EReal) _ = _
  congr 1
  funext a
  apply Fin.ext
  match a with
  | ⟨0, _⟩ => show win3_0.index t (0 : Fin 2) * 4096 + 1 * i.val = i.val; omega
  | ⟨1, _⟩ => show win3_0.index t (1 : Fin 2) * 1024 + 1 * p.val = r.val; omega

/-- The left operand's block at every point is the whole array. -/
theorem iblk3_1_apply (c : Dev nD) (t : Fin cfg3.N) (d : Fin 512) (i : Fin 4096) :
    (iblk3 V c 1 t : FVec Ideal S512x4096 .bf16) (ix2 d i) = (V c main_v2_1 : S512x4096.Idx → EReal) (ix2 d i) := by
  obtain ⟨-, -, e0, e1, -⟩ := idx_facts3 t
  unfold iblk3
  rw [View.read_apply]
  show (V c main_v2_1 : S512x4096.Idx → EReal) _ = _
  congr 1
  funext a
  apply Fin.ext
  match a with
  | ⟨0, _⟩ => show win3_1.index t (0 : Fin 2) * 512 + 1 * d.val = d.val; omega
  | ⟨1, _⟩ => show win3_1.index t (1 : Fin 2) * 4096 + 1 * i.val = i.val; omega

/-- The earlier product's block at point `t` is its rows `1024 t … 1024 t + 1023`. -/
theorem iblk3_2_apply (c : Dev nD) (t : Fin cfg3.N) (p : Fin 1024) (d : Fin 512) (r : Fin 8192)
    (hr : r.val = t.val * 1024 + p.val) :
    (iblk3 V c 2 t : FVec Ideal S1024x512 .f32) (ix2 p d) = (V c main_v1_0 : S8192x512.Idx → EReal) (ix2 r d) := by
  obtain ⟨-, -, -, -, e0, e1, -⟩ := idx_facts3 t
  unfold iblk3
  rw [View.read_apply]
  show (V c main_v1_0 : S8192x512.Idx → EReal) _ = _
  congr 1
  funext a
  apply Fin.ext
  match a with
  | ⟨0, _⟩ => show win3_2.index t (0 : Fin 2) * 1024 + 1 * p.val = r.val; omega
  | ⟨1, _⟩ => show win3_2.index t (1 : Fin 2) * 512 + 1 * d.val = d.val; omega

/-- The column of sums' block at point `t` is its rows `1024 t … 1024 t + 1023`. -/
theorem iblk3_3_apply (c : Dev nD) (t : Fin cfg3.N) (p : Fin 1024) (r : Fin 8192)
    (hr : r.val = t.val * 1024 + p.val) :
    (iblk3 V c 3 t : FVec Ideal S1024x1 .f32) (ix2 p (0 : Fin 1)) = (V c main_v0_1 : S8192x1.Idx → EReal) (ix2 r (0 : Fin 1)) := by
  obtain ⟨-, -, -, -, -, -, e0, e1, -⟩ := idx_facts3 t
  unfold iblk3
  rw [View.read_apply]
  show (V c main_v0_1 : S8192x1.Idx → EReal) _ = _
  congr 1
  funext a
  apply Fin.ext
  match a with
  | ⟨0, _⟩ => show win3_3.index t (0 : Fin 2) * 1024 + 1 * p.val = r.val; omega
  | ⟨1, _⟩ => show win3_3.index t (1 : Fin 2) * 1 + 1 * 0 = 0; omega

/-! ## The output -/

/-- The output's entry (j, d) as a function of the region-entry arrays. -/
def yOut (c : Dev nD) (j : Fin 8192) (d : Fin 512) : EReal :=
  max (V c main_v1_0 (ix2 j d) +ₑ ∑ i : Fin 4096, V c main_v2_1 (ix2 d i) *ₑ V c main_v0_2 (ix2 i j)) 0
    * Ideal.div 1 (Ideal.sqrt (V c main_v0_1 (ix2 j (0 : Fin 1)) +ₑ 1))

/-- The output as one function of the region-entry arrays. -/
def G3_4 (c : Dev nD) : S8192x512.Idx → EReal := fun i => yOut V c ⟨(i 0).val, idx2_lt0 i⟩ ⟨(i 1).val, idx2_lt1 i⟩

/-- What point `t` writes back to the output is block `t` of `G3_4`. -/
theorem flushed3_4_eq (c : Dev nD) (t : Fin cfg3.N) :
    (dat3 V c).flushed 4 t = ((cfg3.win 4).blk t).view.read (Elt Ideal) (G3_4 V c) := by
  show (cfg3.win 4).cut (grid3.coords t) ((dat3 V c).after 4 t) = _
  rw [after3_4]
  unfold out3_4
  rw [View.canon_unit_zero hz3]
  simp only [View.ld_unit_zero (S := S4096x1024) hz3, View.ld_unit_zero (S := S512x4096) hz3,
    View.ld_unit_zero (S := S1024x512) hz3, View.ld_unit_zero (S := S1024x1) hz3]
  have hN : cfg3.N = 8 := N_3
  obtain ⟨-, -, -, -, -, -, -, -, e0, e1⟩ := idx_facts3 t
  funext y
  obtain ⟨p, q, rfl⟩ : ∃ (p : Fin 1024) (q : Fin 512), y = ix2 p q := ⟨y 0, y 1, eq_ix2 y⟩
  have hr : t.val * 1024 + p.val < 8192 := by have := t.isLt; omega
  show k3_pay1 (F := Ideal) (iblk3 V c 1 t) (iblk3 V c 0 t) (iblk3 V c 3 t) (iblk3 V c 2 t) (ix2 p q)
    = G3_4 V c (((cfg3.win 4).blk t).view.emb (ix2 p q))
  have hemb : ((cfg3.win 4).blk t).view.emb (ix2 p q) = (ix2 (⟨t.val * 1024 + p.val, hr⟩ : Fin 8192) q : S8192x512.Idx) := by
    funext a; apply Fin.ext
    match a with
    | ⟨0, _⟩ => show win3_4.index t (0 : Fin 2) * 1024 + 1 * p.val = t.val * 1024 + p.val; omega
    | ⟨1, _⟩ => show win3_4.index t (1 : Fin 2) * 512 + 1 * q.val = q.val; omega
  rw [hemb, pay3_1_apply]
  show _ = yOut V c ⟨t.val * 1024 + p.val, hr⟩ q
  unfold yOut
  rw [iblk3_3_apply V c t p ⟨t.val * 1024 + p.val, hr⟩ rfl, iblk3_2_apply V c t p q ⟨t.val * 1024 + p.val, hr⟩ rfl]
  congr 3
  refine Finset.sum_congr rfl fun i _ => ?_
  rw [iblk3_1_apply V c t q i, iblk3_0_apply V c t i p ⟨t.val * 1024 + p.val, hr⟩ rfl]

/-- An index of the output is in point `t`'s block iff each coordinate is in the block's range on its axis. -/
theorem mem_blk3_4 (t : Fin cfg3.N) (i : S8192x512.Idx) :
    i ∈ ((cfg3.win 4).blk t).view.set ↔ ∀ a : Fin 2, win3_4.index t a * S1024x512.size a ≤ (i a).val ∧ (i a).val < win3_4.index t a * S1024x512.size a + S1024x512.size a := by
  show i ∈ ((View.whole main_v3).slice (win3_4.rect t)).set ↔ _
  rw [View.set_slice_whole, Rect.mem_set_unit]
  exact Iff.rfl

/-- Every index of the output is in the block of the point its row falls in: row `r` in block `r / 1024`. -/
theorem covered3_4 (i : S8192x512.Idx) :
    ∃ t : Fin cfg3.N, (cfg3.win 4).flush t = true ∧ i ∈ ((cfg3.win 4).blk t).view.set := by
  have hN : cfg3.N = 8 := N_3
  have hi0 : (i 0).val < 8192 := idx2_lt0 i
  have hi1 : (i 1).val < 512 := idx2_lt1 i
  obtain ⟨t, ht⟩ : ∃ t : Fin cfg3.N, t.val = (i 0).val / 1024 := ⟨⟨(i 0).val / 1024, by omega⟩, rfl⟩
  obtain ⟨-, -, -, -, -, -, -, -, e0, e1⟩ := idx_facts3 t
  refine ⟨t, flush3_4 t, ?_⟩
  rw [mem_blk3_4]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 512 ≤ (i 1).val ∧ (i 1).val < win3_4.index t (1 : Fin 2) * 512 + 512; omega

/-- The output after the region. -/
theorem final3_4 (c : Dev nD) : (dat3 V c).arrAt 4 cfg3.N = G3_4 V c :=
  (dat3 V c).arrAt_eq_of_cover 4 (G3_4 V c) (fun t _ => flushed3_4_eq V c t) covered3_4

/-- THE OUTPUT, entry by entry, from the arrays as the region finds them. -/
theorem y_val (c : Dev nD) (j : Fin 8192) (d : Fin 512) :
    (dat3 V c).arrAt 4 cfg3.N (ix2 j d)
      = max (V c main_v1_0 (ix2 j d) +ₑ ∑ i : Fin 4096, V c main_v2_1 (ix2 d i) *ₑ V c main_v0_2 (ix2 i j)) 0
        * Ideal.div 1 (Ideal.sqrt (V c main_v0_1 (ix2 j (0 : Fin 1)) +ₑ 1)) :=
  congrFun (final3_4 V c) (ix2 j d)

end Cert.KernelIdeal.HandVal

end
-- ==== Proof.Val.Compose.lean ====
/-
  The kernel's two results as the closed formulas `Cert.Spec.Kx` / `Cert.Spec.Ky` of the argument arrays.

  Each launch's value lemma reads its output arrays from the buffers the launch is entered with; here those buffers
  are followed back through the four boundaries to the arguments: the degree pass leaves the adjacency's row and
  column sums and its copy; the target-side product launch leaves `y0 = u·w` and `ys = y0 · (1/√(colsum+1))`; the
  source-side aggregation launch leaves the first result and the scaled positive part, transposed; the last launch
  leaves the second result.
-/
import proofs.«123106_g36129264894623_cont_8to1_b_1457_4_alg».proof.Proof.KI.Run
import proofs.«123106_g36129264894623_cont_8to1_b_1457_4_alg».proof.Proof.Val.R0Val
import proofs.«123106_g36129264894623_cont_8to1_b_1457_4_alg».proof.Proof.Val.R1Val
import proofs.«123106_g36129264894623_cont_8to1_b_1457_4_alg».proof.Proof.Val.R2Val
import proofs.«123106_g36129264894623_cont_8to1_b_1457_4_alg».proof.Proof.Val.R3Val
import proofs.«123106_g36129264894623_cont_8to1_b_1457_4_alg».proof.Proof.Spec.KSpec
import Idealize.ShloMosaic.Lib.ValueIdx

set_option maxRecDepth 16384

noncomputable section

namespace Cert.KernelIdeal.HandVal

open Idealize.ShloMosaic Idealize.ShloMosaic.TcCoe Idealize.SL.Sem
open Idealize.ShloMosaic.ValueIdx
open Idealize.ShloMosaic.Pipeline (Dat RDat)
open Cert.KernelIdeal Cert.KernelIdeal.Gen Cert.KernelIdeal.Hand

-- the extended reals' own sum and product, for entries whose type is `EReal` only after unfolding the buffer's type
local notation:65 a:65 " +ₑ " b:66 => @HAdd.hAdd EReal EReal EReal instHAdd a b
local notation:70 a:70 " *ₑ " b:71 => @HMul.hMul EReal EReal EReal instHMul a b

variable (m : (ℓ : Loc nD τ sig) → Buf (Elt Ideal) ℓ) (c : Dev nD)

/-- The arguments by coordinates. -/
abbrev sA : Fin 4096 → Fin 512 → EReal := fun i k => m ((c : Thread nD τ).loc main_arg0) (ix2 i k)
abbrev uA : Fin 8192 → Fin 512 → EReal := fun j k => m ((c : Thread nD τ).loc main_arg1) (ix2 j k)
abbrev aA : Fin 4096 → Fin 8192 → EReal := fun i j => m ((c : Thread nD τ).loc main_arg2) (ix2 i j)
abbrev wA : Fin 512 → Fin 512 → EReal := fun k d => m ((c : Thread nD τ).loc main_arg3) (ix2 k d)

/-! ## After the degree pass -/

theorem V1_rowsum (r : Fin 4096) : V1 m c main_v0_0 (ix2 r (0 : Fin 1)) = Cert.Spec.rowsum (aA m c) r :=
  (congrFun (W1_arr m c 1) _).trans (final0_row (V0 m) c r)
theorem V1_colsum (j : Fin 8192) : V1 m c main_v0_1 (ix2 j (0 : Fin 1)) = Cert.Spec.colsum (aA m c) j :=
  (congrFun (W1_arr m c 2) _).trans (final0_col (V0 m) c j)
theorem V1_copy (p : Fin 4096) (q : Fin 8192) : V1 m c main_v0_2 (ix2 p q) = aA m c p q :=
  (congrFun (W1_arr m c 3) _).trans (final0_copy (V0 m) c p q)
theorem V1_arg0 : V1 m c main_arg0 = m ((c : Thread nD τ).loc main_arg0) := W1_of_ne m c main_arg0 (by decide)
theorem V1_arg1 : V1 m c main_arg1 = m ((c : Thread nD τ).loc main_arg1) := W1_of_ne m c main_arg1 (by decide)
theorem V1_arg3 : V1 m c main_arg3 = m ((c : Thread nD τ).loc main_arg3) := W1_of_ne m c main_arg3 (by decide)

/-! ## After the target-side product launch -/

theorem V2_y0 (j : Fin 8192) (d : Fin 512) : V2 m c main_v1_0 (ix2 j d) = Cert.Spec.y0 (uA m c) (wA m c) j d := by
  refine (congrFun (W2_arr m c 3) _).trans ?_
  rw [y0_val (V1 m) c j d, V1_arg1, V1_arg3]; rfl
theorem V2_ys (j : Fin 8192) (d : Fin 512) : V2 m c main_v1_1 (ix2 j d) = Cert.Spec.ys (uA m c) (aA m c) (wA m c) j d := by
  refine (congrFun (W2_arr m c 4) _).trans ?_
  rw [ys_val (V1 m) c j d, V1_arg1, V1_arg3, V1_colsum]; rfl
theorem V2_rowsum (r : Fin 4096) : V2 m c main_v0_0 (ix2 r (0 : Fin 1)) = Cert.Spec.rowsum (aA m c) r :=
  (congrFun (W2_of_ne m c main_v0_0 (by decide)) _).trans (V1_rowsum m c r)
theorem V2_colsum (j : Fin 8192) : V2 m c main_v0_1 (ix2 j (0 : Fin 1)) = Cert.Spec.colsum (aA m c) j :=
  (congrFun ((W2_arr m c 2).trans (((dat1 (V1 m) c).arrAt_in 2 rfl _).trans (A_eq1 (V1 m) c 2))) _).trans (V1_colsum m c j)
theorem V2_copy (p : Fin 4096) (q : Fin 8192) : V2 m c main_v0_2 (ix2 p q) = aA m c p q :=
  (congrFun (W2_of_ne m c main_v0_2 (by decide)) _).trans (V1_copy m c p q)
theorem V2_arg0 : V2 m c main_arg0 = m ((c : Thread nD τ).loc main_arg0) := (W2_of_ne m c main_arg0 (by decide)).trans (V1_arg0 m c)
theorem V2_arg3 : V2 m c main_arg3 = m ((c : Thread nD τ).loc main_arg3) :=
  ((W2_arr m c 1).trans (((dat1 (V1 m) c).arrAt_in 1 rfl _).trans (A_eq1 (V1 m) c 1))).trans (V1_arg3 m c)

/-! ## The first result -/

/-- The aggregated pre-activation, from the buffers the launch is entered with. -/
theorem acc2_eq (i : Fin 4096) (d : Fin 512) : acc2 (V2 m) c i d = Cert.Spec.acc (sA m c) (uA m c) (aA m c) (wA m c) i d := by
  have hj : ∀ j : Fin 8192, V2 m c main_v0_2 (ix2 i j) *ₑ V2 m c main_v1_1 (ix2 j d)
      = aA m c i j * Cert.Spec.ys (uA m c) (aA m c) (wA m c) j d := fun j => by rw [V2_copy, V2_ys]
  have hk : ∀ k : Fin 512, V2 m c main_arg0 (ix2 i k) *ₑ V2 m c main_arg3 (ix2 k d) = sA m c i k * wA m c k d :=
    fun k => by rw [V2_arg0, V2_arg3]
  exact (congrArg₂ (fun A B : EReal => A + B) (Finset.sum_congr rfl fun j _ => hj j) (Finset.sum_congr rfl fun k _ => hk k)).trans rfl

/-- The squared source degree factor, from the buffers the launch is entered with. -/
theorem rs2_eq (i : Fin 4096) : V2 m c main_v0_0 (ix2 i (0 : Fin 1)) +ₑ 1 = Cert.Spec.rs2 (aA m c) i := by
  rw [V2_rowsum]; rfl

theorem kx_val (i : Fin 4096) (d : Fin 512) :
    (dat2 (V2 m) c).arrAt 5 cfg2.N (ix2 i d) = Cert.Spec.Kx (sA m c) (uA m c) (aA m c) (wA m c) i d := by
  rw [x_val (V2 m) c i d]
  exact (congrArg₂ (fun A B : EReal => max A 0 * Ideal.rsqrt B) (acc2_eq m c i d) (rs2_eq m c i)).trans rfl

/-! ## After the source-side aggregation launch -/

theorem V3_xst (d : Fin 512) (i : Fin 4096) : V3 m c main_v2_1 (ix2 d i) = Cert.Spec.xs (sA m c) (uA m c) (aA m c) (wA m c) i d := by
  refine (congrFun (W3_arr m c 6) _).trans ?_
  rw [xst_val (V2 m) c d i]
  exact (congrArg₂ (fun A B : EReal => max A 0 * Ideal.div 1 B) (acc2_eq m c i d) (rs2_eq m c i)).trans rfl
theorem V3_y0 (j : Fin 8192) (d : Fin 512) : V3 m c main_v1_0 (ix2 j d) = Cert.Spec.y0 (uA m c) (wA m c) j d :=
  (congrFun (W3_of_ne m c main_v1_0 (by decide)) _).trans (V2_y0 m c j d)
theorem V3_copy (p : Fin 4096) (q : Fin 8192) : V3 m c main_v0_2 (ix2 p q) = aA m c p q :=
  (congrFun ((W3_arr m c 0).trans (((dat2 (V2 m) c).arrAt_in 0 rfl _).trans (A_eq2 (V2 m) c 0))) _).trans (V2_copy m c p q)
theorem V3_colsum (j : Fin 8192) : V3 m c main_v0_1 (ix2 j (0 : Fin 1)) = Cert.Spec.colsum (aA m c) j :=
  (congrFun (W3_of_ne m c main_v0_1 (by decide)) _).trans (V2_colsum m c j)

/-! ## The second result -/

theorem ky_val (j : Fin 8192) (d : Fin 512) :
    (dat3 (V3 m) c).arrAt 4 cfg3.N (ix2 j d) = Cert.Spec.Ky (sA m c) (uA m c) (aA m c) (wA m c) j d := by
  rw [y_val (V3 m) c j d]
  have hi : ∀ i : Fin 4096, V3 m c main_v2_1 (ix2 d i) *ₑ V3 m c main_v0_2 (ix2 i j)
      = Cert.Spec.xs (sA m c) (uA m c) (aA m c) (wA m c) i d * aA m c i j := fun i => by rw [V3_xst, V3_copy]
  have hy : V3 m c main_v1_0 (ix2 j d) +ₑ ∑ i : Fin 4096, V3 m c main_v2_1 (ix2 d i) *ₑ V3 m c main_v0_2 (ix2 i j)
      = Cert.Spec.y0 (uA m c) (wA m c) j d + Cert.Spec.ttm (sA m c) (uA m c) (aA m c) (wA m c) d j :=
    (congrArg₂ (fun A B : EReal => A + B) (V3_y0 m c j d) (Finset.sum_congr rfl fun i _ => hi i)).trans rfl
  have hc : V3 m c main_v0_1 (ix2 j (0 : Fin 1)) +ₑ 1 = Cert.Spec.cs2 (aA m c) j := by rw [V3_colsum]; rfl
  exact (congrArg₂ (fun A B : EReal => max A 0 * Ideal.div 1 (Ideal.sqrt B)) hy hc).trans rfl

end Cert.KernelIdeal.HandVal

end
-- ==== Proof.Spec.Bridge.lean ====
/-
  The reference's normalised form of the layer, entry by entry on the extended reals, and its agreement
  with the kernel's form (KSpec) when every entry is a real and both degree factors are positive.

  With r i = √(rowsum i + 1), t j = √(colsum j + 1), x0 = s·w and y0 = u·w the reference computes

    nrm i j = a i j / r i / t j
    Rx i d  = max (x0 i d / r i + ∑ j, nrm i j · y0 j d) 0
    Ry j d  = max (y0 j d / t j + ∑ i, nrm i j · Rx i d) 0

  On the reals a division by a positive number is the product with its reciprocal, a positive factor moves
  across a finite sum and across the positive part, and 1 / (r·r) = (1/r)·(1/r).  So

    Rx i d = max (x0 i d + ∑ j, a i j · (y0 j d · (1/t j))) 0 · (1/r i)                   = Kx i d
    Ry j d = max (y0 j d + ∑ i, (max (acc i d) 0 · (1/(r i · r i))) · a i j) 0 · (1/t j)   = Ky j d.

  None of these steps holds at an infinity, which is why the entries are assumed real; and at
  rowsum + 1 ≤ 0 the reference divides by zero or takes the root of a negative number.
-/
import proofs.«123106_g36129264894623_cont_8to1_b_1457_4_alg».proof.Proof.Spec.KSpec
import Mathlib.Tactic.Ring
import Mathlib.Analysis.Real.Sqrt

noncomputable section

namespace Cert.Spec

open Idealize.ShloMosaic

/-! ## The reference's form -/

section Defs
variable (s : Fin 4096 → Fin 512 → EReal) (u : Fin 8192 → Fin 512 → EReal)
  (a : Fin 4096 → Fin 8192 → EReal) (w : Fin 512 → Fin 512 → EReal)

/-- The root of the source degree factor. -/
def rsa (i : Fin 4096) : EReal := Ideal.sqrt (rowsum a i + 1)
/-- The root of the target degree factor. -/
def rta (j : Fin 8192) : EReal := Ideal.sqrt (colsum a j + 1)
/-- The adjacency normalised by both roots. -/
def nrm (i : Fin 4096) (j : Fin 8192) : EReal := Ideal.div (Ideal.div (a i j) (rsa a i)) (rta a j)
/-- The reference's first result. -/
def Rx (i : Fin 4096) (d : Fin 512) : EReal :=
  max (Ideal.div (x0 s w i d) (rsa a i) + ∑ j : Fin 8192, nrm a i j * y0 u w j d) 0
/-- The reference's second result. -/
def Ry (j : Fin 8192) (d : Fin 512) : EReal :=
  max (Ideal.div (y0 u w j d) (rta a j) + ∑ i : Fin 4096, nrm a i j * Rx s u a w i d) 0
end Defs

/-! ## Real arithmetic, over any finite index types -/

section RealLaws
variable {I J : Type*} [Fintype I] [Fintype J]

/-- A finite sum of reals, read in the extended reals, is the sum of the readings. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert b t hb ih => rw [Finset.sum_insert hb, Finset.sum_insert hb, ih, EReal.coe_add]

/-- The maximum of two reals, read in the extended reals. -/
theorem coe_max (x y : ℝ) : ((max x y : ℝ) : EReal) = max (x : EReal) (y : EReal) :=
  (EReal.coe_strictMono.monotone).map_max

/-- The positive part commutes with a nonnegative factor, and the factor moves across the sum:
    the first result. -/
theorem real_x (A : J → ℝ) (Y : J → ℝ) (t : J → ℝ) (X r : ℝ) (hr : 0 ≤ r) :
    max ((∑ j, A j * (Y j * (1 / t j))) + X) 0 * r⁻¹
      = max (X * (1 / r) + ∑ j, (A j * (1 / r) * (1 / t j)) * Y j) 0 := by
  have hc : 0 ≤ r⁻¹ := inv_nonneg.mpr hr
  rw [max_mul_of_nonneg _ _ hc, zero_mul, add_mul, Finset.sum_mul, add_comm, one_div]
  congr 2
  refine Finset.sum_congr rfl fun j _ => ?_
  rw [one_div]; ring

/-- The same for the second result, with the squared factor split into its two roots. -/
theorem real_y (A : I → ℝ) (T : I → ℝ) (r ρ : I → ℝ) (hρ : ∀ i, ρ i = r i * r i) (Y t : ℝ) (ht : 0 ≤ t) :
    max (Y + ∑ i, (T i * (1 / ρ i)) * A i) 0 * (1 / t)
      = max (Y * (1 / t) + ∑ i, (A i * (1 / r i) * (1 / t)) * (T i * (r i)⁻¹)) 0 := by
  have hc : 0 ≤ 1 / t := one_div_nonneg.mpr ht
  rw [max_mul_of_nonneg _ _ hc, zero_mul, add_mul, Finset.sum_mul]
  congr 2
  refine Finset.sum_congr rfl fun i _ => ?_
  rw [hρ i, one_div, one_div, one_div, mul_inv]; ring

end RealLaws

/-! ## The two forms at real entries -/

section Coe
variable (S : Fin 4096 → Fin 512 → ℝ) (U : Fin 8192 → Fin 512 → ℝ)
  (A : Fin 4096 → Fin 8192 → ℝ) (W : Fin 512 → Fin 512 → ℝ)

/-- The real source degree factor. -/
def rho (i : Fin 4096) : ℝ := (∑ j : Fin 8192, A i j) + 1
/-- The real target degree factor. -/
def gam (j : Fin 8192) : ℝ := (∑ i : Fin 4096, A i j) + 1
/-- The real product of the source features and the weight. -/
def xr (i : Fin 4096) (d : Fin 512) : ℝ := ∑ k : Fin 512, S i k * W k d
/-- The real product of the target features and the weight. -/
def yr (j : Fin 8192) (d : Fin 512) : ℝ := ∑ k : Fin 512, U j k * W k d
/-- The real aggregated pre-activation. -/
def accr (i : Fin 4096) (d : Fin 512) : ℝ :=
  (∑ j : Fin 8192, A i j * (yr U W j d * (1 / Real.sqrt (gam A j)))) + xr S W i d

local notation "cS" => (fun i k => ((S i k : ℝ) : EReal))
local notation "cU" => (fun j k => ((U j k : ℝ) : EReal))
local notation "cA" => (fun i j => ((A i j : ℝ) : EReal))
local notation "cW" => (fun k d => ((W k d : ℝ) : EReal))

theorem rs2_coe (i : Fin 4096) : rowsum cA i + 1 = ((rho A i : ℝ) : EReal) := by
  unfold rowsum rho; rw [coe_sum, ← EReal.coe_one, ← EReal.coe_add]

theorem cs2_coe (j : Fin 8192) : colsum cA j + 1 = ((gam A j : ℝ) : EReal) := by
  unfold colsum gam; rw [coe_sum, ← EReal.coe_one, ← EReal.coe_add]

theorem x0_coe (i : Fin 4096) (d : Fin 512) : x0 cS cW i d = ((xr S W i d : ℝ) : EReal) := by
  unfold x0 xr; simp only [← EReal.coe_mul]; rw [coe_sum]

theorem y0_coe (j : Fin 8192) (d : Fin 512) : y0 cU cW j d = ((yr U W j d : ℝ) : EReal) := by
  unfold y0 yr; simp only [← EReal.coe_mul]; rw [coe_sum]

theorem pos_of_coe {x : EReal} {r : ℝ} (h : x = r) (hx : 0 < x) : 0 < r := by
  rw [h] at hx; exact EReal.coe_pos.mp hx

variable (hr : ∀ i, 0 < rho A i) (hc : ∀ j, 0 < gam A j)
include hr hc

theorem rsa_coe (i : Fin 4096) : rsa cA i = ((Real.sqrt (rho A i) : ℝ) : EReal) := by
  unfold rsa; rw [rs2_coe, Ideal.sqrt_coe, if_neg (not_lt.mpr (hr i).le)]

theorem rta_coe (j : Fin 8192) : rta cA j = ((Real.sqrt (gam A j) : ℝ) : EReal) := by
  unfold rta; rw [cs2_coe, Ideal.sqrt_coe, if_neg (not_lt.mpr (hc j).le)]

theorem rdtInv_coe (j : Fin 8192) : rdtInv cA j = ((1 / Real.sqrt (gam A j) : ℝ) : EReal) := by
  unfold rdtInv cs2; rw [cs2_coe, Ideal.sqrt_coe, if_neg (not_lt.mpr (hc j).le),
    Ideal.div_coe (Real.sqrt_pos.mpr (hc j)).ne', one_mul]

theorem acc_coe (i : Fin 4096) (d : Fin 512) : acc cS cU cA cW i d = ((accr S U A W i d : ℝ) : EReal) := by
  unfold acc accr ys
  simp only [y0_coe, rdtInv_coe A hr hc, x0_coe, ← EReal.coe_mul]
  rw [coe_sum, ← EReal.coe_add]

theorem tx_coe (i : Fin 4096) (d : Fin 512) :
    tx cS cU cA cW i d = ((max (accr S U A W i d) 0 : ℝ) : EReal) := by
  unfold tx; rw [acc_coe S U A W hr hc, coe_max, EReal.coe_zero]

theorem Kx_coe (i : Fin 4096) (d : Fin 512) :
    Kx cS cU cA cW i d = ((max (accr S U A W i d) 0 * (Real.sqrt (rho A i))⁻¹ : ℝ) : EReal) := by
  unfold Kx rs2
  rw [tx_coe S U A W hr hc, rs2_coe, Ideal.rsqrt_coe, if_neg (not_lt.mpr (hr i).le), if_neg (hr i).ne',
    ← EReal.coe_mul]

theorem xs_coe (i : Fin 4096) (d : Fin 512) :
    xs cS cU cA cW i d = ((max (accr S U A W i d) 0 * (1 / rho A i) : ℝ) : EReal) := by
  unfold xs rs2
  rw [tx_coe S U A W hr hc, rs2_coe, Ideal.div_coe (hr i).ne', one_mul, ← EReal.coe_mul]

theorem Ky_coe (j : Fin 8192) (d : Fin 512) :
    Ky cS cU cA cW j d
      = ((max (yr U W j d + ∑ i : Fin 4096, (max (accr S U A W i d) 0 * (1 / rho A i)) * A i j) 0
          * (1 / Real.sqrt (gam A j)) : ℝ) : EReal) := by
  unfold Ky ttm
  simp only [xs_coe S U A W hr hc, y0_coe, rdtInv_coe A hr hc, ← EReal.coe_mul]
  rw [coe_sum, ← EReal.coe_add, ← EReal.coe_zero, ← coe_max, ← EReal.coe_mul]

theorem nrm_coe (i : Fin 4096) (j : Fin 8192) :
    nrm cA i j = ((A i j * (1 / Real.sqrt (rho A i)) * (1 / Real.sqrt (gam A j)) : ℝ) : EReal) := by
  unfold nrm
  rw [rsa_coe A hr hc, rta_coe A hr hc, Ideal.div_coe (Real.sqrt_pos.mpr (hr i)).ne', ← EReal.coe_mul,
    Ideal.div_coe (Real.sqrt_pos.mpr (hc j)).ne', ← EReal.coe_mul]

theorem Rx_coe (i : Fin 4096) (d : Fin 512) :
    Rx cS cU cA cW i d
      = ((max (xr S W i d * (1 / Real.sqrt (rho A i))
          + ∑ j : Fin 8192, (A i j * (1 / Real.sqrt (rho A i)) * (1 / Real.sqrt (gam A j))) * yr U W j d) 0 : ℝ) : EReal) := by
  unfold Rx
  simp only [nrm_coe A hr hc, y0_coe, x0_coe, rsa_coe A hr hc, Ideal.div_coe (Real.sqrt_pos.mpr (hr i)).ne',
    ← EReal.coe_mul]
  rw [coe_sum, ← EReal.coe_add, ← EReal.coe_zero, ← coe_max]

/-- The first results agree at real entries. -/
theorem bridge_x_coe (i : Fin 4096) (d : Fin 512) : Kx cS cU cA cW i d = Rx cS cU cA cW i d := by
  rw [Kx_coe S U A W hr hc, Rx_coe S U A W hr hc]
  exact congrArg _ (real_x (fun j => A i j) (fun j => yr U W j d) (fun j => Real.sqrt (gam A j)) (xr S W i d)
    (Real.sqrt (rho A i)) (Real.sqrt_nonneg _))

/-- The second results agree at real entries. -/
theorem bridge_y_coe (j : Fin 8192) (d : Fin 512) : Ky cS cU cA cW j d = Ry cS cU cA cW j d := by
  rw [Ky_coe S U A W hr hc]
  unfold Ry
  simp only [← bridge_x_coe S U A W hr hc, Kx_coe S U A W hr hc, nrm_coe A hr hc, y0_coe, rta_coe A hr hc,
    Ideal.div_coe (Real.sqrt_pos.mpr (hc j)).ne', ← EReal.coe_mul]
  rw [coe_sum, ← EReal.coe_add, ← EReal.coe_zero, ← coe_max]
  exact congrArg _ (real_y (fun i => A i j) (fun i => max (accr S U A W i d) 0) (fun i => Real.sqrt (rho A i))
    (rho A) (fun i => (Real.mul_self_sqrt (hr i).le).symm) (yr U W j d) (Real.sqrt (gam A j)) (Real.sqrt_nonneg _))

end Coe

/-! ## The bridge -/

section Bridge
variable {s : Fin 4096 → Fin 512 → EReal} {u : Fin 8192 → Fin 512 → EReal}
  {a : Fin 4096 → Fin 8192 → EReal} {w : Fin 512 → Fin 512 → EReal}

/-- Real entries and positive degree factors, as real arrays. -/
theorem real_arrays (hs : ∀ i k, ∃ r : ℝ, s i k = r) (hu : ∀ j k, ∃ r : ℝ, u j k = r)
    (ha : ∀ i j, ∃ r : ℝ, a i j = r) (hw : ∀ k d, ∃ r : ℝ, w k d = r)
    (hr : ∀ i, 0 < rowsum a i + 1) (hc : ∀ j, 0 < colsum a j + 1) :
    ∃ (S : Fin 4096 → Fin 512 → ℝ) (U : Fin 8192 → Fin 512 → ℝ) (A : Fin 4096 → Fin 8192 → ℝ)
      (W : Fin 512 → Fin 512 → ℝ),
      s = (fun i k => ((S i k : ℝ) : EReal)) ∧ u = (fun j k => ((U j k : ℝ) : EReal))
        ∧ a = (fun i j => ((A i j : ℝ) : EReal)) ∧ w = (fun k d => ((W k d : ℝ) : EReal))
        ∧ (∀ i, 0 < rho A i) ∧ (∀ j, 0 < gam A j) := by
  choose S hS using hs
  choose U hU using hu
  choose A hA using ha
  choose W hW using hw
  have ea : a = (fun i j => ((A i j : ℝ) : EReal)) := funext fun i => funext fun j => hA i j
  subst ea
  refine ⟨S, U, A, W, funext fun i => funext fun k => hS i k, funext fun j => funext fun k => hU j k, rfl,
    funext fun k => funext fun d => hW k d, fun i => ?_, fun j => ?_⟩
  · exact pos_of_coe (rs2_coe A i) (hr i)
  · exact pos_of_coe (cs2_coe A j) (hc j)

theorem bridge_x (hs : ∀ i k, ∃ r : ℝ, s i k = r) (hu : ∀ j k, ∃ r : ℝ, u j k = r)
    (ha : ∀ i j, ∃ r : ℝ, a i j = r) (hw : ∀ k d, ∃ r : ℝ, w k d = r)
    (hr : ∀ i, 0 < rowsum a i + 1) (hc : ∀ j, 0 < colsum a j + 1) : Kx s u a w = Rx s u a w := by
  obtain ⟨S, U, A, W, rfl, rfl, rfl, rfl, hr', hc'⟩ := real_arrays hs hu ha hw hr hc
  exact funext fun i => funext fun d => bridge_x_coe S U A W hr' hc' i d

theorem bridge_y (hs : ∀ i k, ∃ r : ℝ, s i k = r) (hu : ∀ j k, ∃ r : ℝ, u j k = r)
    (ha : ∀ i j, ∃ r : ℝ, a i j = r) (hw : ∀ k d, ∃ r : ℝ, w k d = r)
    (hr : ∀ i, 0 < rowsum a i + 1) (hc : ∀ j, 0 < colsum a j + 1) : Ky s u a w = Ry s u a w := by
  obtain ⟨S, U, A, W, rfl, rfl, rfl, rfl, hr', hc'⟩ := real_arrays hs hu ha hw hr hc
  exact funext fun j => funext fun d => bridge_y_coe S U A W hr' hc' j d

end Bridge

end Cert.Spec

end
-- ==== Proof.Spec.Pre.lean ====
/-
  The precondition, read at the extended reals.

  The printed predicate is a conjunction of six `all`s.  Four say, array by array, that every entry has
  absolute value below +∞: on the extended reals that is "the entry is a real".  Two say that every row sum
  and every column sum of the adjacency, plus one, is above zero.  A host sum over one axis is its initial
  value, here zero, plus the exact sum over that axis's coordinates, so these are the degree factors
  `rowsum + 1` and `colsum + 1` of the specification.
-/
import proofs.«123106_g36129264894623_cont_8to1_b_1457_4_alg».proof.Pre_finite_inputs
import proofs.«123106_g36129264894623_cont_8to1_b_1457_4_alg».proof.Proof.Gen.Pre_finite_inputs
import proofs.«123106_g36129264894623_cont_8to1_b_1457_4_alg».proof.Proof.Spec.KSpec
import Idealize.ShloMosaic.Lib.ReduceAll
import Idealize.ShloMosaic.Lib.ValueIdx
import Idealize.ShloMosaic.PureOps.Ideal.Laws

noncomputable section

namespace Cert.Spec

open Idealize.ShloMosaic Idealize.ShloMosaic.ValueIdx
open Cert.Pre_finite_inputs

/-- The scalar shape has one index. -/
instance subsingleton_scalar_idx : Subsingleton S_.Idx := ⟨fun _ _ => funext fun d => d.elim0⟩

/-! ## The literals -/

/-- The pattern of +∞ denotes the top element. -/
theorem ofBits_inf : Ideal.ofBits .f32 0x7F800000#32 = ⊤ := by simp [Ideal.ofBits, Ideal.ieee]

/-- The pattern of 1.0 denotes one. -/
theorem ofBits_one : Ideal.ofBits .f32 0x3F800000#32 = 1 := IdealRules.sign_bit.ideal_onePat .f32

/-! ## One comparison -/

/-- An extended real whose absolute value is below +∞ is a real. -/
theorem real_of_abs_lt_inf (x : EReal)
    (h : Ideal.cmp .olt (max x (-x)) (Ideal.ofBits .f32 0x7F800000#32) = 1#1) : ∃ r : ℝ, x = r := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- A "greater than" that came out true is the strict order. -/
theorem lt_of_cmp_ogt (x y : EReal) (h : Ideal.cmp .ogt x y = 1#1) : y < x := by
  by_contra hn
  simp [Ideal.cmp, hn] at h

/-! ## The four finiteness conjuncts -/

/-- `all (|A| < +∞)` over a whole array: every entry is a real. -/
theorem real_of_all {s : Shape} {axes : List (Fin s.rank)} (A bc : FVec Ideal s .f32)
    (hbc : ∀ i, bc i = Ideal.ofBits .f32 0x7F800000#32) (hred : s.ReducesTo axes S_) (hu : 0 < S_.numel)
    (h : Host.reduce IntOp.andi (cmpf .olt (Host.absf A) bc) (constantI S_ 1 1#1) hred hu ix0 = 1#1)
    (i : s.Idx) : ∃ r : ℝ, A i = r := by
  have e : cmpf .olt (Host.absf A) bc i = 1#1 := Host.reduce_andi_all _ _ hred hu ix0 h i
  refine real_of_abs_lt_inf (A i) ?_
  rw [← hbc i]
  exact e

/-! ## The two degree conjuncts -/

/-- The host's sum of the adjacency along its second axis, from zero, is the row sum. -/
theorem hostRowSum (A2 : FVec Ideal S4096x8192 .f32) (hR : S4096x8192.ReducesTo [1] S4096) (i : Fin 4096) :
    Ideal.hostReduceAdd hR A2 (Ideal.ofBits .f32 0x00000000#32) (ix1 i)
      = rowsum (fun i j => A2 (ix2 i j)) i := by
  rw [Ideal.hostReduceAdd_single hR (by decide), Ideal.ofBits_zero_f32, zero_add]
  unfold rowsum
  refine Finset.sum_congr rfl fun k _ => ?_
  exact congrArg A2 (funext fun a => Fin.ext (by match a with | ⟨0, _⟩ => rfl | ⟨1, _⟩ => rfl))

/-- The host's sum of the adjacency along its first axis, from zero, is the column sum. -/
theorem hostColSum (A2 : FVec Ideal S4096x8192 .f32) (hR : S4096x8192.ReducesTo [0] S8192) (j : Fin 8192) :
    Ideal.hostReduceAdd hR A2 (Ideal.ofBits .f32 0x00000000#32) (ix1 j)
      = colsum (fun i j => A2 (ix2 i j)) j := by
  rw [Ideal.hostReduceAdd_single hR (by decide), Ideal.ofBits_zero_f32, zero_add]
  unfold colsum
  refine Finset.sum_congr rfl fun k _ => ?_
  exact congrArg A2 (funext fun a => Fin.ext (by match a with | ⟨0, _⟩ => rfl | ⟨1, _⟩ => rfl))

/-- `all (sum + 1 > 0)` over a vector of sums: each sum plus one is positive. -/
theorem pos_of_all {n : Nat} {axes : List (Fin (⟨1, ![n]⟩ : Shape).rank)} (v one zero : FVec Ideal ⟨1, ![n]⟩ .f32)
    (h1 : ∀ i, one i = Ideal.ofBits .f32 0x3F800000#32) (h0 : ∀ i, zero i = Ideal.ofBits .f32 0x00000000#32)
    (hred : (⟨1, ![n]⟩ : Shape).ReducesTo axes S_) (hu : 0 < S_.numel)
    (h : Host.reduce IntOp.andi (cmpf .ogt (addf v one) zero) (constantI S_ 1 1#1) hred hu ix0 = 1#1)
    (i : Fin n) : 0 < v (ix1 i) + 1 := by
  have e : cmpf .ogt (addf v one) zero (ix1 i) = 1#1 := Host.reduce_andi_all _ _ hred hu ix0 h (ix1 i)
  have e' : Ideal.cmp .ogt (v (ix1 i) + one (ix1 i)) (zero (ix1 i)) = 1#1 := e
  rw [h1, h0, ofBits_one, Ideal.ofBits_zero_f32] at e'
  exact lt_of_cmp_ogt _ _ e'

/-! ## The precondition decoded -/

theorem pre_decode [Cert.Pre_finite_inputs.Facts] (A0 : FVec Ideal S4096x512 .f32) (A1 : FVec Ideal S8192x512 .f32)
    (A2 : FVec Ideal S4096x8192 .f32) (A3 : FVec Ideal S512x512 .f32)
    (h : Cert.Pre_finite_inputs.fn (F := Ideal) A0 A1 A2 A3 = (fun _ => 1#1)) :
    (∀ i k, ∃ r : ℝ, A0 (ix2 i k) = r) ∧ (∀ j k, ∃ r : ℝ, A1 (ix2 j k) = r)
      ∧ (∀ i j, ∃ r : ℝ, A2 (ix2 i j) = r) ∧ (∀ k d, ∃ r : ℝ, A3 (ix2 k d) = r)
      ∧ (∀ i, 0 < Cert.Spec.rowsum (fun i j => A2 (ix2 i j)) i + 1)
      ∧ (∀ j, 0 < Cert.Spec.colsum (fun i j => A2 (ix2 i j)) j + 1) := by
  have h0 := congrFun h ix0
  dsimp only [fn, fn_part1, fn_part2, andi] at h0
  simp only [IntOp.andi_eq_one] at h0
  obtain ⟨⟨⟨⟨⟨f0, f1⟩, f2⟩, f3⟩, fr⟩, fc⟩ := h0
  refine ⟨fun i k => real_of_all A0 _ (fun _ => rfl) _ _ f0 (ix2 i k),
    fun j k => real_of_all A1 _ (fun _ => rfl) _ _ f1 (ix2 j k),
    fun i j => real_of_all A2 _ (fun _ => rfl) _ _ f2 (ix2 i j),
    fun k d => real_of_all A3 _ (fun _ => rfl) _ _ f3 (ix2 k d), fun i => ?_, fun j => ?_⟩
  · rw [← hostRowSum A2 Facts.reducesTo_S4096x8192_S4096_d1 i]
    exact pos_of_all _ _ _ (fun _ => rfl) (fun _ => rfl) _ _ fr i
  · rw [← hostColSum A2 Facts.reducesTo_S4096x8192_S8192_d0 j]
    exact pos_of_all _ _ _ (fun _ => rfl) (fun _ => rfl) _ _ fc j

end Cert.Spec

end
-- ==== Proof.Spec.Ref.lean ====
/-
  The reference's two results, read entry by entry: they are the normalised form `Rx`, `Ry` of the
  argument arrays' coordinates.

  Each result is a composition of host operations; read at an index (i, d) every one of them looks at one
  element of its operands, a sum over one axis or a contraction at a whole row or column of them.  Followed from
  the result back to the arguments:

    root of the source degree at row i     √(0 + ∑ j, a i j + 1)                         = rsa a i
    root of the target degree at column j  √(0 + ∑ i, a i j + 1)                         = rta a j
    the normalised adjacency at (i, j)     a i j / rsa a i / rta a j                    = nrm a i j
    the first result at (i, d)             max (x0 i d / rsa a i + ∑ j, nrm i j · y0 j d) 0   = Rx i d
    the second result at (j, d)            max (y0 j d / rta a j + ∑ i, nrm i j · Rx i d) 0   = Ry j d

  where the transposed adjacency at (j, i) is the adjacency at (i, j), the literal 1.0 denotes one and the
  sums start from the literal 0.0, which denotes zero.
-/
import proofs.«123106_g36129264894623_cont_8to1_b_1457_4_alg».proof.Proof.Gen.ReferenceIdeal.Read
import proofs.«123106_g36129264894623_cont_8to1_b_1457_4_alg».proof.Proof.Spec.Bridge
import Idealize.ShloMosaic.Lib.ValueIdx

noncomputable section

namespace Cert.Spec

open Idealize.ShloMosaic Idealize.ShloMosaic.ValueIdx
open Cert.ReferenceIdeal Cert.ReferenceIdeal.Read

/-- The pattern of 1.0 denotes one. -/
theorem ofBits_one_f32 : Ideal.ofBits .f32 0x3F800000#32 = 1 := IdealRules.sign_bit.ideal_onePat .f32

section
variable (A0 : FVec Ideal S4096x512 .f32) (A1 : FVec Ideal S8192x512 .f32)
  (A2 : FVec Ideal S4096x8192 .f32) (A3 : FVec Ideal S512x512 .f32)

local notation "cs" => (fun (i : Fin 4096) (k : Fin 512) => A0 (ix2 i k))
local notation "cu" => (fun (j : Fin 8192) (k : Fin 512) => A1 (ix2 j k))
local notation "ca" => (fun (i : Fin 4096) (j : Fin 8192) => A2 (ix2 i j))
local notation "cw" => (fun (k : Fin 512) (d : Fin 512) => A3 (ix2 k d))

/-! ## The two degree sums and their roots -/

/-- The sum along the second axis, from the literal zero, is the row sum. -/
theorem ref_rowsum (i : Fin 4096) : val_main_v2 (F := Ideal) A2 (ix1 i) = rowsum ca i := by
  rw [val_main_v2_apply, val_main_cst_apply, Ideal.ofBits_def, Ideal.ofBits_zero_f32, zero_add]
  unfold rowsum
  refine Finset.sum_congr rfl fun k _ => congrArg A2 (funext fun a => ?_)
  match a with | ⟨0, _⟩ => rfl | ⟨1, _⟩ => rfl

/-- The sum along the first axis, from the literal zero, is the column sum. -/
theorem ref_colsum (j : Fin 8192) : val_main_v7 (F := Ideal) A2 (ix1 j) = colsum ca j := by
  rw [val_main_v7_apply, val_main_cst_1_apply, Ideal.ofBits_def, Ideal.ofBits_zero_f32, zero_add]
  unfold colsum
  refine Finset.sum_congr rfl fun k _ => congrArg A2 (funext fun a => ?_)
  match a with | ⟨0, _⟩ => rfl | ⟨1, _⟩ => rfl

/-- The source degree's root, kept as a column. -/
theorem ref_rsa (i : Fin 4096) (z : Fin 1) : val_main_v6 (F := Ideal) A2 (ix2 i z) = rsa ca i := by
  have e3 : idx_main_v3 (ix2 i z) = ix1 i := funext fun a => by match a with | ⟨0, _⟩ => rfl
  rw [val_main_v6_apply, val_main_v5_apply, val_main_v3_apply, val_main_v4_apply, val_main_cst_0_apply, e3,
    ref_rowsum, Ideal.hostUnary_sqrt_def, Ideal.addf_def, Ideal.ofBits_def, ofBits_one_f32]
  rfl

/-- The target degree's root, kept as a row. -/
theorem ref_rta (z : Fin 1) (j : Fin 8192) : val_main_v11 (F := Ideal) A2 (ix2 z j) = rta ca j := by
  have e8 : idx_main_v8 (ix2 z j) = ix1 j := funext fun a => by match a with | ⟨0, _⟩ => rfl
  rw [val_main_v11_apply, val_main_v10_apply, val_main_v8_apply, val_main_v9_apply, val_main_cst_2_apply, e8,
    ref_colsum, Ideal.hostUnary_sqrt_def, Ideal.addf_def, Ideal.ofBits_def, ofBits_one_f32]
  rfl

/-! ## The two products with the weight -/

theorem ref_x0 (i : Fin 4096) (d : Fin 512) : val_main_v0 (F := Ideal) A0 A3 (ix2 i d) = x0 cs cw i d := by
  rw [val_main_v0_apply]
  unfold x0
  refine Finset.sum_congr rfl fun k _ => ?_
  have el : lidx_main_v0 (ix2 i d) k = ix2 i k := funext fun a => by match a with | ⟨0, _⟩ => rfl | ⟨1, _⟩ => rfl
  have er : ridx_main_v0 (ix2 i d) k = ix2 k d := funext fun a => by match a with | ⟨0, _⟩ => rfl | ⟨1, _⟩ => rfl
  rw [el, er]

theorem ref_y0 (j : Fin 8192) (d : Fin 512) : val_main_v1 (F := Ideal) A1 A3 (ix2 j d) = y0 cu cw j d := by
  rw [val_main_v1_apply]
  unfold y0
  refine Finset.sum_congr rfl fun k _ => ?_
  have el : lidx_main_v1 (ix2 j d) k = ix2 j k := funext fun a => by match a with | ⟨0, _⟩ => rfl | ⟨1, _⟩ => rfl
  have er : ridx_main_v1 (ix2 j d) k = ix2 k d := funext fun a => by match a with | ⟨0, _⟩ => rfl | ⟨1, _⟩ => rfl
  rw [el, er]

/-! ## The normalised adjacency -/

theorem ref_nrm (i : Fin 4096) (j : Fin 8192) : val_main_v15 (F := Ideal) A2 (ix2 i j) = nrm ca i j := by
  have e12 : idx_main_v12 (ix2 i j) = ix2 i (⟨0, Nat.one_pos⟩ : Fin 1) :=
    funext fun a => by match a with | ⟨0, _⟩ => rfl | ⟨1, _⟩ => rfl
  have e14 : idx_main_v14 (ix2 i j) = ix2 (⟨0, Nat.one_pos⟩ : Fin 1) j :=
    funext fun a => by match a with | ⟨0, _⟩ => rfl | ⟨1, _⟩ => rfl
  rw [val_main_v15_apply, val_main_v13_apply, val_main_v12_apply, val_main_v14_apply, e12, e14, ref_rsa, ref_rta,
    Ideal.hostDivf_def, Ideal.hostDivf_def]
  rfl

/-! ## The two results -/

/-- The first result at (i, d). -/
theorem ref_x_at (i : Fin 4096) (d : Fin 512) :
    val_main_v20 (F := Ideal) A0 A1 A2 A3 (ix2 i d) = Rx cs cu ca cw i d := by
  have e16 : idx_main_v16 (ix2 i d) = ix2 i (⟨0, Nat.one_pos⟩ : Fin 1) :=
    funext fun a => by match a with | ⟨0, _⟩ => rfl | ⟨1, _⟩ => rfl
  have esum : ∑ k : Fin 8192, val_main_v15 (F := Ideal) A2 (lidx_main_v18 (ix2 i d) k)
        * val_main_v1 (F := Ideal) A1 A3 (ridx_main_v18 (ix2 i d) k)
      = ∑ j : Fin 8192, nrm ca i j * y0 cu cw j d := by
    refine Finset.sum_congr rfl fun k _ => ?_
    have el : lidx_main_v18 (ix2 i d) k = ix2 i k := funext fun a => by match a with | ⟨0, _⟩ => rfl | ⟨1, _⟩ => rfl
    have er : ridx_main_v18 (ix2 i d) k = ix2 k d := funext fun a => by match a with | ⟨0, _⟩ => rfl | ⟨1, _⟩ => rfl
    rw [el, er, ref_nrm, ref_y0]
  rw [val_main_v20_apply, val_main_v19_apply, val_main_v17_apply, val_main_v18_apply, val_main_v16_apply,
    val_main_call0_v0_apply, val_main_call0_cst_apply, e16, ref_rsa, ref_x0, esum, Ideal.maximumf_def,
    Ideal.addf_def, Ideal.hostDivf_def, Ideal.ofBits_def, Ideal.ofBits_zero_f32]
  rfl

/-- The second result at (j, d). -/
theorem ref_y_at (j : Fin 8192) (d : Fin 512) :
    val_main_v27 (F := Ideal) A0 A1 A2 A3 (ix2 j d) = Ry cs cu ca cw j d := by
  have e22 : idx_main_v22 (ix2 j d) = ix2 j (⟨0, Nat.one_pos⟩ : Fin 1) :=
    funext fun a => by match a with | ⟨0, _⟩ => rfl | ⟨1, _⟩ => rfl
  have e21 : idx_main_v21 (ix2 j (⟨0, Nat.one_pos⟩ : Fin 1)) = ix2 (⟨0, Nat.one_pos⟩ : Fin 1) j :=
    funext fun a => by match a with | ⟨0, _⟩ => rfl | ⟨1, _⟩ => rfl
  have esum : ∑ k : Fin 4096, val_main_v24 (F := Ideal) A2 (lidx_main_v25 (ix2 j d) k)
        * val_main_v20 (F := Ideal) A0 A1 A2 A3 (ridx_main_v25 (ix2 j d) k)
      = ∑ i : Fin 4096, nrm ca i j * Rx cs cu ca cw i d := by
    refine Finset.sum_congr rfl fun k _ => ?_
    have el : lidx_main_v25 (ix2 j d) k = ix2 j k := funext fun a => by match a with | ⟨0, _⟩ => rfl | ⟨1, _⟩ => rfl
    have et : idx_main_v24 (ix2 j k) = ix2 k j := funext fun a => by match a with | ⟨0, _⟩ => rfl | ⟨1, _⟩ => rfl
    have er : ridx_main_v25 (ix2 j d) k = ix2 k d := funext fun a => by match a with | ⟨0, _⟩ => rfl | ⟨1, _⟩ => rfl
    rw [el, er, val_main_v24_apply, et, ref_nrm, ref_x_at]
  rw [val_main_v27_apply, val_main_v26_apply, val_main_v23_apply, val_main_v25_apply, val_main_v22_apply,
    val_main_v21_apply, val_main_call1_v0_apply, val_main_call1_cst_apply, e22, e21, ref_rta, ref_y0, esum,
    Ideal.maximumf_def, Ideal.addf_def, Ideal.hostDivf_def, Ideal.ofBits_def, Ideal.ofBits_zero_f32]
  rfl

/-- The first result as a whole array. -/
theorem ref_x :
    val_main_v20 (F := Ideal) A0 A1 A2 A3 = fun idx => Rx cs cu ca cw (idx 0) (idx 1) := by
  funext idx
  rw [eq_ix2 idx]
  exact ref_x_at A0 A1 A2 A3 (idx 0) (idx 1)

/-- The second result as a whole array. -/
theorem ref_y :
    val_main_v27 (F := Ideal) A0 A1 A2 A3 = fun idx => Ry cs cu ca cw (idx 0) (idx 1) := by
  funext idx
  rw [eq_ix2 idx]
  exact ref_y_at A0 A1 A2 A3 (idx 0) (idx 1)

end

end Cert.Spec

end
-- ==== Proof.lean ====
/-
  The certificate of a bipartite graph-convolution layer computed in four kernel launches against its plain
  reference.

  With `rowsum`, `colsum` the adjacency's degree sums, `x0 = s·w`, `y0 = u·w`, the reference forms the normalised
  adjacency `a i j / √(rowsum i + 1) / √(colsum j + 1)` and computes
      x = relu (x0 / √(rowsum+1) + nrm · y0),      y = relu (y0 / √(colsum+1) + nrmᵀ · x),
  while the kernel never forms it: it scales `y0` by `1/√(colsum+1)` before the first aggregation, the positive part
  by `rsqrt (rowsum+1)` (first result) and by `1/(rowsum+1)` before the second aggregation, and the second positive
  part by `1/√(colsum+1)`.  Under the precondition — finite entries, `rowsum + 1 > 0`, `colsum + 1 > 0` — both are
  the same real numbers: division by a positive root distributes over the finite sums and commutes with the
  positive part (`Cert.Spec.bridge_x`, `bridge_y`).

  The kernel's side: each launch's proof data and body obligation, the run over the launch boundaries and the
  arrays' values are in `Proof/KI` (and, for the word-level program, the same text in `Proof/K`), `Proof/Val`;
  the reference's side is its generated run read index by index (`Proof/Spec/Ref.lean`).
-/
import proofs.«123106_g36129264894623_cont_8to1_b_1457_4_alg».proof.Defs
import proofs.«123106_g36129264894623_cont_8to1_b_1457_4_alg».proof.Proof.Gen.Kernel
import proofs.«123106_g36129264894623_cont_8to1_b_1457_4_alg».proof.Proof.Gen.KernelIdeal
import proofs.«123106_g36129264894623_cont_8to1_b_1457_4_alg».proof.Proof.Gen.ReferenceIdeal
import proofs.«123106_g36129264894623_cont_8to1_b_1457_4_alg».proof.Proof.Gen.Pre_finite_inputs
import proofs.«123106_g36129264894623_cont_8to1_b_1457_4_alg».proof.Proof.Gen.ReferenceIdeal.Run
import proofs.«123106_g36129264894623_cont_8to1_b_1457_4_alg».proof.Proof.Gen.ReferenceIdeal.Read
import proofs.«123106_g36129264894623_cont_8to1_b_1457_4_alg».proof.Proof.K.Run
import proofs.«123106_g36129264894623_cont_8to1_b_1457_4_alg».proof.Proof.KI.Run
import proofs.«123106_g36129264894623_cont_8to1_b_1457_4_alg».proof.Proof.Val.Compose
import proofs.«123106_g36129264894623_cont_8to1_b_1457_4_alg».proof.Proof.Spec.Bridge
import proofs.«123106_g36129264894623_cont_8to1_b_1457_4_alg».proof.Proof.Spec.Pre
import proofs.«123106_g36129264894623_cont_8to1_b_1457_4_alg».proof.Proof.Spec.Ref
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

attribute [local instance] Cert.Kernel.Gen.facts Cert.KernelIdeal.Gen.facts Cert.ReferenceIdeal.Gen.facts Cert.Pre_finite_inputs.Gen.facts

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

section Values

open Cert.KernelIdeal Cert.KernelIdeal.Gen Cert.KernelIdeal.Hand Cert.KernelIdeal.HandVal

variable (m : (ℓ : Loc Cert.KernelIdeal.nD Cert.KernelIdeal.τ Cert.KernelIdeal.sig) → Buf (Elt Ideal) ℓ) (c : Dev Cert.KernelIdeal.nD)

/-- The first result array is the reference's first result term of the same arguments. -/
theorem result0_eq (hpre : Cert.Pre_KernelIdeal m) :
    (dat2 (V2 m) c).arrAt 5 cfg2.N
      = Cert.ReferenceIdeal.Read.val_main_v20 (F := Ideal) (m ((c.tc : Thread nD τ).loc main_arg0)) (m ((c.tc : Thread nD τ).loc main_arg1))
          (m ((c.tc : Thread nD τ).loc main_arg2)) (m ((c.tc : Thread nD τ).loc main_arg3)) := by
  obtain ⟨h0, h1, h2, h3, hr, hc⟩ := Cert.Spec.pre_decode _ _ _ _ (hpre c)
  rw [Cert.Spec.ref_x]
  funext idx
  obtain ⟨i, d, rfl⟩ : ∃ (i : Fin 4096) (d : Fin 512), idx = ix2 i d := ⟨idx 0, idx 1, eq_ix2 idx⟩
  rw [kx_val m c i d]
  exact congrFun (congrFun (Cert.Spec.bridge_x h0 h1 h2 h3 hr hc) i) d

/-- The second result array is the reference's second result term of the same arguments. -/
theorem result1_eq (hpre : Cert.Pre_KernelIdeal m) :
    (dat3 (V3 m) c).arrAt 4 cfg3.N
      = Cert.ReferenceIdeal.Read.val_main_v27 (F := Ideal) (m ((c.tc : Thread nD τ).loc main_arg0)) (m ((c.tc : Thread nD τ).loc main_arg1))
          (m ((c.tc : Thread nD τ).loc main_arg2)) (m ((c.tc : Thread nD τ).loc main_arg3)) := by
  obtain ⟨h0, h1, h2, h3, hr, hc⟩ := Cert.Spec.pre_decode _ _ _ _ (hpre c)
  rw [Cert.Spec.ref_y]
  funext idx
  obtain ⟨j, d, rfl⟩ : ∃ (j : Fin 8192) (d : Fin 512), idx = ix2 j d := ⟨idx 0, idx 1, eq_ix2 idx⟩
  rw [ky_val m c j d]
  exact congrFun (congrFun (Cert.Spec.bridge_y h0 h1 h2 h3 hr hc) j) d

end Values

/-- Run from memories that agree on the arguments, the idealized kernel and the idealized reference end with equal
    results: the kernel's arrays are the closed formulas of the arguments, which under the precondition are the
    reference's normalised form, which is what the reference's run computes. -/
theorem algebraic : Cert.algebraic_KernelIdeal_ReferenceIdeal := by
  intro m ρ m' ρ' hpre hagree
  refine ⟨fun c => (Cert.KernelIdeal.Hand.dat2 (Cert.KernelIdeal.Hand.V2 m) c).arrAt 5 Cert.KernelIdeal.cfg2.N,
    fun c => (Cert.KernelIdeal.Hand.dat3 (Cert.KernelIdeal.Hand.V3 m) c).arrAt 4 Cert.KernelIdeal.cfg3.N,
    Cert.KernelIdeal.Hand.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v20_eq, (hagree c).1, (hagree c).2.1, (hagree c).2.2.1, (hagree c).2.2.2]
    exact (result0_eq m c hpre).symm
  · rw [Cert.ReferenceIdeal.Read.val_main_v27_eq, (hagree c).1, (hagree c).2.1, (hagree c).2.2.1, (hagree c).2.2.2]
    exact (result1_eq m c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
